-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v31)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192x64 : Shape := ⟨2, ![8192, 64]⟩
abbrev S262144 : Shape := ⟨1, ![262144]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192x64 : S_.BroadcastsInDim S8192x64 (![] : Fin 0 → Fin S8192x64.rank)
  reducesTo_S8192x64_S_d0_1 : S8192x64.ReducesTo [0, 1] S_
  bcast_S_S262144 : S_.BroadcastsInDim S262144 (![] : Fin 0 → Fin S262144.rank)
  reducesTo_S262144_S_d0 : S262144.ReducesTo [0] S_

variable [Facts]

def fn_part1 {F : FTy → Type} [FloatOps F] (main_v13 : IVec S_ 1) (main_v16 : IVec S262144 1) : IVec S_ 1 :=
  let main_c_5 : IVec S_ 1 := constantI S_ 1 1#1
  let main_v17 : IVec S_ 1 := (fun x v => Host.reduce IntOp.andi x v reducesTo_S262144_S_d0 h_S_) main_v16 main_c_5
  let main_v18 : IVec S_ 1 := andi main_v13 main_v17
  main_v18

def fn {F : FTy → Type} [FloatOps F] (main_arg0 : FVec F S8192x8192 .f32) (main_arg1 : FVec F S8192x8192 .f32) (main_arg2 : FVec F S8192x64 .f32) (main_arg3 : FVec F S262144 .f32) (main_arg4 : IVec S262144 32) (main_arg5 : IVec S262144 32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192x64 .f32 := Host.absf main_arg2
  let main_cst_2 : FVec F S_ .f32 := constant S_ .f32 0x7F800000#32
  let main_v10 : FVec F S8192x64 .f32 := broadcastInDim S8192x64 ![] bcast_S_S8192x64 main_cst_2
  let main_v11 : IVec S8192x64 1 := cmpf .olt main_v9 main_v10
  let main_c_3 : IVec S_ 1 := constantI S_ 1 1#1
  let main_v12 : IVec S_ 1 := (fun x v => Host.reduce IntOp.andi x v reducesTo_S8192x64_S_d0_1 h_S_) main_v11 main_c_3
  let main_v13 : IVec S_ 1 := andi main_v8 main_v12
  let main_v14 : FVec F S262144 .f32 := Host.absf main_arg3
  let main_cst_4 : FVec F S_ .f32 := constant S_ .f32 0x7F800000#32
  let main_v15 : FVec F S262144 .f32 := broadcastInDim S262144 ![] bcast_S_S262144 main_cst_4
  let main_v16 : IVec S262144 1 := cmpf .olt main_v14 main_v15
  fn_part1 (F := F) main_v13 main_v16
-- ==== Kernel.lean ====
abbrev S8192x8192 : Shape := ⟨2, ![8192, 8192]⟩
abbrev S8192x64 : Shape := ⟨2, ![8192, 64]⟩
abbrev S262144 : Shape := ⟨1, ![262144]⟩
abbrev S1024x2048 : Shape := ⟨2, ![1024, 2048]⟩
abbrev S2048x64 : Shape := ⟨2, ![2048, 64]⟩
abbrev S1024x64 : Shape := ⟨2, ![1024, 64]⟩
abbrev S1x1 : Shape := ⟨2, ![1, 1]⟩
abbrev S1024 : Shape := ⟨1, ![1024]⟩
abbrev S1024x1 : Shape := ⟨2, ![1024, 1]⟩
abbrev S1 : Shape := ⟨1, ![1]⟩
abbrev S_ : Shape := ⟨0, ![]⟩
abbrev S262144x1 : Shape := ⟨2, ![262144, 1]⟩
abbrev S262144x2 : Shape := ⟨2, ![262144, 2]⟩
abbrev S262144x64 : Shape := ⟨2, ![262144, 64]⟩

abbrev nBuf : Space → Nat
  | .hbm => 45
  | .vmem => 11
  | .smem => 0
  | _ => 0

abbrev bufTy : (tb : Table) → Fin (tcTables nBuf tb) → BufTy
  | .hbm, ⟨0, _⟩ => ⟨S8192x8192, .f32⟩
  | .hbm, ⟨1, _⟩ => ⟨S8192x8192, .f32⟩
  | .hbm, ⟨2, _⟩ => ⟨S8192x64, .f32⟩
  | .hbm, ⟨3, _⟩ => ⟨S262144, .f32⟩
  | .hbm, ⟨4, _⟩ => ⟨S262144, .i32⟩
  | .hbm, ⟨5, _⟩ => ⟨S262144, .i32⟩
  | .hbm, ⟨6, _⟩ => ⟨S8192x64, .f32⟩
  | .hbm, ⟨7, _⟩ => ⟨S1x1, .f32⟩
  | .hbm, ⟨8, _⟩ => ⟨S_, .f32⟩
  | .hbm, ⟨9, _⟩ => ⟨S_, .f32⟩
  | .hbm, ⟨10, _⟩ => ⟨S_, .i32⟩
  | .hbm, ⟨11, _⟩ => ⟨S262144, .i32⟩
  | .hbm, ⟨12, _⟩ => ⟨S262144, .i1⟩
  | .hbm, ⟨13, _⟩ => ⟨S_, .i32⟩
  | .hbm, ⟨14, _⟩ => ⟨S262144, .i32⟩
  | .hbm, ⟨15, _⟩ => ⟨S262144, .i32⟩
  | .hbm, ⟨16, _⟩ => ⟨S262144, .i32⟩
  | .hbm, ⟨17, _⟩ => ⟨S_, .i32⟩
  | .hbm, ⟨18, _⟩ => ⟨S262144, .i32⟩
  | .hbm, ⟨19, _⟩ => ⟨S262144, .i1⟩
  | .hbm, ⟨20, _⟩ => ⟨S_, .i32⟩
  | .hbm, ⟨21, _⟩ => ⟨S262144, .i32⟩
  | .hbm, ⟨22, _⟩ => ⟨S262144, .i32⟩
  | .hbm, ⟨23, _⟩ => ⟨S262144, .i32⟩
  | .hbm, ⟨24, _⟩ => ⟨S262144x1, .i32⟩
  | .hbm, ⟨25, _⟩ => ⟨S262144x1, .i32⟩
  | .hbm, ⟨26, _⟩ => ⟨S262144x2, .i32⟩
  | .hbm, ⟨27, _⟩ => ⟨S262144, .f32⟩
  | .hbm, ⟨28, _⟩ => ⟨S262144, .f32⟩
  | .hbm, ⟨29, _⟩ => ⟨S262144x1, .f32⟩
  | .hbm, ⟨30, _⟩ => ⟨S_, .i32⟩
  | .hbm, ⟨31, _⟩ => ⟨S262144, .i32⟩
  | .hbm, ⟨32, _⟩ => ⟨S262144, .i1⟩
  | .hbm, ⟨33, _⟩ => ⟨S_, .i32⟩
  | .hbm, ⟨34, _⟩ => ⟨S262144, .i32⟩
  | .hbm, ⟨35, _⟩ => ⟨S262144, .i32⟩
  | .hbm, ⟨36, _⟩ => ⟨S262144, .i32⟩
  | .hbm, ⟨37, _⟩ => ⟨S262144x1, .i32⟩
  | .hbm, ⟨38, _⟩ => ⟨S262144x64, .f32⟩
  | .hbm, ⟨39, _⟩ => ⟨S262144x64, .f32⟩
  | .hbm, ⟨40, _⟩ => ⟨S262144x64, .f32⟩
  | .hbm, ⟨41, _⟩ => ⟨S_, .f32⟩
  | .hbm, ⟨42, _⟩ => ⟨S8192x64, .f32⟩
  | .hbm, ⟨43, _⟩ => ⟨S262144x1, .i32⟩
  | .hbm, ⟨44, _⟩ => ⟨S8192x64, .f32⟩
  | .local _ .vmem, ⟨0, _⟩ => ⟨S1024x2048, .f32⟩
  | .local _ .vmem, ⟨1, _⟩ => ⟨S1024x2048, .f32⟩
  | .local _ .vmem, ⟨2, _⟩ => ⟨S2048x64, .f32⟩
  | .local _ .vmem, ⟨3, _⟩ => ⟨S2048x64, .f32⟩
  | .local _ .vmem, ⟨4, _⟩ => ⟨S1024x64, .f32⟩
  | .local _ .vmem, ⟨5, _⟩ => ⟨S1024x64, .f32⟩
  | .local _ .vmem, ⟨6, _⟩ => ⟨S1024x64, .f32⟩
  | .local _ .vmem, ⟨7, _⟩ => ⟨S1024x2048, .f32⟩
  | .local _ .vmem, ⟨8, _⟩ => ⟨S1024x2048, .f32⟩
  | .local _ .vmem, ⟨9, _⟩ => ⟨S1x1, .f32⟩
  | .local _ .vmem, ⟨10, _⟩ => ⟨S1x1, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_3 : Ref sig .tc := ⟨.hbm, 30, rfl⟩
abbrev main_v20 : Ref sig .tc := ⟨.hbm, 31, rfl⟩
abbrev main_v21 : Ref sig .tc := ⟨.hbm, 32, rfl⟩
abbrev main_c_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 4], ![false, false]⟩

def k1_cond2 (i : grid1.Coords) : BitVec 1 :=
  let arg0 : BitVec 32 := BitVec.ofNat 32 (i 0).val
  let c7_i32 : BitVec 32 := 7#32
  let v16 : BitVec 1 := Scalar.cmpi .eq arg0 c7_i32
  let arg1 : BitVec 32 := BitVec.ofNat 32 (i 1).val
  let c3_i32 : BitVec 32 := 3#32
  let v17 : BitVec 1 := Scalar.cmpi .eq arg1 c3_i32
  let v18 : BitVec 1 := Scalar.andi v16 v17
  let v19 : BitVec 32 := Scalar.extui v18
  let c0_i32_8 : BitVec 32 := 0#32
  let v20 : BitVec 1 := Scalar.cmpi .ne v19 c0_i32_8
  v20

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

class Facts₀ : Prop where
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  inb_S2048x64_S2048x64_0_0 : ∀ a, (![0, 0] : Fin 2 → Nat) a + S2048x64.size a ≤ S2048x64.size a
  h_S2048x64 : 0 < S2048x64.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  reduces_S1024x2048_S1024 : S1024x2048.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S_ : S1x1.ShapeCasts S_
  bcast_S_S262144 : S_.BroadcastsInDim S262144 (![] : Fin 0 → Fin S262144.rank)
  bcast_S262144_S262144x1_0 : S262144.BroadcastsInDim S262144x1 (![0] : Fin 1 → Fin S262144x1.rank)
  concatenates_S262144x1_S262144x1_S262144x2_d1 : Shape.Concatenates [S262144x1, S262144x1] S262144x2 1
  bcast_S262144x1_S262144x64_0_1 : S262144x1.BroadcastsInDim S262144x64 (![0, 1] : Fin 2 → Fin S262144x64.rank)
  bcast_S_S8192x64 : S_.BroadcastsInDim S8192x64 (![] : Fin 0 → Fin S8192x64.rank)
  dot_S1024x2048_S2048x64_S1024x64_1_0_0_1_n_n_wf : DotDims.WF S1024x2048 S2048x64 S1024x64 [1] [0] [0] [1] [] []
  gather_S8192x8192_S262144x2_S262144_n_01_n_n_01_1_11_wf : GatherDims.WF S8192x8192 S262144x2 S262144 [] [0, 1] [] [0, 1] [] 1 ![1, 1]
  gather_S8192x64_S262144x1_S262144x64_1_0_n_n_0_1_164_wf : GatherDims.WF S8192x64 S262144x1 S262144x64 [1] [0] [] [0] [] 1 ![1, 64]
  scatter_S8192x64_S262144x1_S262144x64_1_0_0_1_wf : ScatterDims.WF S8192x64 S262144x1 S262144x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x8192.size a
  hwx0_0 : ∀ i : grid0.Coords, EltTy.bits .f32 = 32 ∨ (Rect.block (s := S8192x8192) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S8192x64.size a
  hwx0_1 : ∀ i : grid0.Coords, EltTy.bits .f32 = 32 ∨ (Rect.block (s := S8192x64) S2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S8192x64.size a
  hwx0_2 : ∀ i : grid0.Coords, EltTy.bits .f32 = 32 ∨ (Rect.block (s := S8192x64) S1024x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x8192.size a
  hwx1_0 : ∀ i : grid1.Coords, EltTy.bits .f32 = 32 ∨ (Rect.block (s := S8192x8192) S1024x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1.size a ≤ S1x1.size a
  hwx1_1 : ∀ i : grid1.Coords, EltTy.bits .f32 = 32 ∨ (Rect.block (s := S1x1) S1x1.size (cc1_transform_1 i) (hinb1_1 i)).WholeWords (EltTy.packing .f32)

variable [Facts₀]

def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf
def gather_S8192x8192_S262144x2_S262144_n_01_n_n_01_1_11 : GatherDims S8192x8192 S262144x2 S262144 where
  offsetDims := []
  collapsedSliceDims := [0, 1]
  operandBatchingDims := []
  startIndicesBatchingDims := []
  startIndexMap := [0, 1]
  indexVectorDim := 1
  sliceSizes := ![1, 1]
  wf := gather_S8192x8192_S262144x2_S262144_n_01_n_n_01_1_11_wf
def gather_S8192x64_S262144x1_S262144x64_1_0_n_n_0_1_164 : GatherDims S8192x64 S262144x1 S262144x64 where
  offsetDims := [1]
  collapsedSliceDims := [0]
  operandBatchingDims := []
  startIndicesBatchingDims := []
  startIndexMap := [0]
  indexVectorDim := 1
  sliceSizes := ![1, 64]
  wf := gather_S8192x64_S262144x1_S262144x64_1_0_n_n_0_1_164_wf
def scatter_S8192x64_S262144x1_S262144x64_1_0_0_1 : ScatterDims S8192x64 S262144x1 S262144x64 where
  updateWindowDims := [1]
  insertedWindowDims := [0]
  scatterDimsToOperandDims := [0]
  indexVectorDim := 1
  wf := scatter_S8192x64_S262144x1_S262144x64_1_0_0_1_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg1) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x1.size cc1_transform_1 reads1_1 true true 1 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev idle1 : Fin 2 → grid1.Coords → Bool := fun | 0 => fun _ => false | 1 => fun i => !(k1_cond2 i == 1#1) | ⟨_ + 2, h⟩ => absurd h (Nat.not_lt.2 (Nat.le_add_left _ _))

class Facts : Prop extends Facts₀ where

variable [Facts]
-- ==== ReferenceIdeal.lean ====
abbrev S8192x8192 : Shape := ⟨2, ![8192, 8192]⟩
abbrev S8192x64 : Shape := ⟨2, ![8192, 64]⟩
abbrev S262144 : Shape := ⟨1, ![262144]⟩
abbrev S_ : Shape := ⟨0, ![]⟩
abbrev S262144x1 : Shape := ⟨2, ![262144, 1]⟩
abbrev S262144x2 : Shape := ⟨2, ![262144, 2]⟩
abbrev S262144x64 : Shape := ⟨2, ![262144, 64]⟩

abbrev nBuf : Space → Nat
  | .hbm => 46
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x8192, .f32⟩
  | .hbm, ⟨2, _⟩ => ⟨S8192x64, .f32⟩
  | .hbm, ⟨3, _⟩ => ⟨S262144, .f32⟩
  | .hbm, ⟨4, _⟩ => ⟨S262144, .i32⟩
  | .hbm, ⟨5, _⟩ => ⟨S262144, .i32⟩
  | .hbm, ⟨6, _⟩ => ⟨S8192x64, .f32⟩
  | .hbm, ⟨7, _⟩ => ⟨S_, .i32⟩
  | .hbm, ⟨8, _⟩ => ⟨S262144, .i32⟩
  | .hbm, ⟨9, _⟩ => ⟨S262144, .i1⟩
  | .hbm, ⟨10, _⟩ => ⟨S_, .i32⟩
  | .hbm, ⟨11, _⟩ => ⟨S262144, .i32⟩
  | .hbm, ⟨12, _⟩ => ⟨S262144, .i32⟩
  | .hbm, ⟨13, _⟩ => ⟨S262144, .i32⟩
  | .hbm, ⟨14, _⟩ => ⟨S_, .i32⟩
  | .hbm, ⟨15, _⟩ => ⟨S262144, .i32⟩
  | .hbm, ⟨16, _⟩ => ⟨S262144, .i1⟩
  | .hbm, ⟨17, _⟩ => ⟨S_, .i32⟩
  | .hbm, ⟨18, _⟩ => ⟨S262144, .i32⟩
  | .hbm, ⟨19, _⟩ => ⟨S262144, .i32⟩
  | .hbm, ⟨20, _⟩ => ⟨S262144, .i32⟩
  | .hbm, ⟨21, _⟩ => ⟨S262144x1, .i32⟩
  | .hbm, ⟨22, _⟩ => ⟨S262144x1, .i32⟩
  | .hbm, ⟨23, _⟩ => ⟨S262144x2, .i32⟩
  | .hbm, ⟨24, _⟩ => ⟨S262144, .f32⟩
  | .hbm, ⟨25, _⟩ => ⟨S262144, .f32⟩
  | .hbm, ⟨26, _⟩ => ⟨S262144x1, .f32⟩
  | .hbm, ⟨27, _⟩ => ⟨S_, .i32⟩
  | .hbm, ⟨28, _⟩ => ⟨S262144, .i32⟩
  | .hbm, ⟨29, _⟩ => ⟨S262144, .i1⟩
  | .hbm, ⟨30, _⟩ => ⟨S_, .i32⟩
  | .hbm, ⟨31, _⟩ => ⟨S262144, .i32⟩
  | .hbm, ⟨32, _⟩ => ⟨S262144, .i32⟩
  | .hbm, ⟨33, _⟩ => ⟨S262144, .i32⟩
  | .hbm, ⟨34, _⟩ => ⟨S262144x1, .i32⟩
  | .hbm, ⟨35, _⟩ => ⟨S262144x64, .f32⟩
  | .hbm, ⟨36, _⟩ => ⟨S262144x64, .f32⟩
  | .hbm, ⟨37, _⟩ => ⟨S262144x64, .f32⟩
  | .hbm, ⟨38, _⟩ => ⟨S_, .f32⟩
  | .hbm, ⟨39, _⟩ => ⟨S8192x64, .f32⟩
  | .hbm, ⟨40, _⟩ => ⟨S262144x1, .i32⟩
  | .hbm, ⟨41, _⟩ => ⟨S8192x64, .f32⟩
  | .hbm, ⟨42, _⟩ => ⟨S8192x8192, .f32⟩
  | .hbm, ⟨43, _⟩ => ⟨S_, .f32⟩
  | .hbm, ⟨44, _⟩ => ⟨S_, .f32⟩
  | .hbm, ⟨45, _⟩ => ⟨S_, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_3 : Ref sig .tc := ⟨.hbm, 27, rfl⟩
abbrev main_v17 : Ref sig .tc := ⟨.hbm, 28, rfl⟩
abbrev main_v18 : Ref sig .tc := ⟨.hbm, 29, rfl⟩
abbrev main_c_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_call0_v0 : Ref sig .tc := ⟨.hbm, 42, rfl⟩
abbrev main_call0_cst : Ref sig .tc := ⟨.hbm, 43, rfl⟩
abbrev main_call0_v1 : Ref sig .tc := ⟨.hbm, 44, rfl⟩
abbrev main_v29 : Ref sig .tc := ⟨.hbm, 45, rfl⟩

abbrev nD : Nat := 1
abbrev τ : Topo := Topo.v7x

variable {F : FTy → Type} [FloatOps F]

class Facts₀ : Prop where
  bcast_S_S262144 : S_.BroadcastsInDim S262144 (![] : Fin 0 → Fin S262144.rank)
  bcast_S262144_S262144x1_0 : S262144.BroadcastsInDim S262144x1 (![0] : Fin 1 → Fin S262144x1.rank)
  concatenates_S262144x1_S262144x1_S262144x2_d1 : Shape.Concatenates [S262144x1, S262144x1] S262144x2 1
  bcast_S262144x1_S262144x64_0_1 : S262144x1.BroadcastsInDim S262144x64 (![0, 1] : Fin 2 → Fin S262144x64.rank)
  bcast_S_S8192x64 : S_.BroadcastsInDim S8192x64 (![] : Fin 0 → Fin S8192x64.rank)
  reducesTo_S8192x8192_S_d0_1 : S8192x8192.ReducesTo [0, 1] S_
  h_S_ : 0 < S_.numel
  dot_S8192x8192_S8192x64_S8192x64_1_0_0_1_n_n_wf : DotDims.WF S8192x8192 S8192x64 S8192x64 [1] [0] [0] [1] [] []
  gather_S8192x8192_S262144x2_S262144_n_01_n_n_01_1_11_wf : GatherDims.WF S8192x8192 S262144x2 S262144 [] [0, 1] [] [0, 1] [] 1 ![1, 1]
  gather_S8192x64_S262144x1_S262144x64_1_0_n_n_0_1_164_wf : GatherDims.WF S8192x64 S262144x1 S262144x64 [1] [0] [] [0] [] 1 ![1, 64]
  scatter_S8192x64_S262144x1_S262144x64_1_0_0_1_wf : ScatterDims.WF S8192x64 S262144x1 S262144x64 [1] [0] [0] 1

variable [Facts₀]

def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf
def gather_S8192x8192_S262144x2_S262144_n_01_n_n_01_1_11 : GatherDims S8192x8192 S262144x2 S262144 where
  offsetDims := []
  collapsedSliceDims := [0, 1]
  operandBatchingDims := []
  startIndicesBatchingDims := []
  startIndexMap := [0, 1]
  indexVectorDim := 1
  sliceSizes := ![1, 1]
  wf := gather_S8192x8192_S262144x2_S262144_n_01_n_n_01_1_11_wf
def gather_S8192x64_S262144x1_S262144x64_1_0_n_n_0_1_164 : GatherDims S8192x64 S262144x1 S262144x64 where
  offsetDims := [1]
  collapsedSliceDims := [0]
  operandBatchingDims := []
  startIndicesBatchingDims := []
  startIndexMap := [0]
  indexVectorDim := 1
  sliceSizes := ![1, 64]
  wf := gather_S8192x64_S262144x1_S262144x64_1_0_n_n_0_1_164_wf
def scatter_S8192x64_S262144x1_S262144x64_1_0_0_1 : ScatterDims S8192x64 S262144x1 S262144x64 where
  updateWindowDims := [1]
  insertedWindowDims := [0]
  scatterDimsToOperandDims := [0]
  indexVectorDim := 1
  wf := scatter_S8192x64_S262144x1_S262144x64_1_0_0_1_wf

class Facts : Prop extends Facts₀ where

variable [Facts]
-- ==== Proof.BR0Runs.lean ====
/-
  Region 0: the blocked matrix product. The grid is 8 × 4 (row block i, contraction block k; point t = 4·i + k).
  At every point the body adds the product of the x block (1024 × 2048) and the weight block (2048 × 64) to an
  accumulator it keeps in a scratch buffer between points; at k = 0 it first clears the accumulator, at k = 3 it
  copies the accumulator into the output block, which is written back there and only there.
  This module holds what the three control cases share: the two conditions in closed form over the grid, where the
  output window is idle, the memrefs the body is called with, and the region's invariant with the accumulator
  singled out.
-/
import proofs.«115220_j39462159515865_1_alg».proof.Proof.Gen.Kernel.Launch
import proofs.«115220_j39462159515865_1_alg».proof.Proof.Gen.Kernel.Skeleton
import proofs.«115220_j39462159515865_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The x window's current staging buffer holds its block at every point, for any proof data over these arrays whose
    body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for the weight window. -/
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The two conditions -/

/-- "k = 0": the accumulator is cleared. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "k = 3": the accumulator is copied to the output block. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
theorem liveAt0_2_C : ∀ t : Fin cfg0.N, ¬cond0_0 (grid0.coords t) → cond0_1 (grid0.coords t) → cfg0.idle 2 (grid0.coords t) = false := by decide +kernel

/-! ## The memrefs the body is called with -/

/-- One staging buffer of the output window, through which its contents are stated. -/
abbrev VO0_2 : View sig .tc .vmem S1024x64 .f32 := (Memref.whole cc0_stg2_0 : Memref sig .tc .vmem S1024x64 .f32).view
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x64 .f32 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0_0 : Memref sig .tc .vmem S1024x64 .f32 := Memref.whole cc0_scratch0
abbrev VS0_0 : View sig .tc .vmem S1024x64 .f32 := scM0_0.view

/-- The scoped buffers this kernel never touches (the other kernel's staging buffers and accumulator), each at some
    contents: they ride along in the invariant. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_scratch0), ((c : Thread nD τ).loc cc1_scratch0) ↦{fullShare} f))

/-- The class invariant with the accumulator as a memref owned at some contents. -/
theorem PhiA0_eq (c : Dev nD) :
    (Pipeline.ΦA spec0 c : sProp 𝕄)
      = iprop(iprop((∃ d, owns (c : Thread nD τ) scM0_0 fullShare d) ∗ others (F := F) c) ∗ (∃ r, prngReg c r)) := by
  unfold Pipeline.ΦA others; rw [scopedRest0_eq]; simp only [scM0_0, owns_whole]; try rfl

end Cert.Kernel.R0

end
-- ==== Proof.BR0RunA.lean ====
/-
  Region 0, the case k = 0: the accumulator is cleared (whatever it held), then the product of the point's x and weight
  blocks is added to it; the output block is not touched. The run below is the body's triple in this case; the pieces
  the accumulator ends with are what the run finds.
-/
import proofs.«115220_j39462159515865_1_alg».proof.Proof.BR0Runs

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body in the case k = 0, on whole memrefs: the inputs at their blocks `x0`, `x1`, the output buffer at contents
    `xi2` handed back untouched, the accumulator at anything; it ends with the accumulator's pieces written. -/
noncomputable def kernelRun0_A (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : cond0_0 i) (hc1 : ¬cond0_1 i)
    (x0 : Vec F S1024x2048 .f32) (x1 : Vec F S2048x64 .f32) :
    Σ' (L2 : List (View.Piece (Elt F) S1024x64 .f32)), { LS0 : List (View.Piece (Elt F) S1024x64 .f32) //
      ∀ (xi2 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__matmul_kernel i arg2 harg2 arg3 harg3 arg4 harg4 arg5 harg5) K } := by
  refine ⟨[], ?_, fun xi2 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.R0

end
-- ==== Proof.BR0RunB.lean ====
/-
  Region 0, the case k = 1 or 2: the product of the point's blocks is added to the accumulator as the point before
  left it; the output block is not touched.
-/
import proofs.«115220_j39462159515865_1_alg».proof.Proof.BR0RunA

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body in the case 0 < k < 3: the accumulator is found at `xs0` and ends with its pieces written. -/
noncomputable def kernelRun0_B (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : ¬cond0_0 i) (hc1 : ¬cond0_1 i)
    (x0 : Vec F S1024x2048 .f32) (x1 : Vec F S2048x64 .f32) (xs0 : Vec F S1024x64 .f32) :
    Σ' (L2 : List (View.Piece (Elt F) S1024x64 .f32)), { LS0 : List (View.Piece (Elt F) S1024x64 .f32) //
      ∀ (xi2 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__matmul_kernel i arg2 harg2 arg3 harg3 arg4 harg4 arg5 harg5) K } := by
  refine ⟨[], ?_, fun xi2 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.R0

end
-- ==== Proof.BR0RunC.lean ====
/-
  Region 0, the case k = 3: the product of the point's blocks is added to the accumulator as the point before left it,
  and the accumulator is then copied whole into the output block.
-/
import proofs.«115220_j39462159515865_1_alg».proof.Proof.BR0RunB

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body in the case k = 3: the accumulator is found at `xs0`, the output buffer at anything; both end with their
    pieces written. -/
noncomputable def kernelRun0_C (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : ¬cond0_0 i) (hc1 : cond0_1 i)
    (x0 : Vec F S1024x2048 .f32) (x1 : Vec F S2048x64 .f32) (xs0 : Vec F S1024x64 .f32) :
    Σ' (L2 : List (View.Piece (Elt F) S1024x64 .f32)), { LS0 : List (View.Piece (Elt F) S1024x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__matmul_kernel i arg2 harg2 arg3 harg3 arg4 harg4 arg5 harg5) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.R0

end
-- ==== Proof.BR0Frame.lean ====
/-
  Region 0, the frame data. What each case leaves in the accumulator and in the output block (its pieces read back),
  the contents point by point (by recursion on the point: a case that reads the accumulator takes what the point before
  left), the region's invariant (before the first point: every scratch at anything; after a point: the accumulator at
  that point's contents), the pipeline's proof data over arbitrary region-entry contents `V`, and the body obligation.
-/
import proofs.«115220_j39462159515865_1_alg».proof.Proof.BR0RunC

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- k = 0 stores nothing into the output block: a placeholder nothing consults. -/
def out0_A_2 (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : cond0_0 i) (hc1 : ¬cond0_1 i) (x0 : Vec F S1024x2048 .f32) (x1 : Vec F S2048x64 .f32) : Vec F S1024x64 .f32 :=
  VO0_2.read (Elt F) (VO0_2.writes (Elt F) VO0_2.junk (kernelRun0_A c i arg2 harg2 arg3 harg3 arg4 harg4 arg5 harg5 hc0 hc1 x0 x1).1)
theorem scover0_A_0 (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : cond0_0 i) (hc1 : ¬cond0_1 i) (x0 : Vec F S1024x2048 .f32) (x1 : Vec F S2048x64 .f32) (y : S1024x64.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S1024x64.size (by sl_kernel_rfl) y
/-- What k = 0 leaves in the accumulator. -/
def sout0_A_0 (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : cond0_0 i) (hc1 : ¬cond0_1 i) (x0 : Vec F S1024x2048 .f32) (x1 : Vec F S2048x64 .f32) : Vec F S1024x64 .f32 :=
  VS0_0.read (Elt F) (VS0_0.writes (Elt F) VS0_0.junk (kernelRun0_A c i arg2 harg2 arg3 harg3 arg4 harg4 arg5 harg5 hc0 hc1 x0 x1).2.1)

def out0_B_2 (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : ¬cond0_0 i) (hc1 : ¬cond0_1 i) (x0 : Vec F S1024x2048 .f32) (x1 : Vec F S2048x64 .f32) (xs0 : Vec F S1024x64 .f32) : Vec F S1024x64 .f32 :=
  VO0_2.read (Elt F) (VO0_2.writes (Elt F) VO0_2.junk (kernelRun0_B c i arg2 harg2 arg3 harg3 arg4 harg4 arg5 harg5 hc0 hc1 x0 x1 xs0).1)
theorem scover0_B_0 (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : ¬cond0_0 i) (hc1 : ¬cond0_1 i) (x0 : Vec F S1024x2048 .f32) (x1 : Vec F S2048x64 .f32) (xs0 : Vec F S1024x64 .f32) (y : S1024x64.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S1024x64.size (by sl_kernel_rfl) y
/-- What 0 < k < 3 leaves in the accumulator. -/
def sout0_B_0 (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : ¬cond0_0 i) (hc1 : ¬cond0_1 i) (x0 : Vec F S1024x2048 .f32) (x1 : Vec F S2048x64 .f32) (xs0 : Vec F S1024x64 .f32) : Vec F S1024x64 .f32 :=
  VS0_0.read (Elt F) (VS0_0.writes (Elt F) VS0_0.junk (kernelRun0_B c i arg2 harg2 arg3 harg3 arg4 harg4 arg5 harg5 hc0 hc1 x0 x1 xs0).2.1)

theorem cover0_C_2 (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : ¬cond0_0 i) (hc1 : cond0_1 i) (x0 : Vec F S1024x2048 .f32) (x1 : Vec F S2048x64 .f32) (xs0 : Vec F S1024x64 .f32) (y : S1024x64.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1024x64.size (by sl_kernel_rfl) y
/-- What k = 3 leaves in the output block. -/
def out0_C_2 (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : ¬cond0_0 i) (hc1 : cond0_1 i) (x0 : Vec F S1024x2048 .f32) (x1 : Vec F S2048x64 .f32) (xs0 : Vec F S1024x64 .f32) : Vec F S1024x64 .f32 :=
  VO0_2.read (Elt F) (VO0_2.writes (Elt F) VO0_2.junk (kernelRun0_C c i arg2 harg2 arg3 harg3 arg4 harg4 arg5 harg5 hc0 hc1 x0 x1 xs0).1)
theorem scover0_C_0 (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : ¬cond0_0 i) (hc1 : cond0_1 i) (x0 : Vec F S1024x2048 .f32) (x1 : Vec F S2048x64 .f32) (xs0 : Vec F S1024x64 .f32) (y : S1024x64.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S1024x64.size (by sl_kernel_rfl) y
/-- What k = 3 leaves in the accumulator. -/
def sout0_C_0 (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : ¬cond0_0 i) (hc1 : cond0_1 i) (x0 : Vec F S1024x2048 .f32) (x1 : Vec F S2048x64 .f32) (xs0 : Vec F S1024x64 .f32) : Vec F S1024x64 .f32 :=
  VS0_0.read (Elt F) (VS0_0.writes (Elt F) VS0_0.junk (kernelRun0_C c i arg2 harg2 arg3 harg3 arg4 harg4 arg5 harg5 hc0 hc1 x0 x1 xs0).2.1)

/-! ## The cases at a point of the grid: (output block, accumulator) -/

def atA (c : Dev nD) (t : Fin cfg0.N) (hc0 : cond0_0 (grid0.coords t)) (hc1 : ¬cond0_1 (grid0.coords t)) : Vec F S1024x64 .f32 × Vec F S1024x64 .f32 :=
  (out0_A_2 c (grid0.coords t) (ms0_0 t) (hs0_0 t) (ms0_1 t) (hs0_1 t) (ms0_2 t) (hs0_2 t) scM0_0 (Memref.isWhole_whole _) hc0 hc1 (iblk V c 0 t) (iblk V c 1 t), sout0_A_0 c (grid0.coords t) (ms0_0 t) (hs0_0 t) (ms0_1 t) (hs0_1 t) (ms0_2 t) (hs0_2 t) scM0_0 (Memref.isWhole_whole _) hc0 hc1 (iblk V c 0 t) (iblk V c 1 t))
def atB (c : Dev nD) (t : Fin cfg0.N) (hc0 : ¬cond0_0 (grid0.coords t)) (hc1 : ¬cond0_1 (grid0.coords t)) (xs : Vec F S1024x64 .f32) : Vec F S1024x64 .f32 × Vec F S1024x64 .f32 :=
  (out0_B_2 c (grid0.coords t) (ms0_0 t) (hs0_0 t) (ms0_1 t) (hs0_1 t) (ms0_2 t) (hs0_2 t) scM0_0 (Memref.isWhole_whole _) hc0 hc1 (iblk V c 0 t) (iblk V c 1 t) xs, sout0_B_0 c (grid0.coords t) (ms0_0 t) (hs0_0 t) (ms0_1 t) (hs0_1 t) (ms0_2 t) (hs0_2 t) scM0_0 (Memref.isWhole_whole _) hc0 hc1 (iblk V c 0 t) (iblk V c 1 t) xs)
def atC (c : Dev nD) (t : Fin cfg0.N) (hc0 : ¬cond0_0 (grid0.coords t)) (hc1 : cond0_1 (grid0.coords t)) (xs : Vec F S1024x64 .f32) : Vec F S1024x64 .f32 × Vec F S1024x64 .f32 :=
  (out0_C_2 c (grid0.coords t) (ms0_0 t) (hs0_0 t) (ms0_1 t) (hs0_1 t) (ms0_2 t) (hs0_2 t) scM0_0 (Memref.isWhole_whole _) hc0 hc1 (iblk V c 0 t) (iblk V c 1 t) xs, sout0_C_0 c (grid0.coords t) (ms0_0 t) (hs0_0 t) (ms0_1 t) (hs0_1 t) (ms0_2 t) (hs0_2 t) scM0_0 (Memref.isWhole_whole _) hc0 hc1 (iblk V c 0 t) (iblk V c 1 t) xs)

/-- THE ACCUMULATION: what the output block's staging buffer and the accumulator hold after the body at position `n`. -/
def outsAt0 (c : Dev nD) : (n : ℕ) → n < cfg0.N → Vec F S1024x64 .f32 × Vec F S1024x64 .f32
  | 0, hn => atA V c ⟨0, hn⟩ ((hcond0_0 ⟨0, hn⟩).mpr (Nat.zero_mod _)) (fun h => (fun h => by (try dsimp only at h); omega) ((hcond0_1 ⟨0, hn⟩).mp h))
  | n + 1, hn =>
    if h0 : (n + 1) % 4 = 0 then
      if h1 : (n + 1) % 4 = 3 then
        False.elim (by omega)
      else
        atA V c ⟨n + 1, hn⟩ ((hcond0_0 ⟨n + 1, hn⟩).mpr h0) (fun h => h1 ((hcond0_1 ⟨n + 1, hn⟩).mp h))
    else
      if h1 : (n + 1) % 4 = 3 then
        atC V c ⟨n + 1, hn⟩ (fun h => h0 ((hcond0_0 ⟨n + 1, hn⟩).mp h)) ((hcond0_1 ⟨n + 1, hn⟩).mpr h1) (outsAt0 c n (Nat.lt_of_succ_lt hn)).2
      else
        atB V c ⟨n + 1, hn⟩ (fun h => h0 ((hcond0_0 ⟨n + 1, hn⟩).mp h)) (fun h => h1 ((hcond0_1 ⟨n + 1, hn⟩).mp h)) (outsAt0 c n (Nat.lt_of_succ_lt hn)).2

theorem outsAt0_A (c : Dev nD) (t : Fin cfg0.N) (h0 : t.val % 4 = 0) (h1 : ¬t.val % 4 = 3) :
    outsAt0 V c t.val t.isLt = atA V c t ((hcond0_0 t).mpr h0) (fun h => h1 ((hcond0_1 t).mp h)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 V c t.val t.isLt = atB V c t (fun h => h0 ((hcond0_0 t).mp h)) (fun h => h1 ((hcond0_1 t).mp h)) (outsAt0 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 V c t.val t.isLt = atC V c t (fun h => h0 ((hcond0_0 t).mp h)) ((hcond0_1 t).mpr h1) (outsAt0 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

/-! ## The invariant -/

def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ others (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ others (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ others (F := F) c) ∗ (∃ r, prngReg c r)) := by
  cases n with
  | zero => exact absurd rfl hz
  | succ n => rfl

/-! ## The proof data -/

/-- The proof data of pipeline 0 on core `c`, over the region-entry contents `V`. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk V c 0 t := by dsimp only [dat0]
theorem after0_1 (c : Dev nD) (t : Fin cfg0.N) : (dat0 V c).after 1 t = iblk V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk V c 0 t :=
  before0_0_of V (dat0 V c) (A_eq0 V c 0) (after0_0 V c) t d
theorem before0_1 (c : Dev nD) (t : Fin cfg0.N) (d) : (dat0 V c).before 1 t d = iblk V c 1 t :=
  before0_1_of V (dat0 V c) (A_eq0 V c 1) (after0_1 V c) t d

/-! ## The body obligation -/

def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' memrefs hold their blocks; the closed forms say which case the point is in; the
    invariant hands the body the accumulator at what the point before left (at anything at the first point) and takes it
    back at this point's contents. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 4 = 0
  · by_cases h1 : t.val % 4 = 3
    · exfalso; omega
    · rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
      rw [outsAt0_A V c t h0 h1]
      unfold atA sout0_A_0; (try dsimp only)
      by_cases hz : t.val = 0
      · rw [PhiS_castSucc V c t, PhiS_zero V c _ _ hz, PhiA0_eq]
        iintro ⟨⟨⟨HS0, Hoth⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk V c 0 t) (iblk V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A_0 c _ _ _ _ _ _ _ _ _ _ _ _ _)
            iexact Hoth
          iexact Hg
        isplitl [Ho]; · iexact Ho
        isplitl [H0]; · iexact H0
        isplitl [H1]; · iexact H1
        iexists _; iexact H2
      · rw [PhiS_castSucc V c t, PhiS_pos V c _ _ hz]
        iintro ⟨⟨⟨HS0, Hoth⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk V c 0 t) (iblk V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A_0 c _ _ _ _ _ _ _ _ _ _ _ _ _)
            iexact Hoth
          iexact Hg
        isplitl [Ho]; · iexact Ho
        isplitl [H0]; · iexact H0
        isplitl [H1]; · iexact H1
        iexists _; iexact H2
  · have hz : t.val ≠ 0 := fun e => h0 (by rw [e])
    by_cases h1 : t.val % 4 = 3
    · rw [show (dat0 V c).leavesExact 2 t = owns (c : Thread nD τ) (ms0_2 t) fullShare ((dat0 V c).after 2 t) from by
        unfold Dat.leavesExact; rw [liveAt0_2_C t (fun h => h0 ((hcond0_0 t).mp h)) ((hcond0_1 t).mpr h1)], after0_2]
      rw [outsAt0_C V c t h0 h1]
      unfold atC out0_C_2 sout0_C_0; (try dsimp only)
      rw [PhiS_castSucc V c t, PhiS_pos V c _ _ hz]
      iintro ⟨⟨⟨HS0, Hoth⟩, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk V c 0 t) (iblk V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_C_0 c _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dat0 V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B V c t h0 h1]
      unfold atB sout0_B_0; (try dsimp only)
      rw [PhiS_castSucc V c t, PhiS_pos V c _ _ hz]
      iintro ⟨⟨⟨HS0, Hoth⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk V c 0 t) (iblk V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_B_0 c _ _ _ _ _ _ _ _ _ _ _ _ _ _)
          iexact Hoth
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body V c t

/-- What the region is entered with is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class invariant back: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, Hoth⟩, Hg⟩
  isplitl [HS0 Hoth]
  · isplitl [HS0]
    · iexists _; iexact HS0
    iexact Hoth
  iexact Hg

theorem hout0 (c : Dev nD) : (dat0 V c).Φ (Fin.last cfg0.N) ⊢ Pipeline.ΦA spec0 c :=
  Phi_out0 V c _ (by rw [Fin.val_last]; have : cfg0.N = 32 := N_0; omega)

end Cert.Kernel.R0

end
-- ==== Proof.BR1Runs.lean ====
/- The sum-of-squares kernel (second region): what its three control cases share.
   The grid has 32 points in row-major order; the accumulator cell is reset at the first point,
   increased by the block's sum of squares at every point, and copied to the 1×1 output block at
   the last point. -/
import proofs.«115220_j39462159515865_1_alg».proof.Proof.Gen.Kernel.Launch
import proofs.«115220_j39462159515865_1_alg».proof.Proof.Gen.Kernel.Skeleton
import proofs.«115220_j39462159515865_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array at the entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current buffer holds its block at every point, for any proof data whose array
    is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The two conditions, in closed form over the 32 points -/

/-- "both coordinates are zero", as the body computes it. -/
abbrev cond1_0 (i : grid1.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only. -/
theorem hcond1_0 : ∀ t : Fin cfg1.N, cond1_0 (grid1.coords t) ↔ t.val % 32 = 0 :=
  (by decide +kernel : ∀ t : Fin grid1.N, cond1_0 (grid1.coords t) ↔ t.val % 32 = 0)

/-- "the coordinates are (7, 3)", as the body computes it. -/
abbrev cond1_1 (i : grid1.Coords) : Prop := k1_cond2 i = 1#1
/-- It holds at the last point only. -/
theorem hcond1_1 : ∀ t : Fin cfg1.N, cond1_1 (grid1.coords t) ↔ t.val % 32 = 31 :=
  (by decide +kernel : ∀ t : Fin grid1.N, cond1_1 (grid1.coords t) ↔ t.val % 32 = 31)

/-! ## Where the windows are idle -/

theorem liveAt1_0 : ∀ t : Fin cfg1.N, cfg1.idle 0 (grid1.coords t) = false := by decide +kernel
theorem idleAt1_1_A : ∀ t : Fin cfg1.N, cond1_0 (grid1.coords t) → ¬cond1_1 (grid1.coords t) → cfg1.idle 1 (grid1.coords t) = true := by decide +kernel
theorem noFlush1_1_A : ∀ t : Fin cfg1.N, cond1_0 (grid1.coords t) → ¬cond1_1 (grid1.coords t) → (cfg1.win 1).flush t = false := by decide +kernel
theorem idleAt1_1_B : ∀ t : Fin cfg1.N, ¬cond1_0 (grid1.coords t) → ¬cond1_1 (grid1.coords t) → cfg1.idle 1 (grid1.coords t) = true := by decide +kernel
theorem noFlush1_1_B : ∀ t : Fin cfg1.N, ¬cond1_0 (grid1.coords t) → ¬cond1_1 (grid1.coords t) → (cfg1.win 1).flush t = false := by decide +kernel
theorem liveAt1_1_C : ∀ t : Fin cfg1.N, ¬cond1_0 (grid1.coords t) → cond1_1 (grid1.coords t) → cfg1.idle 1 (grid1.coords t) = false := by decide +kernel

/-! ## The memrefs the body is called with -/

/-- The output window's buffer, as a view through which its contents are stated. -/
abbrev VO1_1 : View sig .tc .vmem S1x1 .f32 := (Memref.whole cc1_stg1_0 : Memref sig .tc .vmem S1x1 .f32).view
abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1 .f32 := win1_1.stage (cfg1.slots t 1)
abbrev hs1_1 (t : Fin cfg1.N) : (ms1_1 t).IsWhole := hstage1_1 ((cfg1.slots t 1).cast nbuf1_1)
/-- The accumulator cell, a whole scoped buffer. -/
abbrev scM1_0 : Memref sig .tc .vmem S1x1 .f32 := Memref.whole cc1_scratch0
abbrev VS1_0 : View sig .tc .vmem S1x1 .f32 := scM1_0.view

/-- The region invariant with the accumulator cell in state `P`: the seven scoped buffers that are
    not this kernel's, each at some contents, then `P`, and the generator register at some state. -/
def PhiWith (c : Dev nD) (P : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ P) ∗ (∃ r, prngReg c r))

/-- What the launch hands the region: the accumulator cell owned at some contents. -/
theorem PhiA1_eq (c : Dev nD) :
    (Pipeline.ΦA spec1 c : sProp 𝕄) = PhiWith c iprop(∃ d, owns (c : Thread nD τ) scM1_0 fullShare d) := by
  unfold Pipeline.ΦA PhiWith; rw [scopedRest1_eq]; simp only [scM1_0, owns_whole]; try rfl

end Cert.Kernel.R1

end
-- ==== Proof.BR1RunA.lean ====
/- The sum-of-squares kernel at the first point: the accumulator cell is zeroed, then increased. -/
import proofs.«115220_j39462159515865_1_alg».proof.Proof.BR1Runs

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

set_option maxHeartbeats 1000000 in
/-- The body at the first point (first condition holds, second does not), on whole memrefs: the input
    block at `x0`, the output buffer at `xi1` handed back untouched, the accumulator cell at anything.
    It runs to a continuation holding the input as it was and the cell with the pieces `LS0` written;
    the pieces are found by the run. -/
noncomputable def kernelRun1_A (c : Dev nD) (i : grid1.Coords) (arg2 : Memref sig .tc .vmem S1024x2048 .f32) (harg2 : arg2.IsWhole) (arg3 : Memref sig .tc .vmem S1x1 .f32) (harg3 : arg3.IsWhole) (arg4 : Memref sig .tc .vmem S1x1 .f32) (harg4 : arg4.IsWhole) (hc0 : cond1_0 i) (hc1 : ¬cond1_1 i)
    (x0 : Vec F S1024x2048 .f32) :
    Σ' (L1 : List (View.Piece (Elt F) S1x1 .f32)), { LS0 : List (View.Piece (Elt F) S1x1 .f32) //
      ∀ (xi1 : Vec F S1x1 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc1__sumsq_kernel i arg2 harg2 arg3 harg3 arg4 harg4) K } := by
  refine ⟨[], ?_, fun xi1 E K => ?run⟩
  case run =>
    simp only [cc1__sumsq_kernel_eq_skeleton]; unfold cc1__sumsq_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.Kernel.R1

end
-- ==== Proof.BR1RunB.lean ====
/- The sum-of-squares kernel at the points strictly between the first and the last: the accumulator
   cell is increased. -/
import proofs.«115220_j39462159515865_1_alg».proof.Proof.BR1RunA

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

set_option maxHeartbeats 1000000 in
/-- The body at a middle point (neither condition holds), on whole memrefs: the input block at `x0`,
    the output buffer at `xi1` handed back untouched, the accumulator cell at `xs0`. -/
noncomputable def kernelRun1_B (c : Dev nD) (i : grid1.Coords) (arg2 : Memref sig .tc .vmem S1024x2048 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : ¬cond1_1 i)
    (x0 : Vec F S1024x2048 .f32) (xs0 : Vec F S1x1 .f32) :
    Σ' (L1 : List (View.Piece (Elt F) S1x1 .f32)), { LS0 : List (View.Piece (Elt F) S1x1 .f32) //
      ∀ (xi1 : Vec F S1x1 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc1__sumsq_kernel i arg2 harg2 arg3 harg3 arg4 harg4) K } := by
  refine ⟨[], ?_, fun xi1 E K => ?run⟩
  case run =>
    simp only [cc1__sumsq_kernel_eq_skeleton]; unfold cc1__sumsq_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.Kernel.R1

end
-- ==== Proof.BR1RunC.lean ====
/- The sum-of-squares kernel at the last point: the accumulator cell is increased, then copied into
   the output block. -/
import proofs.«115220_j39462159515865_1_alg».proof.Proof.BR1RunB

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

set_option maxHeartbeats 1000000 in
/-- The body at the last point (second condition holds, first does not), on whole memrefs: the input
    block at `x0`, the output buffer at anything, the accumulator cell at `xs0`. -/
noncomputable def kernelRun1_C (c : Dev nD) (i : grid1.Coords) (arg2 : Memref sig .tc .vmem S1024x2048 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i)
    (x0 : Vec F S1024x2048 .f32) (xs0 : Vec F S1x1 .f32) :
    Σ' (L1 : List (View.Piece (Elt F) S1x1 .f32)), { LS0 : List (View.Piece (Elt F) S1x1 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc1__sumsq_kernel i arg2 harg2 arg3 harg3 arg4 harg4) K } := by
  refine ⟨?_, ?_, fun E K => ?run⟩
  case run =>
    simp only [cc1__sumsq_kernel_eq_skeleton]; unfold cc1__sumsq_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

end Cert.Kernel.R1

end
-- ==== Proof.BR1Frame.lean ====
/- The sum-of-squares kernel (second region): what the accumulator cell and the output buffer hold
   after each of the 32 points, the proof data of the region at any entry contents, and the body
   obligation. -/
import proofs.«115220_j39462159515865_1_alg».proof.Proof.BR1RunC

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## What each case leaves -/

/-- The first point stores nothing into the output buffer: a placeholder nothing consults. -/
def out1_A_1 (c : Dev nD) (i : grid1.Coords) (arg2 : Memref sig .tc .vmem S1024x2048 .f32) (harg2 : arg2.IsWhole) (arg3 : Memref sig .tc .vmem S1x1 .f32) (harg3 : arg3.IsWhole) (arg4 : Memref sig .tc .vmem S1x1 .f32) (harg4 : arg4.IsWhole) (hc0 : cond1_0 i) (hc1 : ¬cond1_1 i)
    (x0 : Vec F S1024x2048 .f32) : Vec F S1x1 .f32 :=
  VO1_1.read (Elt F) (VO1_1.writes (Elt F) VO1_1.junk (kernelRun1_A c i arg2 harg2 arg3 harg3 arg4 harg4 hc0 hc1 x0).1)

/-- The first point's pieces for the accumulator cell cover it. -/
theorem scover1_A_0 (c : Dev nD) (i : grid1.Coords) (arg2 : Memref sig .tc .vmem S1024x2048 .f32) (harg2 : arg2.IsWhole) (arg3 : Memref sig .tc .vmem S1x1 .f32) (harg3 : arg3.IsWhole) (arg4 : Memref sig .tc .vmem S1x1 .f32) (harg4 : arg4.IsWhole) (hc0 : cond1_0 i) (hc1 : ¬cond1_1 i)
    (x0 : Vec F S1024x2048 .f32) (y : S1x1.Idx) :
    ∃ pc ∈ (kernelRun1_A c i arg2 harg2 arg3 harg3 arg4 harg4 hc0 hc1 x0).2.1, y ∈ pc.1.set :=
  View.cover_of_tiledL (kernelRun1_A c i arg2 harg2 arg3 harg3 arg4 harg4 hc0 hc1 x0).2.1 S1x1.size (by sl_kernel_rfl) y

/-- What the first point leaves in the accumulator cell. -/
def sout1_A_0 (c : Dev nD) (i : grid1.Coords) (arg2 : Memref sig .tc .vmem S1024x2048 .f32) (harg2 : arg2.IsWhole) (arg3 : Memref sig .tc .vmem S1x1 .f32) (harg3 : arg3.IsWhole) (arg4 : Memref sig .tc .vmem S1x1 .f32) (harg4 : arg4.IsWhole) (hc0 : cond1_0 i) (hc1 : ¬cond1_1 i)
    (x0 : Vec F S1024x2048 .f32) : Vec F S1x1 .f32 :=
  VS1_0.read (Elt F) (VS1_0.writes (Elt F) VS1_0.junk (kernelRun1_A c i arg2 harg2 arg3 harg3 arg4 harg4 hc0 hc1 x0).2.1)

/-- A middle point stores nothing into the output buffer: a placeholder nothing consults. -/
def out1_B_1 (c : Dev nD) (i : grid1.Coords) (arg2 : Memref sig .tc .vmem S1024x2048 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : ¬cond1_1 i)
    (x0 : Vec F S1024x2048 .f32) (xs0 : Vec F S1x1 .f32) : Vec F S1x1 .f32 :=
  VO1_1.read (Elt F) (VO1_1.writes (Elt F) VO1_1.junk (kernelRun1_B c i arg2 harg2 arg3 harg3 arg4 harg4 hc0 hc1 x0 xs0).1)

/-- A middle point's pieces for the accumulator cell cover it. -/
theorem scover1_B_0 (c : Dev nD) (i : grid1.Coords) (arg2 : Memref sig .tc .vmem S1024x2048 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : ¬cond1_1 i)
    (x0 : Vec F S1024x2048 .f32) (xs0 : Vec F S1x1 .f32) (y : S1x1.Idx) :
    ∃ pc ∈ (kernelRun1_B c i arg2 harg2 arg3 harg3 arg4 harg4 hc0 hc1 x0 xs0).2.1, y ∈ pc.1.set :=
  View.cover_of_tiledL (kernelRun1_B c i arg2 harg2 arg3 harg3 arg4 harg4 hc0 hc1 x0 xs0).2.1 S1x1.size (by sl_kernel_rfl) y

/-- What a middle point leaves in the accumulator cell. -/
def sout1_B_0 (c : Dev nD) (i : grid1.Coords) (arg2 : Memref sig .tc .vmem S1024x2048 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : ¬cond1_1 i)
    (x0 : Vec F S1024x2048 .f32) (xs0 : Vec F S1x1 .f32) : Vec F S1x1 .f32 :=
  VS1_0.read (Elt F) (VS1_0.writes (Elt F) VS1_0.junk (kernelRun1_B c i arg2 harg2 arg3 harg3 arg4 harg4 hc0 hc1 x0 xs0).2.1)

/-- The last point's pieces for the output buffer cover it. -/
theorem cover1_C_1 (c : Dev nD) (i : grid1.Coords) (arg2 : Memref sig .tc .vmem S1024x2048 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i)
    (x0 : Vec F S1024x2048 .f32) (xs0 : Vec F S1x1 .f32) (y : S1x1.Idx) :
    ∃ pc ∈ (kernelRun1_C c i arg2 harg2 arg3 harg3 arg4 harg4 hc0 hc1 x0 xs0).1, y ∈ pc.1.set :=
  View.cover_of_tiledL (kernelRun1_C c i arg2 harg2 arg3 harg3 arg4 harg4 hc0 hc1 x0 xs0).1 S1x1.size (by sl_kernel_rfl) y

/-- What the last point leaves in the output buffer. -/
def out1_C_1 (c : Dev nD) (i : grid1.Coords) (arg2 : Memref sig .tc .vmem S1024x2048 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i)
    (x0 : Vec F S1024x2048 .f32) (xs0 : Vec F S1x1 .f32) : Vec F S1x1 .f32 :=
  VO1_1.read (Elt F) (VO1_1.writes (Elt F) VO1_1.junk (kernelRun1_C c i arg2 harg2 arg3 harg3 arg4 harg4 hc0 hc1 x0 xs0).1)

/-- The last point's pieces for the accumulator cell cover it. -/
theorem scover1_C_0 (c : Dev nD) (i : grid1.Coords) (arg2 : Memref sig .tc .vmem S1024x2048 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i)
    (x0 : Vec F S1024x2048 .f32) (xs0 : Vec F S1x1 .f32) (y : S1x1.Idx) :
    ∃ pc ∈ (kernelRun1_C c i arg2 harg2 arg3 harg3 arg4 harg4 hc0 hc1 x0 xs0).2.1, y ∈ pc.1.set :=
  View.cover_of_tiledL (kernelRun1_C c i arg2 harg2 arg3 harg3 arg4 harg4 hc0 hc1 x0 xs0).2.1 S1x1.size (by sl_kernel_rfl) y

/-- What the last point leaves in the accumulator cell. -/
def sout1_C_0 (c : Dev nD) (i : grid1.Coords) (arg2 : Memref sig .tc .vmem S1024x2048 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i)
    (x0 : Vec F S1024x2048 .f32) (xs0 : Vec F S1x1 .f32) : Vec F S1x1 .f32 :=
  VS1_0.read (Elt F) (VS1_0.writes (Elt F) VS1_0.junk (kernelRun1_C c i arg2 harg2 arg3 harg3 arg4 harg4 hc0 hc1 x0 xs0).2.1)

/-! ## What the output buffer and the accumulator cell hold after each point -/

/-- After the body at position `n`: (the output buffer, the accumulator cell). The case is selected by
    the closed forms; a case that reads the cell is run at what position `n - 1` left in it. -/
def outsAt1 (c : Dev nD) : (n : ℕ) → n < cfg1.N → Vec F S1x1 .f32 × Vec F S1x1 .f32
  | 0, hn => (out1_A_1 c (grid1.coords ⟨0, hn⟩) (ms1_0 ⟨0, hn⟩) (hs1_0 ⟨0, hn⟩) (ms1_1 ⟨0, hn⟩) (hs1_1 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩), sout1_A_0 c (grid1.coords ⟨0, hn⟩) (ms1_0 ⟨0, hn⟩) (hs1_0 ⟨0, hn⟩) (ms1_1 ⟨0, hn⟩) (hs1_1 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩))
  | n + 1, hn =>
    if h0 : (n + 1) % 32 = 0 then
      if h1 : (n + 1) % 32 = 31 then
        False.elim (by omega)
      else
        (out1_A_1 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩))
    else
      if h1 : (n + 1) % 32 = 31 then
        (out1_C_1 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (outsAt1 c n (Nat.lt_of_succ_lt hn)).2)
      else
        (out1_B_1 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (outsAt1 c n (Nat.lt_of_succ_lt hn)).2)

theorem outsAt1_A (c : Dev nD) (t : Fin cfg1.N) (h0 : t.val % 32 = 0) (h1 : ¬t.val % 32 = 31) :
    outsAt1 V c t.val t.isLt = (out1_A_1 c (grid1.coords t) (ms1_0 t) (hs1_0 t) (ms1_1 t) (hs1_1 t) scM1_0 (Memref.isWhole_whole _) ((hcond1_0 t).mpr h0) (fun h => h1 ((hcond1_1 t).mp h)) (iblk1 V c 0 t), sout1_A_0 c (grid1.coords t) (ms1_0 t) (hs1_0 t) (ms1_1 t) (hs1_1 t) scM1_0 (Memref.isWhole_whole _) ((hcond1_0 t).mpr h0) (fun h => h1 ((hcond1_1 t).mp h)) (iblk1 V c 0 t)) := by
  obtain ⟨n, hn⟩ := t
  cases n with
  | zero => exact rfl
  | succ n => exact (dif_pos h0).trans ((dif_neg h1).trans rfl)

theorem outsAt1_B (c : Dev nD) (t : Fin cfg1.N) (h0 : ¬t.val % 32 = 0) (h1 : ¬t.val % 32 = 31) :
    outsAt1 V c t.val t.isLt = (out1_B_1 c (grid1.coords t) (ms1_0 t) (hs1_0 t) (ms1_1 t) (hs1_1 t) scM1_0 (Memref.isWhole_whole _) (fun h => h0 ((hcond1_0 t).mp h)) (fun h => h1 ((hcond1_1 t).mp h)) (iblk1 V c 0 t) (outsAt1 V c (t.val - 1) (Nat.lt_of_le_of_lt (Nat.sub_le _ _) t.isLt)).2, sout1_B_0 c (grid1.coords t) (ms1_0 t) (hs1_0 t) (ms1_1 t) (hs1_1 t) scM1_0 (Memref.isWhole_whole _) (fun h => h0 ((hcond1_0 t).mp h)) (fun h => h1 ((hcond1_1 t).mp h)) (iblk1 V c 0 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 32 = 0) (h1 : t.val % 32 = 31) :
    outsAt1 V c t.val t.isLt = (out1_C_1 c (grid1.coords t) (ms1_0 t) (hs1_0 t) (ms1_1 t) (hs1_1 t) scM1_0 (Memref.isWhole_whole _) (fun h => h0 ((hcond1_0 t).mp h)) ((hcond1_1 t).mpr h1) (iblk1 V c 0 t) (outsAt1 V c (t.val - 1) (Nat.lt_of_le_of_lt (Nat.sub_le _ _) t.isLt)).2, sout1_C_0 c (grid1.coords t) (ms1_0 t) (hs1_0 t) (ms1_1 t) (hs1_1 t) scM1_0 (Memref.isWhole_whole _) (fun h => h0 ((hcond1_0 t).mp h)) ((hcond1_1 t).mpr h1) (iblk1 V c 0 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point what the launch hands over;
    afterwards the accumulator cell at what the point before left in it. -/
def PhiS (c : Dev nD) : (n : ℕ) → n ≤ cfg1.N → sProp 𝕄
  | 0, _ => Pipeline.ΦA spec1 c
  | n + 1, hn => PhiWith c iprop(owns (c : Thread nD τ) scM1_0 fullShare ((outsAt1 V c n hn).2))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = PhiWith c iprop(owns (c : Thread nD τ) scM1_0 fullShare ((outsAt1 V c n hn).2)) := rfl

theorem PhiS_pos (c : Dev nD) (n : ℕ) (h : n ≤ cfg1.N) (hz : n ≠ 0) :
    PhiS V c n h = PhiWith c iprop(owns (c : Thread nD τ) scM1_0 fullShare ((outsAt1 V c (n - 1) (by omega)).2)) := by
  cases n with
  | zero => exact absurd rfl hz
  | succ n => rfl

/-! ## The region's proof data -/

/-- The proof data of the region on core `c`: the arrays at the entry contents; after the body at
    point `t` the input buffer at its block and the output buffer at `outsAt1`'s first component; the
    invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t)

set_option maxHeartbeats 4800000 in
/-- The body at any point: the closed forms select the case; the invariant hands over the accumulator
    cell at what the point before left (at anything at the first point) and takes it back at this
    point's contents; the seven foreign buffers and the register pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [show (dat1 V c).Φ t.succ = PhiS V c (t.val + 1) t.isLt from rfl, PhiS_succ]
  have hN : t.val < 32 := lt_of_lt_of_eq t.isLt (show cfg1.N = 32 from N_1)
  by_cases h0 : t.val % 32 = 0
  · by_cases h1 : t.val % 32 = 31
    · exfalso; omega
    · rw [show (dat1 V c).leavesExact 0 t = owns (c : Thread nD τ) (ms1_0 t) fullShare ((dat1 V c).after 0 t) from by
      unfold Dat.leavesExact; rw [liveAt1_0 t], after1_0]
      rw [Dat.leavesExact_idle (dat1 V c) 1 t (idleAt1_1_A t ((hcond1_0 t).mpr h0) (fun h => h1 ((hcond1_1 t).mp h))) (noFlush1_1_A t ((hcond1_0 t).mpr h0) (fun h => h1 ((hcond1_1 t).mp h)))]
      rw [outsAt1_A V c t h0 h1]
      unfold sout1_A_0; (try dsimp only)
      by_cases hz : t.val = 0
      · rw [PhiS_castSucc V c t, PhiS_zero V c _ _ hz, PhiA1_eq]
        unfold PhiWith
        iintro ⟨⟨⟨HR0, HR1, HR2, HR3, HR4, HR5, HR6, HS0⟩, Hg⟩, Ho, ⟨%d0, H0⟩, ⟨%d1, H1⟩⟩
        iapply ((kernelRun1_A c (grid1.coords t) _ _ _ _ _ _ ((hcond1_0 t).mpr h0) (fun h => h1 ((hcond1_1 t).mp h)) (iblk1 V c 0 t)).2.2 _ Set.univ _)
        isplitl [H0]; · iexact H0
        isplitl [H1]; · iexact H1
        isplitl [HS0]; · iexact HS0
        iintro ⟨H0, H1, ⟨%es0, HS0⟩⟩
        isplitl [HR0 HR1 HR2 HR3 HR4 HR5 HR6 HS0 Hg]
        · isplitl [HR0 HR1 HR2 HR3 HR4 HR5 HR6 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            unfold owns; iexists _; isplitr
            swap; · iexact HS0
            ipureintro; exact View.read_writes_of_cover _ _ _ _ _ (scover1_A_0 c _ _ _ _ _ _ _ _ _ _)
          iexact Hg
        isplitl [Ho]; · iexact Ho
        isplitl [H0]; · iexact H0
        iexists _; iexact H1
      · exfalso; omega
  · by_cases h1 : t.val % 32 = 31
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1_C t (fun h => h0 ((hcond1_0 t).mp h)) ((hcond1_1 t).mpr h1)], after1_1]
      rw [outsAt1_C V c t h0 h1]
      unfold out1_C_1 sout1_C_0; (try dsimp only)
      by_cases hz : t.val = 0
      · exfalso; omega
      · rw [PhiS_castSucc V c t, PhiS_pos V c _ _ hz]
        unfold PhiWith
        iintro ⟨⟨⟨HR0, HR1, HR2, HR3, HR4, HR5, HR6, HS0⟩, Hg⟩, Ho, ⟨%d0, H0⟩, ⟨%d1, H1⟩⟩
        iapply ((kernelRun1_C c (grid1.coords t) _ _ _ _ _ _ (fun h => h0 ((hcond1_0 t).mp h)) ((hcond1_1 t).mpr h1) (iblk1 V c 0 t) _).2.2 Set.univ _)
        isplitl [H0]; · iexact H0
        isplitl [H1]; · iexists _; iexact H1
        isplitl [HS0]; · iexact HS0
        iintro ⟨H0, ⟨%e1, H1⟩, ⟨%es0, HS0⟩⟩
        isplitl [HR0 HR1 HR2 HR3 HR4 HR5 HR6 HS0 Hg]
        · isplitl [HR0 HR1 HR2 HR3 HR4 HR5 HR6 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            unfold owns; iexists _; isplitr
            swap; · iexact HS0
            ipureintro; exact View.read_writes_of_cover _ _ _ _ _ (scover1_C_0 c _ _ _ _ _ _ _ _ _ _ _)
          iexact Hg
        isplitl [Ho]; · iexact Ho
        isplitl [H0]; · iexact H0
        unfold owns; iexists _; isplitr
        swap; · iexact H1
        ipureintro; exact View.read_writes_of_cover _ _ _ _ _ (cover1_C_1 c _ _ _ _ _ _ _ _ _ _ _)
    · rw [show (dat1 V c).leavesExact 0 t = owns (c : Thread nD τ) (ms1_0 t) fullShare ((dat1 V c).after 0 t) from by
      unfold Dat.leavesExact; rw [liveAt1_0 t], after1_0]
      rw [Dat.leavesExact_idle (dat1 V c) 1 t (idleAt1_1_B t (fun h => h0 ((hcond1_0 t).mp h)) (fun h => h1 ((hcond1_1 t).mp h))) (noFlush1_1_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS_castSucc V c t, PhiS_pos V c _ _ hz]
        unfold PhiWith
        iintro ⟨⟨⟨HR0, HR1, HR2, HR3, HR4, HR5, HR6, HS0⟩, Hg⟩, Ho, ⟨%d0, H0⟩, ⟨%d1, H1⟩⟩
        iapply ((kernelRun1_B c (grid1.coords t) _ _ _ _ _ _ (fun h => h0 ((hcond1_0 t).mp h)) (fun h => h1 ((hcond1_1 t).mp h)) (iblk1 V c 0 t) _).2.2 _ Set.univ _)
        isplitl [H0]; · iexact H0
        isplitl [H1]; · iexact H1
        isplitl [HS0]; · iexact HS0
        iintro ⟨H0, H1, ⟨%es0, HS0⟩⟩
        isplitl [HR0 HR1 HR2 HR3 HR4 HR5 HR6 HS0 Hg]
        · isplitl [HR0 HR1 HR2 HR3 HR4 HR5 HR6 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            unfold owns; iexists _; isplitr
            swap; · iexact HS0
            ipureintro; exact View.read_writes_of_cover _ _ _ _ _ (scover1_B_0 c _ _ _ _ _ _ _ _ _ _ _)
          iexact Hg
        isplitl [Ho]; · iexact Ho
        isplitl [H0]; · iexact H0
        iexists _; iexact H1

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the launch's back: the accumulator cell's
    contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  unfold PhiWith
  iintro ⟨⟨HR0, HR1, HR2, HR3, HR4, HR5, HR6, HS0⟩, Hg⟩
  isplitl [HR0 HR1 HR2 HR3 HR4 HR5 HR6 HS0]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

end Cert.Kernel.R1

end
-- ==== Proof.BWhole.lean ====
/-
  The whole run of the kernel program: region 0 (the blocked matrix product), region 1 (the sum of squares), then the
  host operations, composed over the thread state "every unscoped buffer held at a known valuation".
  The valuations: at launch the memory; after region 0 the product's array at what the pipeline's write-backs leave;
  after region 1 the 1 × 1 sum likewise; after the host operations their composed results. The run's post reads every
  unscoped buffer of the final memory at the last valuation: the frame (the arguments unchanged) and the results'
  values are both read off it.
-/
import proofs.«115220_j39462159515865_1_alg».proof.Proof.BR0Frame
import proofs.«115220_j39462159515865_1_alg».proof.Proof.BR1Frame
import proofs.«115220_j39462159515865_1_alg».proof.Proof.Gen.Kernel.Regions
import Idealize.ShloMosaic.Lib.Pipeline.RegionsLoop

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m ((c : Dev nD), b)
abbrev V0 : (c : Dev nD) → (b : Ref sig .tc) → Buf (Elt F) ((c : Thread nD τ).loc b) := fun c b => W0 m c b
/-- After region 0: its arrays at what the pipeline leaves, every other buffer as before. -/
def W1 (c : Dev nD) : Valuation τ sig (Elt F) :=
  Pipeline.withArrays spec0 c (W0 m c) fun w => (R0.dat0 (V0 m) c).arrAt w cfg0.N
theorem W1_arr (c : Dev nD) (w : Fin cfg0.W) :
    W1 m c (Proc.devRef .tc (Pipeline.arrRef spec0 w)) = (R0.dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (R0.dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After region 1. -/
def W2 (c : Dev nD) : Valuation τ sig (Elt F) :=
  Pipeline.withArrays spec1 c (W1 m c) fun w => (R1.dat1 (V1 m) c).arrAt w cfg1.N
theorem W2_arr (c : Dev nD) (w : Fin cfg1.W) :
    W2 m c (Proc.devRef .tc (Pipeline.arrRef spec1 w)) = (R1.dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b
theorem hF1 (c : Dev nD) (w : Fin cfg1.W) : (R1.dat1 (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-- After the host operations. -/
def W3 (c : Dev nD) : Valuation τ sig (Elt F) := StableHlo.after hostOps2 (W2 m c)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => R0.dat0 (V0 m) c
  | ⟨1, _⟩ => fun c => R1.dat1 (V1 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- Region 0 over the thread state: entered from every unscoped buffer at `W0`, left at `W1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    have h := R0.hout0 (V0 m) c
    unfold Pipeline.ΦA at h
    rw [Pipeline.ownSems0_none]
    refine h.trans ?_
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W1`, left at `W2`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    have h := R1.hout1 (V1 m) c
    unfold Pipeline.ΦA at h
    rw [Pipeline.ownSems0_none]
    refine h.trans ?_
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The host operations as a segment: from every unscoped buffer at `W2` to `W3`. -/
abbrev hseg : Pipeline.HostSeg (Name := ℕ) (U := UR sig nD τ) (pcfgs (F := F)) defs₀ 𝒱₀ L lv :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W2 m) R

abbrev segs : List (Pipeline.Seg (pcfgs (F := F)) adm (pdats m) () defs₀ 𝒱₀ L lv) :=
  [ .region (reg0 m), .region (reg1 m), .host (hseg m) ]

theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    the final memory holds every unscoped buffer at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c => by
      show iprop(StableHlo.held (c : Thread nD τ) (Pipeline.ucRefs τ sig) (W3 m c) ∗ R c) ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

end Cert.Kernel.Whole

end
-- ==== Proof.BWholeArgs.lean ====
/-
  The last valuation read back. No region and no host operation writes an argument, so each argument's buffer walks
  back to the launch memory; the product's array and the 1 × 1 sum sit, before the host operations, at what their
  regions' write-backs left. The frame of the program — every argument unchanged at the end — follows from the whole run.
-/
import proofs.«115220_j39462159515865_1_alg».proof.Proof.BWhole

set_option maxRecDepth 16384

noncomputable section

namespace Cert.Kernel.Whole

open Cert.Kernel Cert.Kernel.Gen
open Idealize.ShloMosaic Idealize.ShloMosaic.TcCoe
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

theorem W2_arg0 (c : Dev nD) : W2 m c (Proc.devRef .tc main_arg0) = m ((c : Thread nD τ).loc main_arg0) :=
  calc W2 m c (Proc.devRef .tc main_arg0)
    _ = W1 m c (Proc.devRef .tc main_arg0) := W2_of_ne m c main_arg0 (by decide)
    _ = W0 m c (Proc.devRef .tc main_arg0) := (W1_arr m c 0).trans (((R0.dat0 (V0 m) c).arrAt_in 0 rfl _).trans (R0.A_eq0 (V0 m) c 0))
    _ = m ((c : Thread nD τ).loc main_arg0) := rfl

theorem W1_arg1 (c : Dev nD) : W1 m c (Proc.devRef .tc main_arg1) = m ((c : Thread nD τ).loc main_arg1) :=
  W1_of_ne m c main_arg1 (by decide)

theorem W2_arg1 (c : Dev nD) : W2 m c (Proc.devRef .tc main_arg1) = m ((c : Thread nD τ).loc main_arg1) :=
  calc W2 m c (Proc.devRef .tc main_arg1)
    _ = W1 m c (Proc.devRef .tc main_arg1) := (W2_arr m c 0).trans (((R1.dat1 (V1 m) c).arrAt_in 0 rfl _).trans (R1.A_eq1 (V1 m) c 0))
    _ = m ((c : Thread nD τ).loc main_arg1) := W1_arg1 m c

theorem W2_arg2 (c : Dev nD) : W2 m c (Proc.devRef .tc main_arg2) = m ((c : Thread nD τ).loc main_arg2) :=
  calc W2 m c (Proc.devRef .tc main_arg2)
    _ = W1 m c (Proc.devRef .tc main_arg2) := W2_of_ne m c main_arg2 (by decide)
    _ = W0 m c (Proc.devRef .tc main_arg2) := (W1_arr m c 1).trans (((R0.dat0 (V0 m) c).arrAt_in 1 rfl _).trans (R0.A_eq0 (V0 m) c 1))
    _ = m ((c : Thread nD τ).loc main_arg2) := rfl

theorem W2_arg3 (c : Dev nD) : W2 m c (Proc.devRef .tc main_arg3) = m ((c : Thread nD τ).loc main_arg3) :=
  calc W2 m c (Proc.devRef .tc main_arg3)
    _ = W1 m c (Proc.devRef .tc main_arg3) := W2_of_ne m c main_arg3 (by decide)
    _ = W0 m c (Proc.devRef .tc main_arg3) := W1_of_ne m c main_arg3 (by decide)
    _ = m ((c : Thread nD τ).loc main_arg3) := rfl

theorem W2_arg4 (c : Dev nD) : W2 m c (Proc.devRef .tc main_arg4) = m ((c : Thread nD τ).loc main_arg4) :=
  calc W2 m c (Proc.devRef .tc main_arg4)
    _ = W1 m c (Proc.devRef .tc main_arg4) := W2_of_ne m c main_arg4 (by decide)
    _ = W0 m c (Proc.devRef .tc main_arg4) := W1_of_ne m c main_arg4 (by decide)
    _ = m ((c : Thread nD τ).loc main_arg4) := rfl

theorem W2_arg5 (c : Dev nD) : W2 m c (Proc.devRef .tc main_arg5) = m ((c : Thread nD τ).loc main_arg5) :=
  calc W2 m c (Proc.devRef .tc main_arg5)
    _ = W1 m c (Proc.devRef .tc main_arg5) := W2_of_ne m c main_arg5 (by decide)
    _ = W0 m c (Proc.devRef .tc main_arg5) := W1_of_ne m c main_arg5 (by decide)
    _ = m ((c : Thread nD τ).loc main_arg5) := rfl

/-- The product's array before the host operations: what region 0's write-backs left. -/
theorem W2_v0 (c : Dev nD) : W2 m c (Proc.devRef .tc main_v0) = (R0.dat0 (V0 m) c).arrAt 2 cfg0.N :=
  (W2_of_ne m c main_v0 (by decide)).trans (W1_arr m c 2)

/-- The 1 × 1 sum before the host operations: what region 1's write-back left. -/
theorem W2_v1 (c : Dev nD) : W2 m c (Proc.devRef .tc main_v1) = (R1.dat1 (V1 m) c).arrAt 1 cfg1.N :=
  W2_arr m c 1

theorem W3_arg0 (c : Dev nD) : W3 m c (Proc.devRef .tc main_arg0) = m ((c : Thread nD τ).loc main_arg0) :=
  (StableHlo.after_of_writes_sub hostOps2 _ hostOps2_writes (show main_arg0 ∉ hostOps2_W by decide)).trans (W2_arg0 m c)

theorem W3_arg1 (c : Dev nD) : W3 m c (Proc.devRef .tc main_arg1) = m ((c : Thread nD τ).loc main_arg1) :=
  (StableHlo.after_of_writes_sub hostOps2 _ hostOps2_writes (show main_arg1 ∉ hostOps2_W by decide)).trans (W2_arg1 m c)

theorem W3_arg2 (c : Dev nD) : W3 m c (Proc.devRef .tc main_arg2) = m ((c : Thread nD τ).loc main_arg2) :=
  (StableHlo.after_of_writes_sub hostOps2 _ hostOps2_writes (show main_arg2 ∉ hostOps2_W by decide)).trans (W2_arg2 m c)

theorem W3_arg3 (c : Dev nD) : W3 m c (Proc.devRef .tc main_arg3) = m ((c : Thread nD τ).loc main_arg3) :=
  (StableHlo.after_of_writes_sub hostOps2 _ hostOps2_writes (show main_arg3 ∉ hostOps2_W by decide)).trans (W2_arg3 m c)

theorem W3_arg4 (c : Dev nD) : W3 m c (Proc.devRef .tc main_arg4) = m ((c : Thread nD τ).loc main_arg4) :=
  (StableHlo.after_of_writes_sub hostOps2 _ hostOps2_writes (show main_arg4 ∉ hostOps2_W by decide)).trans (W2_arg4 m c)

theorem W3_arg5 (c : Dev nD) : W3 m c (Proc.devRef .tc main_arg5) = m ((c : Thread nD τ).loc main_arg5) :=
  (StableHlo.after_of_writes_sub hostOps2 _ hostOps2_writes (show main_arg5 ∉ hostOps2_W by decide)).trans (W2_arg5 m c)

/-- THE FRAME, at any instance: every weakly fair execution terminates, nothing faulting, and the six argument arrays
    end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W3_arg0 m c),
     (h c _ (mem_uc main_arg1 (by decide))).trans (W3_arg1 m c),
     (h c _ (mem_uc main_arg2 (by decide))).trans (W3_arg2 m c),
     (h c _ (mem_uc main_arg3 (by decide))).trans (W3_arg3 m c),
     (h c _ (mem_uc main_arg4 (by decide))).trans (W3_arg4 m c),
     (h c _ (mem_uc main_arg5 (by decide))).trans (W3_arg5 m c)⟩) (run_all m ρ)

end Cert.Kernel.Whole

end
-- ==== Proof.R0Runs.lean ====
/-
  Region 0: the blocked matrix product. The grid is 8 × 4 (row block i, contraction block k; point t = 4·i + k).
  At every point the body adds the product of the x block (1024 × 2048) and the weight block (2048 × 64) to an
  accumulator it keeps in a scratch buffer between points; at k = 0 it first clears the accumulator, at k = 3 it
  copies the accumulator into the output block, which is written back there and only there.
  This module holds what the three control cases share: the two conditions in closed form over the grid, where the
  output window is idle, the memrefs the body is called with, and the region's invariant with the accumulator
  singled out.
-/
import proofs.«115220_j39462159515865_1_alg».proof.Proof.Gen.KernelIdeal.Launch
import proofs.«115220_j39462159515865_1_alg».proof.Proof.Gen.KernelIdeal.Skeleton
import proofs.«115220_j39462159515865_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The x window's current staging buffer holds its block at every point, for any proof data over these arrays whose
    body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for the weight window. -/
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The two conditions -/

/-- "k = 0": the accumulator is cleared. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "k = 3": the accumulator is copied to the output block. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
theorem liveAt0_2_C : ∀ t : Fin cfg0.N, ¬cond0_0 (grid0.coords t) → cond0_1 (grid0.coords t) → cfg0.idle 2 (grid0.coords t) = false := by decide +kernel

/-! ## The memrefs the body is called with -/

/-- One staging buffer of the output window, through which its contents are stated. -/
abbrev VO0_2 : View sig .tc .vmem S1024x64 .f32 := (Memref.whole cc0_stg2_0 : Memref sig .tc .vmem S1024x64 .f32).view
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x64 .f32 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0_0 : Memref sig .tc .vmem S1024x64 .f32 := Memref.whole cc0_scratch0
abbrev VS0_0 : View sig .tc .vmem S1024x64 .f32 := scM0_0.view

/-- The scoped buffers this kernel never touches (the other kernel's staging buffers and accumulator), each at some
    contents: they ride along in the invariant. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_scratch0), ((c : Thread nD τ).loc cc1_scratch0) ↦{fullShare} f))

/-- The class invariant with the accumulator as a memref owned at some contents. -/
theorem PhiA0_eq (c : Dev nD) :
    (Pipeline.ΦA spec0 c : sProp 𝕄)
      = iprop(iprop((∃ d, owns (c : Thread nD τ) scM0_0 fullShare d) ∗ others (F := F) c) ∗ (∃ r, prngReg c r)) := by
  unfold Pipeline.ΦA others; rw [scopedRest0_eq]; simp only [scM0_0, owns_whole]; try rfl

end Cert.KernelIdeal.R0

end
-- ==== Proof.R0RunA.lean ====
/-
  Region 0, the case k = 0: the accumulator is cleared (whatever it held), then the product of the point's x and weight
  blocks is added to it; the output block is not touched. The run below is the body's triple in this case; the pieces
  the accumulator ends with are what the run finds.
-/
import proofs.«115220_j39462159515865_1_alg».proof.Proof.R0Runs

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body in the case k = 0, on whole memrefs: the inputs at their blocks `x0`, `x1`, the output buffer at contents
    `xi2` handed back untouched, the accumulator at anything; it ends with the accumulator's pieces written. -/
noncomputable def kernelRun0_A (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : cond0_0 i) (hc1 : ¬cond0_1 i)
    (x0 : Vec F S1024x2048 .f32) (x1 : Vec F S2048x64 .f32) :
    Σ' (L2 : List (View.Piece (Elt F) S1024x64 .f32)), { LS0 : List (View.Piece (Elt F) S1024x64 .f32) //
      ∀ (xi2 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__matmul_kernel i arg2 harg2 arg3 harg3 arg4 harg4 arg5 harg5) K } := by
  refine ⟨[], ?_, fun xi2 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.R0

end
-- ==== Proof.R0RunB.lean ====
/-
  Region 0, the case k = 1 or 2: the product of the point's blocks is added to the accumulator as the point before
  left it; the output block is not touched.
-/
import proofs.«115220_j39462159515865_1_alg».proof.Proof.R0RunA

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body in the case 0 < k < 3: the accumulator is found at `xs0` and ends with its pieces written. -/
noncomputable def kernelRun0_B (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : ¬cond0_0 i) (hc1 : ¬cond0_1 i)
    (x0 : Vec F S1024x2048 .f32) (x1 : Vec F S2048x64 .f32) (xs0 : Vec F S1024x64 .f32) :
    Σ' (L2 : List (View.Piece (Elt F) S1024x64 .f32)), { LS0 : List (View.Piece (Elt F) S1024x64 .f32) //
      ∀ (xi2 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__matmul_kernel i arg2 harg2 arg3 harg3 arg4 harg4 arg5 harg5) K } := by
  refine ⟨[], ?_, fun xi2 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.R0

end
-- ==== Proof.R0RunC.lean ====
/-
  Region 0, the case k = 3: the product of the point's blocks is added to the accumulator as the point before left it,
  and the accumulator is then copied whole into the output block.
-/
import proofs.«115220_j39462159515865_1_alg».proof.Proof.R0RunB

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body in the case k = 3: the accumulator is found at `xs0`, the output buffer at anything; both end with their
    pieces written. -/
noncomputable def kernelRun0_C (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : ¬cond0_0 i) (hc1 : cond0_1 i)
    (x0 : Vec F S1024x2048 .f32) (x1 : Vec F S2048x64 .f32) (xs0 : Vec F S1024x64 .f32) :
    Σ' (L2 : List (View.Piece (Elt F) S1024x64 .f32)), { LS0 : List (View.Piece (Elt F) S1024x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__matmul_kernel i arg2 harg2 arg3 harg3 arg4 harg4 arg5 harg5) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.R0

end
-- ==== Proof.R0Frame.lean ====
/-
  Region 0, the frame data. What each case leaves in the accumulator and in the output block (its pieces read back),
  the contents point by point (by recursion on the point: a case that reads the accumulator takes what the point before
  left), the region's invariant (before the first point: every scratch at anything; after a point: the accumulator at
  that point's contents), the pipeline's proof data over arbitrary region-entry contents `V`, and the body obligation.
-/
import proofs.«115220_j39462159515865_1_alg».proof.Proof.R0RunC

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- k = 0 stores nothing into the output block: a placeholder nothing consults. -/
def out0_A_2 (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : cond0_0 i) (hc1 : ¬cond0_1 i) (x0 : Vec F S1024x2048 .f32) (x1 : Vec F S2048x64 .f32) : Vec F S1024x64 .f32 :=
  VO0_2.read (Elt F) (VO0_2.writes (Elt F) VO0_2.junk (kernelRun0_A c i arg2 harg2 arg3 harg3 arg4 harg4 arg5 harg5 hc0 hc1 x0 x1).1)
theorem scover0_A_0 (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : cond0_0 i) (hc1 : ¬cond0_1 i) (x0 : Vec F S1024x2048 .f32) (x1 : Vec F S2048x64 .f32) (y : S1024x64.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S1024x64.size (by sl_kernel_rfl) y
/-- What k = 0 leaves in the accumulator. -/
def sout0_A_0 (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : cond0_0 i) (hc1 : ¬cond0_1 i) (x0 : Vec F S1024x2048 .f32) (x1 : Vec F S2048x64 .f32) : Vec F S1024x64 .f32 :=
  VS0_0.read (Elt F) (VS0_0.writes (Elt F) VS0_0.junk (kernelRun0_A c i arg2 harg2 arg3 harg3 arg4 harg4 arg5 harg5 hc0 hc1 x0 x1).2.1)

def out0_B_2 (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : ¬cond0_0 i) (hc1 : ¬cond0_1 i) (x0 : Vec F S1024x2048 .f32) (x1 : Vec F S2048x64 .f32) (xs0 : Vec F S1024x64 .f32) : Vec F S1024x64 .f32 :=
  VO0_2.read (Elt F) (VO0_2.writes (Elt F) VO0_2.junk (kernelRun0_B c i arg2 harg2 arg3 harg3 arg4 harg4 arg5 harg5 hc0 hc1 x0 x1 xs0).1)
theorem scover0_B_0 (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : ¬cond0_0 i) (hc1 : ¬cond0_1 i) (x0 : Vec F S1024x2048 .f32) (x1 : Vec F S2048x64 .f32) (xs0 : Vec F S1024x64 .f32) (y : S1024x64.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S1024x64.size (by sl_kernel_rfl) y
/-- What 0 < k < 3 leaves in the accumulator. -/
def sout0_B_0 (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : ¬cond0_0 i) (hc1 : ¬cond0_1 i) (x0 : Vec F S1024x2048 .f32) (x1 : Vec F S2048x64 .f32) (xs0 : Vec F S1024x64 .f32) : Vec F S1024x64 .f32 :=
  VS0_0.read (Elt F) (VS0_0.writes (Elt F) VS0_0.junk (kernelRun0_B c i arg2 harg2 arg3 harg3 arg4 harg4 arg5 harg5 hc0 hc1 x0 x1 xs0).2.1)

theorem cover0_C_2 (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : ¬cond0_0 i) (hc1 : cond0_1 i) (x0 : Vec F S1024x2048 .f32) (x1 : Vec F S2048x64 .f32) (xs0 : Vec F S1024x64 .f32) (y : S1024x64.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1024x64.size (by sl_kernel_rfl) y
/-- What k = 3 leaves in the output block. -/
def out0_C_2 (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : ¬cond0_0 i) (hc1 : cond0_1 i) (x0 : Vec F S1024x2048 .f32) (x1 : Vec F S2048x64 .f32) (xs0 : Vec F S1024x64 .f32) : Vec F S1024x64 .f32 :=
  VO0_2.read (Elt F) (VO0_2.writes (Elt F) VO0_2.junk (kernelRun0_C c i arg2 harg2 arg3 harg3 arg4 harg4 arg5 harg5 hc0 hc1 x0 x1 xs0).1)
theorem scover0_C_0 (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : ¬cond0_0 i) (hc1 : cond0_1 i) (x0 : Vec F S1024x2048 .f32) (x1 : Vec F S2048x64 .f32) (xs0 : Vec F S1024x64 .f32) (y : S1024x64.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S1024x64.size (by sl_kernel_rfl) y
/-- What k = 3 leaves in the accumulator. -/
def sout0_C_0 (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : ¬cond0_0 i) (hc1 : cond0_1 i) (x0 : Vec F S1024x2048 .f32) (x1 : Vec F S2048x64 .f32) (xs0 : Vec F S1024x64 .f32) : Vec F S1024x64 .f32 :=
  VS0_0.read (Elt F) (VS0_0.writes (Elt F) VS0_0.junk (kernelRun0_C c i arg2 harg2 arg3 harg3 arg4 harg4 arg5 harg5 hc0 hc1 x0 x1 xs0).2.1)

/-! ## The cases at a point of the grid: (output block, accumulator) -/

def atA (c : Dev nD) (t : Fin cfg0.N) (hc0 : cond0_0 (grid0.coords t)) (hc1 : ¬cond0_1 (grid0.coords t)) : Vec F S1024x64 .f32 × Vec F S1024x64 .f32 :=
  (out0_A_2 c (grid0.coords t) (ms0_0 t) (hs0_0 t) (ms0_1 t) (hs0_1 t) (ms0_2 t) (hs0_2 t) scM0_0 (Memref.isWhole_whole _) hc0 hc1 (iblk V c 0 t) (iblk V c 1 t), sout0_A_0 c (grid0.coords t) (ms0_0 t) (hs0_0 t) (ms0_1 t) (hs0_1 t) (ms0_2 t) (hs0_2 t) scM0_0 (Memref.isWhole_whole _) hc0 hc1 (iblk V c 0 t) (iblk V c 1 t))
def atB (c : Dev nD) (t : Fin cfg0.N) (hc0 : ¬cond0_0 (grid0.coords t)) (hc1 : ¬cond0_1 (grid0.coords t)) (xs : Vec F S1024x64 .f32) : Vec F S1024x64 .f32 × Vec F S1024x64 .f32 :=
  (out0_B_2 c (grid0.coords t) (ms0_0 t) (hs0_0 t) (ms0_1 t) (hs0_1 t) (ms0_2 t) (hs0_2 t) scM0_0 (Memref.isWhole_whole _) hc0 hc1 (iblk V c 0 t) (iblk V c 1 t) xs, sout0_B_0 c (grid0.coords t) (ms0_0 t) (hs0_0 t) (ms0_1 t) (hs0_1 t) (ms0_2 t) (hs0_2 t) scM0_0 (Memref.isWhole_whole _) hc0 hc1 (iblk V c 0 t) (iblk V c 1 t) xs)
def atC (c : Dev nD) (t : Fin cfg0.N) (hc0 : ¬cond0_0 (grid0.coords t)) (hc1 : cond0_1 (grid0.coords t)) (xs : Vec F S1024x64 .f32) : Vec F S1024x64 .f32 × Vec F S1024x64 .f32 :=
  (out0_C_2 c (grid0.coords t) (ms0_0 t) (hs0_0 t) (ms0_1 t) (hs0_1 t) (ms0_2 t) (hs0_2 t) scM0_0 (Memref.isWhole_whole _) hc0 hc1 (iblk V c 0 t) (iblk V c 1 t) xs, sout0_C_0 c (grid0.coords t) (ms0_0 t) (hs0_0 t) (ms0_1 t) (hs0_1 t) (ms0_2 t) (hs0_2 t) scM0_0 (Memref.isWhole_whole _) hc0 hc1 (iblk V c 0 t) (iblk V c 1 t) xs)

/-- THE ACCUMULATION: what the output block's staging buffer and the accumulator hold after the body at position `n`. -/
def outsAt0 (c : Dev nD) : (n : ℕ) → n < cfg0.N → Vec F S1024x64 .f32 × Vec F S1024x64 .f32
  | 0, hn => atA V c ⟨0, hn⟩ ((hcond0_0 ⟨0, hn⟩).mpr (Nat.zero_mod _)) (fun h => (fun h => by (try dsimp only at h); omega) ((hcond0_1 ⟨0, hn⟩).mp h))
  | n + 1, hn =>
    if h0 : (n + 1) % 4 = 0 then
      if h1 : (n + 1) % 4 = 3 then
        False.elim (by omega)
      else
        atA V c ⟨n + 1, hn⟩ ((hcond0_0 ⟨n + 1, hn⟩).mpr h0) (fun h => h1 ((hcond0_1 ⟨n + 1, hn⟩).mp h))
    else
      if h1 : (n + 1) % 4 = 3 then
        atC V c ⟨n + 1, hn⟩ (fun h => h0 ((hcond0_0 ⟨n + 1, hn⟩).mp h)) ((hcond0_1 ⟨n + 1, hn⟩).mpr h1) (outsAt0 c n (Nat.lt_of_succ_lt hn)).2
      else
        atB V c ⟨n + 1, hn⟩ (fun h => h0 ((hcond0_0 ⟨n + 1, hn⟩).mp h)) (fun h => h1 ((hcond0_1 ⟨n + 1, hn⟩).mp h)) (outsAt0 c n (Nat.lt_of_succ_lt hn)).2

theorem outsAt0_A (c : Dev nD) (t : Fin cfg0.N) (h0 : t.val % 4 = 0) (h1 : ¬t.val % 4 = 3) :
    outsAt0 V c t.val t.isLt = atA V c t ((hcond0_0 t).mpr h0) (fun h => h1 ((hcond0_1 t).mp h)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 V c t.val t.isLt = atB V c t (fun h => h0 ((hcond0_0 t).mp h)) (fun h => h1 ((hcond0_1 t).mp h)) (outsAt0 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 V c t.val t.isLt = atC V c t (fun h => h0 ((hcond0_0 t).mp h)) ((hcond0_1 t).mpr h1) (outsAt0 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

/-! ## The invariant -/

def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ others (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ others (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ others (F := F) c) ∗ (∃ r, prngReg c r)) := by
  cases n with
  | zero => exact absurd rfl hz
  | succ n => rfl

/-! ## The proof data -/

/-- The proof data of pipeline 0 on core `c`, over the region-entry contents `V`. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk V c 0 t := by dsimp only [dat0]
theorem after0_1 (c : Dev nD) (t : Fin cfg0.N) : (dat0 V c).after 1 t = iblk V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk V c 0 t :=
  before0_0_of V (dat0 V c) (A_eq0 V c 0) (after0_0 V c) t d
theorem before0_1 (c : Dev nD) (t : Fin cfg0.N) (d) : (dat0 V c).before 1 t d = iblk V c 1 t :=
  before0_1_of V (dat0 V c) (A_eq0 V c 1) (after0_1 V c) t d

/-! ## The body obligation -/

def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' memrefs hold their blocks; the closed forms say which case the point is in; the
    invariant hands the body the accumulator at what the point before left (at anything at the first point) and takes it
    back at this point's contents. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 4 = 0
  · by_cases h1 : t.val % 4 = 3
    · exfalso; omega
    · rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
      rw [outsAt0_A V c t h0 h1]
      unfold atA sout0_A_0; (try dsimp only)
      by_cases hz : t.val = 0
      · rw [PhiS_castSucc V c t, PhiS_zero V c _ _ hz, PhiA0_eq]
        iintro ⟨⟨⟨HS0, Hoth⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk V c 0 t) (iblk V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A_0 c _ _ _ _ _ _ _ _ _ _ _ _ _)
            iexact Hoth
          iexact Hg
        isplitl [Ho]; · iexact Ho
        isplitl [H0]; · iexact H0
        isplitl [H1]; · iexact H1
        iexists _; iexact H2
      · rw [PhiS_castSucc V c t, PhiS_pos V c _ _ hz]
        iintro ⟨⟨⟨HS0, Hoth⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk V c 0 t) (iblk V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A_0 c _ _ _ _ _ _ _ _ _ _ _ _ _)
            iexact Hoth
          iexact Hg
        isplitl [Ho]; · iexact Ho
        isplitl [H0]; · iexact H0
        isplitl [H1]; · iexact H1
        iexists _; iexact H2
  · have hz : t.val ≠ 0 := fun e => h0 (by rw [e])
    by_cases h1 : t.val % 4 = 3
    · rw [show (dat0 V c).leavesExact 2 t = owns (c : Thread nD τ) (ms0_2 t) fullShare ((dat0 V c).after 2 t) from by
        unfold Dat.leavesExact; rw [liveAt0_2_C t (fun h => h0 ((hcond0_0 t).mp h)) ((hcond0_1 t).mpr h1)], after0_2]
      rw [outsAt0_C V c t h0 h1]
      unfold atC out0_C_2 sout0_C_0; (try dsimp only)
      rw [PhiS_castSucc V c t, PhiS_pos V c _ _ hz]
      iintro ⟨⟨⟨HS0, Hoth⟩, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk V c 0 t) (iblk V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_C_0 c _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dat0 V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B V c t h0 h1]
      unfold atB sout0_B_0; (try dsimp only)
      rw [PhiS_castSucc V c t, PhiS_pos V c _ _ hz]
      iintro ⟨⟨⟨HS0, Hoth⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk V c 0 t) (iblk V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_B_0 c _ _ _ _ _ _ _ _ _ _ _ _ _ _)
          iexact Hoth
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body V c t

/-- What the region is entered with is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class invariant back: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, Hoth⟩, Hg⟩
  isplitl [HS0 Hoth]
  · isplitl [HS0]
    · iexists _; iexact HS0
    iexact Hoth
  iexact Hg

theorem hout0 (c : Dev nD) : (dat0 V c).Φ (Fin.last cfg0.N) ⊢ Pipeline.ΦA spec0 c :=
  Phi_out0 V c _ (by rw [Fin.val_last]; have : cfg0.N = 32 := N_0; omega)

end Cert.KernelIdeal.R0

end
-- ==== Proof.R1Runs.lean ====
/- The sum-of-squares kernel (second region): what its three control cases share.
   The grid has 32 points in row-major order; the accumulator cell is reset at the first point,
   increased by the block's sum of squares at every point, and copied to the 1×1 output block at
   the last point. -/
import proofs.«115220_j39462159515865_1_alg».proof.Proof.Gen.KernelIdeal.Launch
import proofs.«115220_j39462159515865_1_alg».proof.Proof.Gen.KernelIdeal.Skeleton
import proofs.«115220_j39462159515865_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array at the entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current buffer holds its block at every point, for any proof data whose array
    is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The two conditions, in closed form over the 32 points -/

/-- "both coordinates are zero", as the body computes it. -/
abbrev cond1_0 (i : grid1.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only. -/
theorem hcond1_0 : ∀ t : Fin cfg1.N, cond1_0 (grid1.coords t) ↔ t.val % 32 = 0 :=
  (by decide +kernel : ∀ t : Fin grid1.N, cond1_0 (grid1.coords t) ↔ t.val % 32 = 0)

/-- "the coordinates are (7, 3)", as the body computes it. -/
abbrev cond1_1 (i : grid1.Coords) : Prop := k1_cond2 i = 1#1
/-- It holds at the last point only. -/
theorem hcond1_1 : ∀ t : Fin cfg1.N, cond1_1 (grid1.coords t) ↔ t.val % 32 = 31 :=
  (by decide +kernel : ∀ t : Fin grid1.N, cond1_1 (grid1.coords t) ↔ t.val % 32 = 31)

/-! ## Where the windows are idle -/

theorem liveAt1_0 : ∀ t : Fin cfg1.N, cfg1.idle 0 (grid1.coords t) = false := by decide +kernel
theorem idleAt1_1_A : ∀ t : Fin cfg1.N, cond1_0 (grid1.coords t) → ¬cond1_1 (grid1.coords t) → cfg1.idle 1 (grid1.coords t) = true := by decide +kernel
theorem noFlush1_1_A : ∀ t : Fin cfg1.N, cond1_0 (grid1.coords t) → ¬cond1_1 (grid1.coords t) → (cfg1.win 1).flush t = false := by decide +kernel
theorem idleAt1_1_B : ∀ t : Fin cfg1.N, ¬cond1_0 (grid1.coords t) → ¬cond1_1 (grid1.coords t) → cfg1.idle 1 (grid1.coords t) = true := by decide +kernel
theorem noFlush1_1_B : ∀ t : Fin cfg1.N, ¬cond1_0 (grid1.coords t) → ¬cond1_1 (grid1.coords t) → (cfg1.win 1).flush t = false := by decide +kernel
theorem liveAt1_1_C : ∀ t : Fin cfg1.N, ¬cond1_0 (grid1.coords t) → cond1_1 (grid1.coords t) → cfg1.idle 1 (grid1.coords t) = false := by decide +kernel

/-! ## The memrefs the body is called with -/

/-- The output window's buffer, as a view through which its contents are stated. -/
abbrev VO1_1 : View sig .tc .vmem S1x1 .f32 := (Memref.whole cc1_stg1_0 : Memref sig .tc .vmem S1x1 .f32).view
abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1 .f32 := win1_1.stage (cfg1.slots t 1)
abbrev hs1_1 (t : Fin cfg1.N) : (ms1_1 t).IsWhole := hstage1_1 ((cfg1.slots t 1).cast nbuf1_1)
/-- The accumulator cell, a whole scoped buffer. -/
abbrev scM1_0 : Memref sig .tc .vmem S1x1 .f32 := Memref.whole cc1_scratch0
abbrev VS1_0 : View sig .tc .vmem S1x1 .f32 := scM1_0.view

/-- The region invariant with the accumulator cell in state `P`: the seven scoped buffers that are
    not this kernel's, each at some contents, then `P`, and the generator register at some state. -/
def PhiWith (c : Dev nD) (P : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ P) ∗ (∃ r, prngReg c r))

/-- What the launch hands the region: the accumulator cell owned at some contents. -/
theorem PhiA1_eq (c : Dev nD) :
    (Pipeline.ΦA spec1 c : sProp 𝕄) = PhiWith c iprop(∃ d, owns (c : Thread nD τ) scM1_0 fullShare d) := by
  unfold Pipeline.ΦA PhiWith; rw [scopedRest1_eq]; simp only [scM1_0, owns_whole]; try rfl

end Cert.KernelIdeal.R1

end
-- ==== Proof.R1RunA.lean ====
/- The sum-of-squares kernel at the first point: the accumulator cell is zeroed, then increased. -/
import proofs.«115220_j39462159515865_1_alg».proof.Proof.R1Runs

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

set_option maxHeartbeats 1000000 in
/-- The body at the first point (first condition holds, second does not), on whole memrefs: the input
    block at `x0`, the output buffer at `xi1` handed back untouched, the accumulator cell at anything.
    It runs to a continuation holding the input as it was and the cell with the pieces `LS0` written;
    the pieces are found by the run. -/
noncomputable def kernelRun1_A (c : Dev nD) (i : grid1.Coords) (arg2 : Memref sig .tc .vmem S1024x2048 .f32) (harg2 : arg2.IsWhole) (arg3 : Memref sig .tc .vmem S1x1 .f32) (harg3 : arg3.IsWhole) (arg4 : Memref sig .tc .vmem S1x1 .f32) (harg4 : arg4.IsWhole) (hc0 : cond1_0 i) (hc1 : ¬cond1_1 i)
    (x0 : Vec F S1024x2048 .f32) :
    Σ' (L1 : List (View.Piece (Elt F) S1x1 .f32)), { LS0 : List (View.Piece (Elt F) S1x1 .f32) //
      ∀ (xi1 : Vec F S1x1 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc1__sumsq_kernel i arg2 harg2 arg3 harg3 arg4 harg4) K } := by
  refine ⟨[], ?_, fun xi1 E K => ?run⟩
  case run =>
    simp only [cc1__sumsq_kernel_eq_skeleton]; unfold cc1__sumsq_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.KernelIdeal.R1

end
-- ==== Proof.R1RunB.lean ====
/- The sum-of-squares kernel at the points strictly between the first and the last: the accumulator
   cell is increased. -/
import proofs.«115220_j39462159515865_1_alg».proof.Proof.R1RunA

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

set_option maxHeartbeats 1000000 in
/-- The body at a middle point (neither condition holds), on whole memrefs: the input block at `x0`,
    the output buffer at `xi1` handed back untouched, the accumulator cell at `xs0`. -/
noncomputable def kernelRun1_B (c : Dev nD) (i : grid1.Coords) (arg2 : Memref sig .tc .vmem S1024x2048 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : ¬cond1_1 i)
    (x0 : Vec F S1024x2048 .f32) (xs0 : Vec F S1x1 .f32) :
    Σ' (L1 : List (View.Piece (Elt F) S1x1 .f32)), { LS0 : List (View.Piece (Elt F) S1x1 .f32) //
      ∀ (xi1 : Vec F S1x1 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc1__sumsq_kernel i arg2 harg2 arg3 harg3 arg4 harg4) K } := by
  refine ⟨[], ?_, fun xi1 E K => ?run⟩
  case run =>
    simp only [cc1__sumsq_kernel_eq_skeleton]; unfold cc1__sumsq_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.KernelIdeal.R1

end
-- ==== Proof.R1RunC.lean ====
/- The sum-of-squares kernel at the last point: the accumulator cell is increased, then copied into
   the output block. -/
import proofs.«115220_j39462159515865_1_alg».proof.Proof.R1RunB

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

set_option maxHeartbeats 1000000 in
/-- The body at the last point (second condition holds, first does not), on whole memrefs: the input
    block at `x0`, the output buffer at anything, the accumulator cell at `xs0`. -/
noncomputable def kernelRun1_C (c : Dev nD) (i : grid1.Coords) (arg2 : Memref sig .tc .vmem S1024x2048 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i)
    (x0 : Vec F S1024x2048 .f32) (xs0 : Vec F S1x1 .f32) :
    Σ' (L1 : List (View.Piece (Elt F) S1x1 .f32)), { LS0 : List (View.Piece (Elt F) S1x1 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc1__sumsq_kernel i arg2 harg2 arg3 harg3 arg4 harg4) K } := by
  refine ⟨?_, ?_, fun E K => ?run⟩
  case run =>
    simp only [cc1__sumsq_kernel_eq_skeleton]; unfold cc1__sumsq_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

end Cert.KernelIdeal.R1

end
-- ==== Proof.R1Frame.lean ====
/- The sum-of-squares kernel (second region): what the accumulator cell and the output buffer hold
   after each of the 32 points, the proof data of the region at any entry contents, and the body
   obligation. -/
import proofs.«115220_j39462159515865_1_alg».proof.Proof.R1RunC

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## What each case leaves -/

/-- The first point stores nothing into the output buffer: a placeholder nothing consults. -/
def out1_A_1 (c : Dev nD) (i : grid1.Coords) (arg2 : Memref sig .tc .vmem S1024x2048 .f32) (harg2 : arg2.IsWhole) (arg3 : Memref sig .tc .vmem S1x1 .f32) (harg3 : arg3.IsWhole) (arg4 : Memref sig .tc .vmem S1x1 .f32) (harg4 : arg4.IsWhole) (hc0 : cond1_0 i) (hc1 : ¬cond1_1 i)
    (x0 : Vec F S1024x2048 .f32) : Vec F S1x1 .f32 :=
  VO1_1.read (Elt F) (VO1_1.writes (Elt F) VO1_1.junk (kernelRun1_A c i arg2 harg2 arg3 harg3 arg4 harg4 hc0 hc1 x0).1)

/-- The first point's pieces for the accumulator cell cover it. -/
theorem scover1_A_0 (c : Dev nD) (i : grid1.Coords) (arg2 : Memref sig .tc .vmem S1024x2048 .f32) (harg2 : arg2.IsWhole) (arg3 : Memref sig .tc .vmem S1x1 .f32) (harg3 : arg3.IsWhole) (arg4 : Memref sig .tc .vmem S1x1 .f32) (harg4 : arg4.IsWhole) (hc0 : cond1_0 i) (hc1 : ¬cond1_1 i)
    (x0 : Vec F S1024x2048 .f32) (y : S1x1.Idx) :
    ∃ pc ∈ (kernelRun1_A c i arg2 harg2 arg3 harg3 arg4 harg4 hc0 hc1 x0).2.1, y ∈ pc.1.set :=
  View.cover_of_tiledL (kernelRun1_A c i arg2 harg2 arg3 harg3 arg4 harg4 hc0 hc1 x0).2.1 S1x1.size (by sl_kernel_rfl) y

/-- What the first point leaves in the accumulator cell. -/
def sout1_A_0 (c : Dev nD) (i : grid1.Coords) (arg2 : Memref sig .tc .vmem S1024x2048 .f32) (harg2 : arg2.IsWhole) (arg3 : Memref sig .tc .vmem S1x1 .f32) (harg3 : arg3.IsWhole) (arg4 : Memref sig .tc .vmem S1x1 .f32) (harg4 : arg4.IsWhole) (hc0 : cond1_0 i) (hc1 : ¬cond1_1 i)
    (x0 : Vec F S1024x2048 .f32) : Vec F S1x1 .f32 :=
  VS1_0.read (Elt F) (VS1_0.writes (Elt F) VS1_0.junk (kernelRun1_A c i arg2 harg2 arg3 harg3 arg4 harg4 hc0 hc1 x0).2.1)

/-- A middle point stores nothing into the output buffer: a placeholder nothing consults. -/
def out1_B_1 (c : Dev nD) (i : grid1.Coords) (arg2 : Memref sig .tc .vmem S1024x2048 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : ¬cond1_1 i)
    (x0 : Vec F S1024x2048 .f32) (xs0 : Vec F S1x1 .f32) : Vec F S1x1 .f32 :=
  VO1_1.read (Elt F) (VO1_1.writes (Elt F) VO1_1.junk (kernelRun1_B c i arg2 harg2 arg3 harg3 arg4 harg4 hc0 hc1 x0 xs0).1)

/-- A middle point's pieces for the accumulator cell cover it. -/
theorem scover1_B_0 (c : Dev nD) (i : grid1.Coords) (arg2 : Memref sig .tc .vmem S1024x2048 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : ¬cond1_1 i)
    (x0 : Vec F S1024x2048 .f32) (xs0 : Vec F S1x1 .f32) (y : S1x1.Idx) :
    ∃ pc ∈ (kernelRun1_B c i arg2 harg2 arg3 harg3 arg4 harg4 hc0 hc1 x0 xs0).2.1, y ∈ pc.1.set :=
  View.cover_of_tiledL (kernelRun1_B c i arg2 harg2 arg3 harg3 arg4 harg4 hc0 hc1 x0 xs0).2.1 S1x1.size (by sl_kernel_rfl) y

/-- What a middle point leaves in the accumulator cell. -/
def sout1_B_0 (c : Dev nD) (i : grid1.Coords) (arg2 : Memref sig .tc .vmem S1024x2048 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : ¬cond1_1 i)
    (x0 : Vec F S1024x2048 .f32) (xs0 : Vec F S1x1 .f32) : Vec F S1x1 .f32 :=
  VS1_0.read (Elt F) (VS1_0.writes (Elt F) VS1_0.junk (kernelRun1_B c i arg2 harg2 arg3 harg3 arg4 harg4 hc0 hc1 x0 xs0).2.1)

/-- The last point's pieces for the output buffer cover it. -/
theorem cover1_C_1 (c : Dev nD) (i : grid1.Coords) (arg2 : Memref sig .tc .vmem S1024x2048 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i)
    (x0 : Vec F S1024x2048 .f32) (xs0 : Vec F S1x1 .f32) (y : S1x1.Idx) :
    ∃ pc ∈ (kernelRun1_C c i arg2 harg2 arg3 harg3 arg4 harg4 hc0 hc1 x0 xs0).1, y ∈ pc.1.set :=
  View.cover_of_tiledL (kernelRun1_C c i arg2 harg2 arg3 harg3 arg4 harg4 hc0 hc1 x0 xs0).1 S1x1.size (by sl_kernel_rfl) y

/-- What the last point leaves in the output buffer. -/
def out1_C_1 (c : Dev nD) (i : grid1.Coords) (arg2 : Memref sig .tc .vmem S1024x2048 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i)
    (x0 : Vec F S1024x2048 .f32) (xs0 : Vec F S1x1 .f32) : Vec F S1x1 .f32 :=
  VO1_1.read (Elt F) (VO1_1.writes (Elt F) VO1_1.junk (kernelRun1_C c i arg2 harg2 arg3 harg3 arg4 harg4 hc0 hc1 x0 xs0).1)

/-- The last point's pieces for the accumulator cell cover it. -/
theorem scover1_C_0 (c : Dev nD) (i : grid1.Coords) (arg2 : Memref sig .tc .vmem S1024x2048 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i)
    (x0 : Vec F S1024x2048 .f32) (xs0 : Vec F S1x1 .f32) (y : S1x1.Idx) :
    ∃ pc ∈ (kernelRun1_C c i arg2 harg2 arg3 harg3 arg4 harg4 hc0 hc1 x0 xs0).2.1, y ∈ pc.1.set :=
  View.cover_of_tiledL (kernelRun1_C c i arg2 harg2 arg3 harg3 arg4 harg4 hc0 hc1 x0 xs0).2.1 S1x1.size (by sl_kernel_rfl) y

/-- What the last point leaves in the accumulator cell. -/
def sout1_C_0 (c : Dev nD) (i : grid1.Coords) (arg2 : Memref sig .tc .vmem S1024x2048 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i)
    (x0 : Vec F S1024x2048 .f32) (xs0 : Vec F S1x1 .f32) : Vec F S1x1 .f32 :=
  VS1_0.read (Elt F) (VS1_0.writes (Elt F) VS1_0.junk (kernelRun1_C c i arg2 harg2 arg3 harg3 arg4 harg4 hc0 hc1 x0 xs0).2.1)

/-! ## What the output buffer and the accumulator cell hold after each point -/

/-- After the body at position `n`: (the output buffer, the accumulator cell). The case is selected by
    the closed forms; a case that reads the cell is run at what position `n - 1` left in it. -/
def outsAt1 (c : Dev nD) : (n : ℕ) → n < cfg1.N → Vec F S1x1 .f32 × Vec F S1x1 .f32
  | 0, hn => (out1_A_1 c (grid1.coords ⟨0, hn⟩) (ms1_0 ⟨0, hn⟩) (hs1_0 ⟨0, hn⟩) (ms1_1 ⟨0, hn⟩) (hs1_1 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩), sout1_A_0 c (grid1.coords ⟨0, hn⟩) (ms1_0 ⟨0, hn⟩) (hs1_0 ⟨0, hn⟩) (ms1_1 ⟨0, hn⟩) (hs1_1 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩))
  | n + 1, hn =>
    if h0 : (n + 1) % 32 = 0 then
      if h1 : (n + 1) % 32 = 31 then
        False.elim (by omega)
      else
        (out1_A_1 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩))
    else
      if h1 : (n + 1) % 32 = 31 then
        (out1_C_1 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (outsAt1 c n (Nat.lt_of_succ_lt hn)).2)
      else
        (out1_B_1 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (outsAt1 c n (Nat.lt_of_succ_lt hn)).2)

theorem outsAt1_A (c : Dev nD) (t : Fin cfg1.N) (h0 : t.val % 32 = 0) (h1 : ¬t.val % 32 = 31) :
    outsAt1 V c t.val t.isLt = (out1_A_1 c (grid1.coords t) (ms1_0 t) (hs1_0 t) (ms1_1 t) (hs1_1 t) scM1_0 (Memref.isWhole_whole _) ((hcond1_0 t).mpr h0) (fun h => h1 ((hcond1_1 t).mp h)) (iblk1 V c 0 t), sout1_A_0 c (grid1.coords t) (ms1_0 t) (hs1_0 t) (ms1_1 t) (hs1_1 t) scM1_0 (Memref.isWhole_whole _) ((hcond1_0 t).mpr h0) (fun h => h1 ((hcond1_1 t).mp h)) (iblk1 V c 0 t)) := by
  obtain ⟨n, hn⟩ := t
  cases n with
  | zero => exact rfl
  | succ n => exact (dif_pos h0).trans ((dif_neg h1).trans rfl)

theorem outsAt1_B (c : Dev nD) (t : Fin cfg1.N) (h0 : ¬t.val % 32 = 0) (h1 : ¬t.val % 32 = 31) :
    outsAt1 V c t.val t.isLt = (out1_B_1 c (grid1.coords t) (ms1_0 t) (hs1_0 t) (ms1_1 t) (hs1_1 t) scM1_0 (Memref.isWhole_whole _) (fun h => h0 ((hcond1_0 t).mp h)) (fun h => h1 ((hcond1_1 t).mp h)) (iblk1 V c 0 t) (outsAt1 V c (t.val - 1) (Nat.lt_of_le_of_lt (Nat.sub_le _ _) t.isLt)).2, sout1_B_0 c (grid1.coords t) (ms1_0 t) (hs1_0 t) (ms1_1 t) (hs1_1 t) scM1_0 (Memref.isWhole_whole _) (fun h => h0 ((hcond1_0 t).mp h)) (fun h => h1 ((hcond1_1 t).mp h)) (iblk1 V c 0 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 32 = 0) (h1 : t.val % 32 = 31) :
    outsAt1 V c t.val t.isLt = (out1_C_1 c (grid1.coords t) (ms1_0 t) (hs1_0 t) (ms1_1 t) (hs1_1 t) scM1_0 (Memref.isWhole_whole _) (fun h => h0 ((hcond1_0 t).mp h)) ((hcond1_1 t).mpr h1) (iblk1 V c 0 t) (outsAt1 V c (t.val - 1) (Nat.lt_of_le_of_lt (Nat.sub_le _ _) t.isLt)).2, sout1_C_0 c (grid1.coords t) (ms1_0 t) (hs1_0 t) (ms1_1 t) (hs1_1 t) scM1_0 (Memref.isWhole_whole _) (fun h => h0 ((hcond1_0 t).mp h)) ((hcond1_1 t).mpr h1) (iblk1 V c 0 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point what the launch hands over;
    afterwards the accumulator cell at what the point before left in it. -/
def PhiS (c : Dev nD) : (n : ℕ) → n ≤ cfg1.N → sProp 𝕄
  | 0, _ => Pipeline.ΦA spec1 c
  | n + 1, hn => PhiWith c iprop(owns (c : Thread nD τ) scM1_0 fullShare ((outsAt1 V c n hn).2))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = PhiWith c iprop(owns (c : Thread nD τ) scM1_0 fullShare ((outsAt1 V c n hn).2)) := rfl

theorem PhiS_pos (c : Dev nD) (n : ℕ) (h : n ≤ cfg1.N) (hz : n ≠ 0) :
    PhiS V c n h = PhiWith c iprop(owns (c : Thread nD τ) scM1_0 fullShare ((outsAt1 V c (n - 1) (by omega)).2)) := by
  cases n with
  | zero => exact absurd rfl hz
  | succ n => rfl

/-! ## The region's proof data -/

/-- The proof data of the region on core `c`: the arrays at the entry contents; after the body at
    point `t` the input buffer at its block and the output buffer at `outsAt1`'s first component; the
    invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t)

set_option maxHeartbeats 4800000 in
/-- The body at any point: the closed forms select the case; the invariant hands over the accumulator
    cell at what the point before left (at anything at the first point) and takes it back at this
    point's contents; the seven foreign buffers and the register pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [show (dat1 V c).Φ t.succ = PhiS V c (t.val + 1) t.isLt from rfl, PhiS_succ]
  have hN : t.val < 32 := lt_of_lt_of_eq t.isLt (show cfg1.N = 32 from N_1)
  by_cases h0 : t.val % 32 = 0
  · by_cases h1 : t.val % 32 = 31
    · exfalso; omega
    · rw [show (dat1 V c).leavesExact 0 t = owns (c : Thread nD τ) (ms1_0 t) fullShare ((dat1 V c).after 0 t) from by
      unfold Dat.leavesExact; rw [liveAt1_0 t], after1_0]
      rw [Dat.leavesExact_idle (dat1 V c) 1 t (idleAt1_1_A t ((hcond1_0 t).mpr h0) (fun h => h1 ((hcond1_1 t).mp h))) (noFlush1_1_A t ((hcond1_0 t).mpr h0) (fun h => h1 ((hcond1_1 t).mp h)))]
      rw [outsAt1_A V c t h0 h1]
      unfold sout1_A_0; (try dsimp only)
      by_cases hz : t.val = 0
      · rw [PhiS_castSucc V c t, PhiS_zero V c _ _ hz, PhiA1_eq]
        unfold PhiWith
        iintro ⟨⟨⟨HR0, HR1, HR2, HR3, HR4, HR5, HR6, HS0⟩, Hg⟩, Ho, ⟨%d0, H0⟩, ⟨%d1, H1⟩⟩
        iapply ((kernelRun1_A c (grid1.coords t) _ _ _ _ _ _ ((hcond1_0 t).mpr h0) (fun h => h1 ((hcond1_1 t).mp h)) (iblk1 V c 0 t)).2.2 _ Set.univ _)
        isplitl [H0]; · iexact H0
        isplitl [H1]; · iexact H1
        isplitl [HS0]; · iexact HS0
        iintro ⟨H0, H1, ⟨%es0, HS0⟩⟩
        isplitl [HR0 HR1 HR2 HR3 HR4 HR5 HR6 HS0 Hg]
        · isplitl [HR0 HR1 HR2 HR3 HR4 HR5 HR6 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            unfold owns; iexists _; isplitr
            swap; · iexact HS0
            ipureintro; exact View.read_writes_of_cover _ _ _ _ _ (scover1_A_0 c _ _ _ _ _ _ _ _ _ _)
          iexact Hg
        isplitl [Ho]; · iexact Ho
        isplitl [H0]; · iexact H0
        iexists _; iexact H1
      · exfalso; omega
  · by_cases h1 : t.val % 32 = 31
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1_C t (fun h => h0 ((hcond1_0 t).mp h)) ((hcond1_1 t).mpr h1)], after1_1]
      rw [outsAt1_C V c t h0 h1]
      unfold out1_C_1 sout1_C_0; (try dsimp only)
      by_cases hz : t.val = 0
      · exfalso; omega
      · rw [PhiS_castSucc V c t, PhiS_pos V c _ _ hz]
        unfold PhiWith
        iintro ⟨⟨⟨HR0, HR1, HR2, HR3, HR4, HR5, HR6, HS0⟩, Hg⟩, Ho, ⟨%d0, H0⟩, ⟨%d1, H1⟩⟩
        iapply ((kernelRun1_C c (grid1.coords t) _ _ _ _ _ _ (fun h => h0 ((hcond1_0 t).mp h)) ((hcond1_1 t).mpr h1) (iblk1 V c 0 t) _).2.2 Set.univ _)
        isplitl [H0]; · iexact H0
        isplitl [H1]; · iexists _; iexact H1
        isplitl [HS0]; · iexact HS0
        iintro ⟨H0, ⟨%e1, H1⟩, ⟨%es0, HS0⟩⟩
        isplitl [HR0 HR1 HR2 HR3 HR4 HR5 HR6 HS0 Hg]
        · isplitl [HR0 HR1 HR2 HR3 HR4 HR5 HR6 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            unfold owns; iexists _; isplitr
            swap; · iexact HS0
            ipureintro; exact View.read_writes_of_cover _ _ _ _ _ (scover1_C_0 c _ _ _ _ _ _ _ _ _ _ _)
          iexact Hg
        isplitl [Ho]; · iexact Ho
        isplitl [H0]; · iexact H0
        unfold owns; iexists _; isplitr
        swap; · iexact H1
        ipureintro; exact View.read_writes_of_cover _ _ _ _ _ (cover1_C_1 c _ _ _ _ _ _ _ _ _ _ _)
    · rw [show (dat1 V c).leavesExact 0 t = owns (c : Thread nD τ) (ms1_0 t) fullShare ((dat1 V c).after 0 t) from by
      unfold Dat.leavesExact; rw [liveAt1_0 t], after1_0]
      rw [Dat.leavesExact_idle (dat1 V c) 1 t (idleAt1_1_B t (fun h => h0 ((hcond1_0 t).mp h)) (fun h => h1 ((hcond1_1 t).mp h))) (noFlush1_1_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS_castSucc V c t, PhiS_pos V c _ _ hz]
        unfold PhiWith
        iintro ⟨⟨⟨HR0, HR1, HR2, HR3, HR4, HR5, HR6, HS0⟩, Hg⟩, Ho, ⟨%d0, H0⟩, ⟨%d1, H1⟩⟩
        iapply ((kernelRun1_B c (grid1.coords t) _ _ _ _ _ _ (fun h => h0 ((hcond1_0 t).mp h)) (fun h => h1 ((hcond1_1 t).mp h)) (iblk1 V c 0 t) _).2.2 _ Set.univ _)
        isplitl [H0]; · iexact H0
        isplitl [H1]; · iexact H1
        isplitl [HS0]; · iexact HS0
        iintro ⟨H0, H1, ⟨%es0, HS0⟩⟩
        isplitl [HR0 HR1 HR2 HR3 HR4 HR5 HR6 HS0 Hg]
        · isplitl [HR0 HR1 HR2 HR3 HR4 HR5 HR6 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            unfold owns; iexists _; isplitr
            swap; · iexact HS0
            ipureintro; exact View.read_writes_of_cover _ _ _ _ _ (scover1_B_0 c _ _ _ _ _ _ _ _ _ _ _)
          iexact Hg
        isplitl [Ho]; · iexact Ho
        isplitl [H0]; · iexact H0
        iexists _; iexact H1

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the launch's back: the accumulator cell's
    contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  unfold PhiWith
  iintro ⟨⟨HR0, HR1, HR2, HR3, HR4, HR5, HR6, HS0⟩, Hg⟩
  isplitl [HR0 HR1 HR2 HR3 HR4 HR5 HR6 HS0]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

end Cert.KernelIdeal.R1

end
-- ==== Proof.Whole.lean ====
/-
  The whole run of the kernel program: region 0 (the blocked matrix product), region 1 (the sum of squares), then the
  host operations, composed over the thread state "every unscoped buffer held at a known valuation".
  The valuations: at launch the memory; after region 0 the product's array at what the pipeline's write-backs leave;
  after region 1 the 1 × 1 sum likewise; after the host operations their composed results. The run's post reads every
  unscoped buffer of the final memory at the last valuation: the frame (the arguments unchanged) and the results'
  values are both read off it.
-/
import proofs.«115220_j39462159515865_1_alg».proof.Proof.R0Frame
import proofs.«115220_j39462159515865_1_alg».proof.Proof.R1Frame
import proofs.«115220_j39462159515865_1_alg».proof.Proof.Gen.KernelIdeal.Regions
import Idealize.ShloMosaic.Lib.Pipeline.RegionsLoop

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m ((c : Dev nD), b)
abbrev V0 : (c : Dev nD) → (b : Ref sig .tc) → Buf (Elt F) ((c : Thread nD τ).loc b) := fun c b => W0 m c b
/-- After region 0: its arrays at what the pipeline leaves, every other buffer as before. -/
def W1 (c : Dev nD) : Valuation τ sig (Elt F) :=
  Pipeline.withArrays spec0 c (W0 m c) fun w => (R0.dat0 (V0 m) c).arrAt w cfg0.N
theorem W1_arr (c : Dev nD) (w : Fin cfg0.W) :
    W1 m c (Proc.devRef .tc (Pipeline.arrRef spec0 w)) = (R0.dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (R0.dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After region 1. -/
def W2 (c : Dev nD) : Valuation τ sig (Elt F) :=
  Pipeline.withArrays spec1 c (W1 m c) fun w => (R1.dat1 (V1 m) c).arrAt w cfg1.N
theorem W2_arr (c : Dev nD) (w : Fin cfg1.W) :
    W2 m c (Proc.devRef .tc (Pipeline.arrRef spec1 w)) = (R1.dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b
theorem hF1 (c : Dev nD) (w : Fin cfg1.W) : (R1.dat1 (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-- After the host operations. -/
def W3 (c : Dev nD) : Valuation τ sig (Elt F) := StableHlo.after hostOps2 (W2 m c)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => R0.dat0 (V0 m) c
  | ⟨1, _⟩ => fun c => R1.dat1 (V1 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- Region 0 over the thread state: entered from every unscoped buffer at `W0`, left at `W1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    have h := R0.hout0 (V0 m) c
    unfold Pipeline.ΦA at h
    rw [Pipeline.ownSems0_none]
    refine h.trans ?_
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W1`, left at `W2`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    have h := R1.hout1 (V1 m) c
    unfold Pipeline.ΦA at h
    rw [Pipeline.ownSems0_none]
    refine h.trans ?_
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The host operations as a segment: from every unscoped buffer at `W2` to `W3`. -/
abbrev hseg : Pipeline.HostSeg (Name := ℕ) (U := UR sig nD τ) (pcfgs (F := F)) defs₀ 𝒱₀ L lv :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W2 m) R

abbrev segs : List (Pipeline.Seg (pcfgs (F := F)) adm (pdats m) () defs₀ 𝒱₀ L lv) :=
  [ .region (reg0 m), .region (reg1 m), .host (hseg m) ]

theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    the final memory holds every unscoped buffer at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c => by
      show iprop(StableHlo.held (c : Thread nD τ) (Pipeline.ucRefs τ sig) (W3 m c) ∗ R c) ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

end Cert.KernelIdeal.Whole

end
-- ==== Proof.WholeArgs.lean ====
/-
  The last valuation read back. No region and no host operation writes an argument, so each argument's buffer walks
  back to the launch memory; the product's array and the 1 × 1 sum sit, before the host operations, at what their
  regions' write-backs left. The frame of the program — every argument unchanged at the end — follows from the whole run.
-/
import proofs.«115220_j39462159515865_1_alg».proof.Proof.Whole

set_option maxRecDepth 16384

noncomputable section

namespace Cert.KernelIdeal.Whole

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

theorem W2_arg0 (c : Dev nD) : W2 m c (Proc.devRef .tc main_arg0) = m ((c : Thread nD τ).loc main_arg0) :=
  calc W2 m c (Proc.devRef .tc main_arg0)
    _ = W1 m c (Proc.devRef .tc main_arg0) := W2_of_ne m c main_arg0 (by decide)
    _ = W0 m c (Proc.devRef .tc main_arg0) := (W1_arr m c 0).trans (((R0.dat0 (V0 m) c).arrAt_in 0 rfl _).trans (R0.A_eq0 (V0 m) c 0))
    _ = m ((c : Thread nD τ).loc main_arg0) := rfl

theorem W1_arg1 (c : Dev nD) : W1 m c (Proc.devRef .tc main_arg1) = m ((c : Thread nD τ).loc main_arg1) :=
  W1_of_ne m c main_arg1 (by decide)

theorem W2_arg1 (c : Dev nD) : W2 m c (Proc.devRef .tc main_arg1) = m ((c : Thread nD τ).loc main_arg1) :=
  calc W2 m c (Proc.devRef .tc main_arg1)
    _ = W1 m c (Proc.devRef .tc main_arg1) := (W2_arr m c 0).trans (((R1.dat1 (V1 m) c).arrAt_in 0 rfl _).trans (R1.A_eq1 (V1 m) c 0))
    _ = m ((c : Thread nD τ).loc main_arg1) := W1_arg1 m c

theorem W2_arg2 (c : Dev nD) : W2 m c (Proc.devRef .tc main_arg2) = m ((c : Thread nD τ).loc main_arg2) :=
  calc W2 m c (Proc.devRef .tc main_arg2)
    _ = W1 m c (Proc.devRef .tc main_arg2) := W2_of_ne m c main_arg2 (by decide)
    _ = W0 m c (Proc.devRef .tc main_arg2) := (W1_arr m c 1).trans (((R0.dat0 (V0 m) c).arrAt_in 1 rfl _).trans (R0.A_eq0 (V0 m) c 1))
    _ = m ((c : Thread nD τ).loc main_arg2) := rfl

theorem W2_arg3 (c : Dev nD) : W2 m c (Proc.devRef .tc main_arg3) = m ((c : Thread nD τ).loc main_arg3) :=
  calc W2 m c (Proc.devRef .tc main_arg3)
    _ = W1 m c (Proc.devRef .tc main_arg3) := W2_of_ne m c main_arg3 (by decide)
    _ = W0 m c (Proc.devRef .tc main_arg3) := W1_of_ne m c main_arg3 (by decide)
    _ = m ((c : Thread nD τ).loc main_arg3) := rfl

theorem W2_arg4 (c : Dev nD) : W2 m c (Proc.devRef .tc main_arg4) = m ((c : Thread nD τ).loc main_arg4) :=
  calc W2 m c (Proc.devRef .tc main_arg4)
    _ = W1 m c (Proc.devRef .tc main_arg4) := W2_of_ne m c main_arg4 (by decide)
    _ = W0 m c (Proc.devRef .tc main_arg4) := W1_of_ne m c main_arg4 (by decide)
    _ = m ((c : Thread nD τ).loc main_arg4) := rfl

theorem W2_arg5 (c : Dev nD) : W2 m c (Proc.devRef .tc main_arg5) = m ((c : Thread nD τ).loc main_arg5) :=
  calc W2 m c (Proc.devRef .tc main_arg5)
    _ = W1 m c (Proc.devRef .tc main_arg5) := W2_of_ne m c main_arg5 (by decide)
    _ = W0 m c (Proc.devRef .tc main_arg5) := W1_of_ne m c main_arg5 (by decide)
    _ = m ((c : Thread nD τ).loc main_arg5) := rfl

/-- The product's array before the host operations: what region 0's write-backs left. -/
theorem W2_v0 (c : Dev nD) : W2 m c (Proc.devRef .tc main_v0) = (R0.dat0 (V0 m) c).arrAt 2 cfg0.N :=
  (W2_of_ne m c main_v0 (by decide)).trans (W1_arr m c 2)

/-- The 1 × 1 sum before the host operations: what region 1's write-back left. -/
theorem W2_v1 (c : Dev nD) : W2 m c (Proc.devRef .tc main_v1) = (R1.dat1 (V1 m) c).arrAt 1 cfg1.N :=
  W2_arr m c 1

theorem W3_arg0 (c : Dev nD) : W3 m c (Proc.devRef .tc main_arg0) = m ((c : Thread nD τ).loc main_arg0) :=
  (StableHlo.after_of_writes_sub hostOps2 _ hostOps2_writes (show main_arg0 ∉ hostOps2_W by decide)).trans (W2_arg0 m c)

theorem W3_arg1 (c : Dev nD) : W3 m c (Proc.devRef .tc main_arg1) = m ((c : Thread nD τ).loc main_arg1) :=
  (StableHlo.after_of_writes_sub hostOps2 _ hostOps2_writes (show main_arg1 ∉ hostOps2_W by decide)).trans (W2_arg1 m c)

theorem W3_arg2 (c : Dev nD) : W3 m c (Proc.devRef .tc main_arg2) = m ((c : Thread nD τ).loc main_arg2) :=
  (StableHlo.after_of_writes_sub hostOps2 _ hostOps2_writes (show main_arg2 ∉ hostOps2_W by decide)).trans (W2_arg2 m c)

theorem W3_arg3 (c : Dev nD) : W3 m c (Proc.devRef .tc main_arg3) = m ((c : Thread nD τ).loc main_arg3) :=
  (StableHlo.after_of_writes_sub hostOps2 _ hostOps2_writes (show main_arg3 ∉ hostOps2_W by decide)).trans (W2_arg3 m c)

theorem W3_arg4 (c : Dev nD) : W3 m c (Proc.devRef .tc main_arg4) = m ((c : Thread nD τ).loc main_arg4) :=
  (StableHlo.after_of_writes_sub hostOps2 _ hostOps2_writes (show main_arg4 ∉ hostOps2_W by decide)).trans (W2_arg4 m c)

theorem W3_arg5 (c : Dev nD) : W3 m c (Proc.devRef .tc main_arg5) = m ((c : Thread nD τ).loc main_arg5) :=
  (StableHlo.after_of_writes_sub hostOps2 _ hostOps2_writes (show main_arg5 ∉ hostOps2_W by decide)).trans (W2_arg5 m c)

/-- THE FRAME, at any instance: every weakly fair execution terminates, nothing faulting, and the six argument arrays
    end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W3_arg0 m c),
     (h c _ (mem_uc main_arg1 (by decide))).trans (W3_arg1 m c),
     (h c _ (mem_uc main_arg2 (by decide))).trans (W3_arg2 m c),
     (h c _ (mem_uc main_arg3 (by decide))).trans (W3_arg3 m c),
     (h c _ (mem_uc main_arg4 (by decide))).trans (W3_arg4 m c),
     (h c _ (mem_uc main_arg5 (by decide))).trans (W3_arg5 m c)⟩) (run_all m ρ)

end Cert.KernelIdeal.Whole

end
-- ==== Proof.TailKernel.lean ====
import proofs.«115220_j39462159515865_1_alg».proof.Proof.Gen.KernelIdeal.Launch
import Idealize.ShloMosaic.Lib.StableHlo.Run

/-!
The operations that follow the two kernels, as two functions of the arrays they read.

* `tailNorm sq` : the square root of the 1×1 array `sq` read as a scalar.
* `tailOut y a vals row col` : with `r' = row` and `c' = col`, each negative entry shifted up by 8192,
  the weight `w n = vals n * a (r' n, c' n)` and the array that starts at zero and receives, for every
  `n` and `j`, the term `w n * y (c' n, j)` added at position `(row n, j)`.

Both are stated for an arbitrary assignment of contents to the buffers: what the operations leave in
their result buffers is the function applied to what the assignment holds at the buffers they read.
-/

noncomputable section

namespace Cert.Bridge

open Idealize.ShloMosaic Idealize.ShloMosaic.TcCoe Idealize.SL.Sem
open Cert.KernelIdeal Cert.KernelIdeal.Gen

variable {F : FTy → Type} [FloatOps F]

/-- An index vector with every negative entry shifted up by 8192 (the length of the indexed axis). -/
def wrapIdx (r : (⟨S262144, .i32⟩ : BufTy).Contents (Elt F)) : (⟨S262144, .i32⟩ : BufTy).Contents (Elt F) :=
  select (cmpi .slt r (broadcastInDim S262144 ![] bcast_S_S262144 (constantI S_ 32 0#32)))
    (addi r (broadcastInDim S262144 ![] bcast_S_S262144 (constantI S_ 32 8192#32))) r

/-- The scalar `sqrt` of the single entry of a 1×1 array. -/
def tailNorm (sq : (⟨S1x1, .f32⟩ : BufTy).Contents (Elt F)) : (⟨S_, .f32⟩ : BufTy).Contents (Elt F) :=
  Host.sqrt (F := F) (shapeCast S_ sq shapeCasts_S1x1_S_)

/-- The gather / multiply / scatter-add that follows the two kernels, as a function of the product `y`,
    the array `a`, the values and the two index vectors. -/
def tailOut (y : (⟨S8192x64, .f32⟩ : BufTy).Contents (Elt F)) (a : (⟨S8192x8192, .f32⟩ : BufTy).Contents (Elt F))
    (vals : (⟨S262144, .f32⟩ : BufTy).Contents (Elt F)) (row col : (⟨S262144, .i32⟩ : BufTy).Contents (Elt F)) :
    (⟨S8192x64, .f32⟩ : BufTy).Contents (Elt F) :=
  Host.scatterAdd (F := F) scatter_S8192x64_S262144x1_S262144x64_1_0_0_1
    (broadcastInDim S8192x64 ![] bcast_S_S8192x64 (constant (F := F) S_ .f32 0x00000000#32))
    (broadcastInDim S262144x1 ![0] bcast_S262144_S262144x1_0 row)
    (mulf (F := F)
      (broadcastInDim S262144x64 ![0, 1] bcast_S262144x1_S262144x64_0_1
        (broadcastInDim S262144x1 ![0] bcast_S262144_S262144x1_0
          (mulf (F := F) vals
            (Host.gather gather_S8192x8192_S262144x2_S262144_n_01_n_n_01_1_11 a
              (concatenate S262144x2 1
                [⟨S262144x1, broadcastInDim S262144x1 ![0] bcast_S262144_S262144x1_0 (wrapIdx (F := F) row)⟩,
                 ⟨S262144x1, broadcastInDim S262144x1 ![0] bcast_S262144_S262144x1_0 (wrapIdx (F := F) col)⟩]
                concatenates_S262144x1_S262144x1_S262144x2_d1)))))
      (Host.gather gather_S8192x64_S262144x1_S262144x64_1_0_n_n_0_1_164 y
        (broadcastInDim S262144x1 ![0] bcast_S262144_S262144x1_0 (wrapIdx (F := F) col))))

/-- What the operations leave in the scalar result: `tailNorm` of the 1×1 array they read. -/
theorem after_v3 (W : Valuation τ sig (Elt F)) :
    StableHlo.after hostOps2 W (Proc.devRef .tc main_v3)
      = tailNorm (F := F) (W (Proc.devRef .tc main_v1)) := by
  show StableHlo.after hostOps2 W (Proc.devRef .tc main_v3) = _
  after_results
  rfl

set_option maxRecDepth 8192 in
set_option maxHeartbeats 2000000 in
/-- What the operations leave in the array result: `tailOut` of the arrays they read. -/
theorem after_v31 (W : Valuation τ sig (Elt F)) :
    StableHlo.after hostOps2 W (Proc.devRef .tc main_v31)
      = tailOut (F := F) (W (Proc.devRef .tc main_v0)) (W (Proc.devRef .tc main_arg1)) (W (Proc.devRef .tc main_arg3))
          (W (Proc.devRef .tc main_arg4)) (W (Proc.devRef .tc main_arg5)) := by
  show StableHlo.after hostOps2 W (Proc.devRef .tc main_v31) = _
  after_results_simp
  rfl

end Cert.Bridge

end
-- ==== Proof.RefValue.lean ====
import proofs.«115220_j39462159515865_1_alg».proof.Proof.TailKernel
import proofs.«115220_j39462159515865_1_alg».proof.Proof.Gen.ReferenceIdeal.Run
import proofs.«115220_j39462159515865_1_alg».proof.Proof.Gen.ReferenceIdeal.Read

/-!
The reference's two results written with the functions `Cert.Bridge.tailOut` and `Host.sqrt`:
its array result is `tailOut` applied to its matrix product `x0 · x2` and to the other four arguments,
its scalar result the square root of the sum of the squares of `x1`.
The shape records of the two programs have the same fields, so the terms agree by unfolding.
-/

noncomputable section

namespace Cert.Bridge

open Idealize.ShloMosaic Idealize.ShloMosaic.TcCoe Idealize.SL.Sem

variable {F : FTy → Type} [FloatOps F]

/-- The two programs' records for the gather of single elements of the square array are one record. -/
theorem gatherA_eq :
    Cert.ReferenceIdeal.gather_S8192x8192_S262144x2_S262144_n_01_n_n_01_1_11
      = Cert.KernelIdeal.gather_S8192x8192_S262144x2_S262144_n_01_n_n_01_1_11 := rfl

/-- The two programs' records for the gather of rows of the product are one record. -/
theorem gatherY_eq :
    Cert.ReferenceIdeal.gather_S8192x64_S262144x1_S262144x64_1_0_n_n_0_1_164
      = Cert.KernelIdeal.gather_S8192x64_S262144x1_S262144x64_1_0_n_n_0_1_164 := rfl

/-- The two programs' records for the scatter of rows are one record. -/
theorem scatter_eq :
    Cert.ReferenceIdeal.scatter_S8192x64_S262144x1_S262144x64_1_0_0_1
      = Cert.KernelIdeal.scatter_S8192x64_S262144x1_S262144x64_1_0_0_1 := rfl

set_option maxRecDepth 8192 in
/-- The reference's array result is `tailOut` of its matrix product and its other arguments. -/
theorem ref_out (x0 x1 : (⟨Cert.ReferenceIdeal.S8192x8192, .f32⟩ : BufTy).Contents (Elt F))
    (x2 : (⟨Cert.ReferenceIdeal.S8192x64, .f32⟩ : BufTy).Contents (Elt F))
    (x3 : (⟨Cert.ReferenceIdeal.S262144, .f32⟩ : BufTy).Contents (Elt F))
    (x4 x5 : (⟨Cert.ReferenceIdeal.S262144, .i32⟩ : BufTy).Contents (Elt F)) :
    Cert.ReferenceIdeal.Read.val_main_v28 (F := F) x0 x1 x2 x3 x4 x5
      = tailOut (F := F) (Cert.ReferenceIdeal.Read.val_main_v0 (F := F) x0 x2) x1 x3 x4 x5 := rfl

/-- The reference's scalar result is the square root of its sum of squares. -/
theorem ref_norm (x1 : (⟨Cert.ReferenceIdeal.S8192x8192, .f32⟩ : BufTy).Contents (Elt F)) :
    Cert.ReferenceIdeal.Read.val_main_v29 (F := F) x1
      = Host.sqrt (F := F) (Cert.ReferenceIdeal.Read.val_main_call0_v1 (F := F) x1) := rfl

end Cert.Bridge

end
-- ==== Proof.RefClaims.lean ====
import proofs.«115220_j39462159515865_1_alg».proof.Defs
import proofs.«115220_j39462159515865_1_alg».proof.Proof.Gen.Pre_finite_inputs
import proofs.«115220_j39462159515865_1_alg».proof.Proof.RefValue

/-!
The reference program's two statements.

* `frame_ri` : it runs and leaves its six arguments as it found them.
* `ref_run` : it runs, its array result is `tailOut` of the matrix product of arguments 0 and 2 and of
  arguments 1, 3, 4, 5, its scalar result is the square root of the sum of squares of argument 1, and
  the six arguments are unchanged — the conjuncts in the order of the claim that compares the two programs.
-/

noncomputable section

namespace Cert.Bridge

open Idealize.ShloMosaic Idealize.ShloMosaic.TcCoe Idealize.SL.Sem
open Cert.ReferenceIdeal

/-- The reference runs and its arguments end unchanged. -/
theorem frame_ri : Cert.frame_ReferenceIdeal := fun m ρ _ =>
  (θ_run Cert.ReferenceIdeal.defs _ _).mono (fun _ h c => (h c).2.2)
    (Cert.ReferenceIdeal.Value.run (F := Ideal) m ρ)

/-- The reference runs; its results are the two functions of its arguments, which end unchanged. -/
theorem ref_run (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, g'⟩ (fun r => ∀ c : Dev Cert.ReferenceIdeal.nD,
        r.2.mem ((c.tc : Thread Cert.ReferenceIdeal.nD Cert.ReferenceIdeal.τ).loc main_v28)
          = tailOut (F := Ideal)
              (Cert.ReferenceIdeal.Read.val_main_v0 (F := Ideal)
                (m' ((c.tc : Thread Cert.ReferenceIdeal.nD Cert.ReferenceIdeal.τ).loc main_arg0))
                (m' ((c.tc : Thread Cert.ReferenceIdeal.nD Cert.ReferenceIdeal.τ).loc main_arg2)))
              (m' ((c.tc : Thread Cert.ReferenceIdeal.nD Cert.ReferenceIdeal.τ).loc main_arg1))
              (m' ((c.tc : Thread Cert.ReferenceIdeal.nD Cert.ReferenceIdeal.τ).loc main_arg3))
              (m' ((c.tc : Thread Cert.ReferenceIdeal.nD Cert.ReferenceIdeal.τ).loc main_arg4))
              (m' ((c.tc : Thread Cert.ReferenceIdeal.nD Cert.ReferenceIdeal.τ).loc main_arg5))
        ∧ r.2.mem ((c.tc : Thread Cert.ReferenceIdeal.nD Cert.ReferenceIdeal.τ).loc main_v29)
          = Host.sqrt (F := Ideal) (s := S_) (φ := .f32) (Cert.ReferenceIdeal.Read.val_main_call0_v1 (F := Ideal)
              (m' ((c.tc : Thread Cert.ReferenceIdeal.nD Cert.ReferenceIdeal.τ).loc main_arg1)))
        ∧ r.2.mem ((c.tc : Thread Cert.ReferenceIdeal.nD Cert.ReferenceIdeal.τ).loc main_arg0) = m' ((c.tc : Thread Cert.ReferenceIdeal.nD Cert.ReferenceIdeal.τ).loc main_arg0)
        ∧ r.2.mem ((c.tc : Thread Cert.ReferenceIdeal.nD Cert.ReferenceIdeal.τ).loc main_arg1) = m' ((c.tc : Thread Cert.ReferenceIdeal.nD Cert.ReferenceIdeal.τ).loc main_arg1)
        ∧ r.2.mem ((c.tc : Thread Cert.ReferenceIdeal.nD Cert.ReferenceIdeal.τ).loc main_arg2) = m' ((c.tc : Thread Cert.ReferenceIdeal.nD Cert.ReferenceIdeal.τ).loc main_arg2)
        ∧ r.2.mem ((c.tc : Thread Cert.ReferenceIdeal.nD Cert.ReferenceIdeal.τ).loc main_arg3) = m' ((c.tc : Thread Cert.ReferenceIdeal.nD Cert.ReferenceIdeal.τ).loc main_arg3)
        ∧ r.2.mem ((c.tc : Thread Cert.ReferenceIdeal.nD Cert.ReferenceIdeal.τ).loc main_arg4) = m' ((c.tc : Thread Cert.ReferenceIdeal.nD Cert.ReferenceIdeal.τ).loc main_arg4)
        ∧ r.2.mem ((c.tc : Thread Cert.ReferenceIdeal.nD Cert.ReferenceIdeal.τ).loc main_arg5) = m' ((c.tc : Thread Cert.ReferenceIdeal.nD Cert.ReferenceIdeal.τ).loc main_arg5)) :=
  (θ_run Cert.ReferenceIdeal.defs _ _).mono
    (fun _ h c =>
      ⟨((h c).1.trans (Cert.ReferenceIdeal.Read.val_main_v28_eq (F := Ideal) _ _ _ _ _ _)).trans (ref_out (F := Ideal) _ _ _ _ _ _),
       ((h c).2.1.trans (Cert.ReferenceIdeal.Read.val_main_v29_eq (F := Ideal) _)).trans (ref_norm (F := Ideal) _),
       (h c).2.2⟩)
    (Cert.ReferenceIdeal.Value.run (F := Ideal) m' g')

end Cert.Bridge

end
-- ==== Proof.R0Pieces.lean ====
/-
  Region 0: what each case leaves, in terms of the body's arithmetic. The accumulator after a point is the payload
  "old accumulator + x block · weight block" of the point's blocks — over the cleared accumulator when k = 0 — and at
  k = 3 the output block receives that same value.
-/
import proofs.«115220_j39462159515865_1_alg».proof.Proof.R0Frame
import Idealize.ShloMosaic.Lib.Pipeline.Value

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz2 : (![0, 0] : Fin 2 → Nat) = fun _ => 0 := by funext a; fin_cases a <;> rfl

theorem sout0_A_0_eq (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : cond0_0 i) (hc1 : ¬cond0_1 i) (x0 : Vec F S1024x2048 .f32) (x1 : Vec F S2048x64 .f32) :
    sout0_A_0 c i arg2 harg2 arg3 harg3 arg4 harg4 arg5 harg5 hc0 hc1 x0 x1 = k0_pay2 x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero hz2]
  simp only [View.readAt_eq_ld, harg2.read_unread, harg3.read_unread, harg5.read_unread, View.ld_unit_zero (S := S1024x2048) hz2, View.ld_unit_zero (S := S2048x64) hz2, View.ld_unit_zero (S := S1024x64) hz2, View.readCov_unit_zero (S := S1024x64) arg5.view hz2]

theorem sout0_B_0_eq (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : ¬cond0_0 i) (hc1 : ¬cond0_1 i) (x0 : Vec F S1024x2048 .f32) (x1 : Vec F S2048x64 .f32) (xs0 : Vec F S1024x64 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_cons_unit_zero hz2]
  simp only [View.readAt_eq_ld, harg2.read_unread, harg3.read_unread, harg5.read_unread, View.ld_unit_zero (S := S1024x2048) hz2, View.ld_unit_zero (S := S2048x64) hz2, View.ld_unit_zero (S := S1024x64) hz2, View.readCov_unit_zero (S := S1024x64) arg5.view hz2]

theorem sout0_C_0_eq (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : ¬cond0_0 i) (hc1 : cond0_1 i) (x0 : Vec F S1024x2048 .f32) (x1 : Vec F S2048x64 .f32) (xs0 : Vec F S1024x64 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_cons_unit_zero hz2]
  simp only [View.readAt_eq_ld, harg2.read_unread, harg3.read_unread, harg5.read_unread, View.ld_unit_zero (S := S1024x2048) hz2, View.ld_unit_zero (S := S2048x64) hz2, View.ld_unit_zero (S := S1024x64) hz2, View.readCov_unit_zero (S := S1024x64) arg5.view hz2]

theorem out0_C_2_eq (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : ¬cond0_0 i) (hc1 : cond0_1 i) (x0 : Vec F S1024x2048 .f32) (x1 : Vec F S2048x64 .f32) (xs0 : Vec F S1024x64 .f32) :
    out0_C_2 c i arg2 harg2 arg3 harg3 arg4 harg4 arg5 harg5 hc0 hc1 x0 x1 xs0 = k0_pay2 x0 x1 xs0 := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_cons_unit_zero hz2]
  simp only [View.readAt_eq_ld, harg2.read_unread, harg3.read_unread, harg5.read_unread, View.ld_unit_zero (S := S1024x2048) hz2, View.ld_unit_zero (S := S2048x64) hz2, View.ld_unit_zero (S := S1024x64) hz2, View.readCov_unit_zero (S := S1024x64) arg5.view hz2]

end Cert.KernelIdeal.R0

end
-- ==== Proof.R0Acc.lean ====
/-
  Region 0: the accumulator as a plain recursion over the body's arithmetic. After point n it holds
  "(cleared, if n is the first point of its row block; else what point n − 1 left) + x block(n) · weight block(n)";
  and at the last point of a row block the output block receives that value.
-/
import proofs.«115220_j39462159515865_1_alg».proof.Proof.R0Pieces

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The accumulator after point `n`. -/
def accAt (c : Dev nD) : (n : ℕ) → n < cfg0.N → Vec F S1024x64 .f32
  | 0, hn => k0_pay2 (iblk V c 0 ⟨0, hn⟩) (iblk V c 1 ⟨0, hn⟩) (k0_pay1 (F := F))
  | n + 1, hn => k0_pay2 (iblk V c 0 ⟨n + 1, hn⟩) (iblk V c 1 ⟨n + 1, hn⟩)
      (if (n + 1) % 4 = 0 then k0_pay1 (F := F) else accAt c n (Nat.lt_of_succ_lt hn))

theorem accAt_zero (c : Dev nD) (hn : 0 < cfg0.N) :
    accAt V c 0 hn = k0_pay2 (iblk V c 0 ⟨0, hn⟩) (iblk V c 1 ⟨0, hn⟩) (k0_pay1 (F := F)) := rfl

theorem accAt_succ (c : Dev nD) (n : ℕ) (hn : n + 1 < cfg0.N) :
    accAt V c (n + 1) hn = k0_pay2 (iblk V c 0 ⟨n + 1, hn⟩) (iblk V c 1 ⟨n + 1, hn⟩)
      (if (n + 1) % 4 = 0 then k0_pay1 (F := F) else accAt V c n (Nat.lt_of_succ_lt hn)) := rfl

/-- What the run leaves in the accumulator after point `n` is that recursion. -/
theorem outsAt0_snd (c : Dev nD) : ∀ (n : ℕ) (hn : n < cfg0.N), (outsAt0 V c n hn).2 = accAt V c n hn
  | 0, hn => by
    refine (congrArg Prod.snd (outsAt0_A V c ⟨0, hn⟩ (Nat.zero_mod _) (by show ¬(0 % 4 = 3); decide))).trans ?_
    unfold atA; dsimp only
    rw [sout0_A_0_eq, accAt_zero]
  | n + 1, hn => by
    have ih := outsAt0_snd c n (Nat.lt_of_succ_lt hn)
    by_cases h0 : (n + 1) % 4 = 0
    · have h1 : ¬(n + 1) % 4 = 3 := by omega
      refine (congrArg Prod.snd (outsAt0_A V c ⟨n + 1, hn⟩ h0 h1)).trans ?_
      unfold atA; dsimp only
      rw [sout0_A_0_eq, accAt_succ, if_pos h0]
    · by_cases h1 : (n + 1) % 4 = 3
      · refine (congrArg Prod.snd (outsAt0_C V c ⟨n + 1, hn⟩ h0 h1)).trans ?_
        unfold atC; dsimp only
        rw [sout0_C_0_eq, accAt_succ, if_neg h0]
        simp only [Nat.add_sub_cancel]
        rw [ih]
      · refine (congrArg Prod.snd (outsAt0_B V c ⟨n + 1, hn⟩ h0 h1)).trans ?_
        unfold atB; dsimp only
        rw [sout0_B_0_eq, accAt_succ, if_neg h0]
        simp only [Nat.add_sub_cancel]
        rw [ih]

/-- At the last point of a row block the output block's staging buffer holds the accumulator. -/
theorem outsAt0_fst (c : Dev nD) (t : Fin cfg0.N) (h1 : t.val % 4 = 3) :
    (outsAt0 V c t.val t.isLt).1 = accAt V c t.val t.isLt := by
  have h0 : ¬t.val % 4 = 0 := by omega
  rw [← outsAt0_snd V c t.val t.isLt, outsAt0_C V c t h0 h1]
  unfold atC; dsimp only
  rw [out0_C_2_eq, sout0_C_0_eq]

end Cert.KernelIdeal.R0

end
-- ==== Proof.LibMatmulNN.lean ====
/-
  A matrix product read at an entry, at the ideal instance.

  For a `tpu.matmul` whose dimension numbers are the plain ones — the left operand M×K contracted on its second axis,
  the right operand K×N contracted on its first, no batch axis — into the zero accumulator, the entry at row `a` and
  column `b` is the textbook sum over `k : Fin K` of `lhs (a, k) · rhs (k, b)` on the extended reals: the
  contraction's one-axis index set is identified with `Fin K` and each operand index is named by its coordinates.
  The lemma is stated for any dimension-number record with those five lists, so it applies to every printed record
  of this form whatever the extents.
-/
import Idealize.ShloMosaic.PureOps.Ideal.Laws
import Idealize.ShloMosaic.Lib.ValueIdx

noncomputable section

open scoped BigOperators

namespace Cert.LibMatmulNN

open Idealize.ShloMosaic Idealize.ShloMosaic.ValueIdx

variable {M K N : Nat} {φ₁ φ₂ : FTy}

/-- The contraction shape of a record with one left contracting axis has rank one. -/
theorem contr_rank (d : DotDims ⟨2, ![M, K]⟩ ⟨2, ![K, N]⟩ ⟨2, ![M, N]⟩) (hlc : d.lhsContracting = [1]) :
    d.contr.rank = 1 := by
  rw [d.rank_contr, hlc]; rfl

/-- Its one extent is the left operand's second. -/
theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  have h := d.size_contr 0 (by rw [hlc]; exact Nat.one_pos)
  rw [h]
  simp only [hlc, List.getElem_cons_zero]
  rfl

/-- A rank-2 index read at a position known to be the first is its first coordinate. -/
theorem ix2_val_zero {n0 n1 : Nat} (a : Fin n0) (b : Fin n1) (p : Nat) (hp : p < 2) (h : p = 0) :
    (ix2 a b ⟨p, hp⟩).val = a.val := by subst h; rfl

/-- At a position known to be the second, its second coordinate. -/
theorem ix2_val_one {n0 n1 : Nat} (a : Fin n0) (b : Fin n1) (p : Nat) (hp : p < 2) (h : p = 1) :
    (ix2 a b ⟨p, hp⟩).val = b.val := by subst h; rfl

/-- The left operand's index at output `(a, b)` and contraction position `k` is `(a, k)`. -/
theorem lhsIdx_eq (d : DotDims ⟨2, ![M, K]⟩ ⟨2, ![K, N]⟩ ⟨2, ![M, N]⟩)
    (hlc : d.lhsContracting = [1]) (hln : d.lhsNonContracting = [0]) (hlb : d.lhsBatch = [])
    (a : Fin M) (b : Fin N) (k : Fin K) :
    d.lhsIdx (ix2 a b) ((contrEquiv1 d K (contr_rank d hlc) (contr_size d hlc)).symm k) = ix2 a k := by
  funext c
  apply Fin.ext
  match c with
  | ⟨0, _⟩ =>
    show (d.lhsIdx (ix2 a b) _ (0 : Fin 2)).val = a.val
    have hnb : (0 : Fin 2) ∉ d.lhsBatch := by rw [hlb]; exact List.not_mem_nil
    have hn : (0 : Fin 2) ∈ d.lhsNonContracting := by rw [hln]; exact List.mem_singleton.mpr rfl
    unfold DotDims.lhsIdx
    rw [dif_neg hnb, dif_pos hn]
    simp only [Fin.val_cast]
    exact ix2_val_zero a b _ _ (by simp [hlb, hln])
  | ⟨1, _⟩ =>
    show (d.lhsIdx (ix2 a b) _ (1 : Fin 2)).val = k.val
    rw [DotDims.lhsIdx_val_of_single d hlc]
    exact contrEquiv1_symm_val d K (contr_rank d hlc) (contr_size d hlc) k

/-- The right operand's index there is `(k, b)`. -/
theorem rhsIdx_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (a : Fin M) (b : Fin N) (k : Fin K) :
    d.rhsIdx (ix2 a b) ((contrEquiv1 d K (contr_rank d hlc) (contr_size d hlc)).symm k) = ix2 k b := by
  funext c
  apply Fin.ext
  match c with
  | ⟨0, _⟩ =>
    show (d.rhsIdx (ix2 a b) _ (0 : Fin 2)).val = k.val
    rw [DotDims.rhsIdx_val_of_single d hrc]
    exact contrEquiv1_symm_val d K (contr_rank d hlc) (contr_size d hlc) k
  | ⟨1, _⟩ =>
    show (d.rhsIdx (ix2 a b) _ (1 : Fin 2)).val = b.val
    have hnb : (1 : Fin 2) ∉ d.rhsBatch := by rw [hrb]; exact List.not_mem_nil
    have hn : (1 : Fin 2) ∈ d.rhsNonContracting := by rw [hrn]; exact List.mem_singleton.mpr rfl
    unfold DotDims.rhsIdx
    rw [dif_neg hnb, dif_pos hn]
    simp only [Fin.val_cast]
    exact ix2_val_one a b _ _ (by simp [hlb, hln, hrn])

/-- A plain matrix product into the zero accumulator, read at the entry `(a, b)`: the sum over `k` of the left
    operand's `(a, k)` times the right operand's `(k, b)`. -/
theorem matmul_zero_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    FloatOps.matmul d prec lhs rhs (constant (F := Ideal) ⟨2, ![M, N]⟩ .f32 0x00000000#32) (ix2 a b)
      = ∑ k : Fin K, lhs (ix2 a k) * rhs (ix2 k b) := by
  rw [Ideal.matmul_constant_zero_apply]
  rw [← Equiv.sum_comp (contrEquiv1 d K (contr_rank d hlc) (contr_size d hlc)).symm]
  refine Finset.sum_congr rfl fun k _ => ?_
  rw [lhsIdx_eq d hlc hln hlb a b k, rhsIdx_eq d hlc hrc hln hrn hlb hrb a b k]

/-- The same for the product written with the vector operation `matmul`, as a printed kernel body applies it. -/
theorem matmul_zero_apply' (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    matmul d prec lhs rhs (constant (F := Ideal) ⟨2, ![M, N]⟩ .f32 0x00000000#32) (ix2 a b)
      = ∑ k : Fin K, lhs (ix2 a k) * rhs (ix2 k b) :=
  matmul_zero_apply d hlc hrc hln hrn hlb hrb prec lhs rhs a b

end Cert.LibMatmulNN

end
-- ==== Proof.MatmulSpec.lean ====
import proofs.«115220_j39462159515865_1_alg».proof.Proof.Gen.ReferenceIdeal.Read
import Mathlib.Algebra.BigOperators.Fin

/-!
A sum over 8192 terms is the sum of its four consecutive blocks of 2048 terms, added in order onto zero:

  Σ_{k < 8192} f k = (((0 + Σ_{j < 2048} f j) + Σ_{j < 2048} f (2048 + j)) + Σ_{j < 2048} f (4096 + j)) + Σ_{j < 2048} f (6144 + j).

Only the laws of a commutative additive monoid are used. `dot_split` is this identity for the entry
`Σ_k x (i₀, k) * w (k, i₁)` of a matrix product, the four blocks given as arbitrary terms `T b j` that agree
with the product's terms at `k = 2048 * b + j`.
-/

noncomputable section

namespace Cert.Bridge

open Idealize.ShloMosaic
open scoped BigOperators

/-- A sum over `range c` with `c = a + n` is the sum over `range a` plus the next `n` terms. -/
theorem sum_range_step {M : Type*} [AddCommMonoid M] (f : ℕ → M) (n a c : ℕ) (h : a + n = c) :
    ∑ k ∈ Finset.range c, f k = ∑ k ∈ Finset.range a, f k + ∑ j ∈ Finset.range n, f (a + j) := by
  subst h
  exact Finset.sum_range_add f a n

/-- 8192 terms are four blocks of 2048, added in order onto zero. -/
theorem sum_fin_split4 {M : Type*} [AddCommMonoid M] (f : ℕ → M) :
    ∑ k : Fin 8192, f k.val
      = (((0 + ∑ j : Fin 2048, f (2048 * 0 + j.val)) + ∑ j : Fin 2048, f (2048 * 1 + j.val))
          + ∑ j : Fin 2048, f (2048 * 2 + j.val)) + ∑ j : Fin 2048, f (2048 * 3 + j.val) := by
  have h : ∑ k ∈ Finset.range 8192, f k
      = (((0 + ∑ j ∈ Finset.range 2048, f (0 + j)) + ∑ j ∈ Finset.range 2048, f (2048 + j))
          + ∑ j ∈ Finset.range 2048, f (4096 + j)) + ∑ j ∈ Finset.range 2048, f (6144 + j) := by
    rw [sum_range_step f 2048 6144 8192 rfl, sum_range_step f 2048 4096 6144 rfl,
      sum_range_step f 2048 2048 4096 rfl, sum_range_step f 2048 0 2048 rfl, Finset.sum_range_zero]
  rw [Fin.sum_univ_eq_sum_range (fun k => f k) 8192,
    Fin.sum_univ_eq_sum_range (fun j => f (2048 * 0 + j)) 2048,
    Fin.sum_univ_eq_sum_range (fun j => f (2048 * 1 + j)) 2048,
    Fin.sum_univ_eq_sum_range (fun j => f (2048 * 2 + j)) 2048,
    Fin.sum_univ_eq_sum_range (fun j => f (2048 * 3 + j)) 2048]
  exact h

/-- The same, for a family indexed by `Fin 8192`, the blocks given as terms `T b j` that agree with the family's
    at `k = 2048 * b + j`. -/
theorem sum_split4_of {M : Type*} [AddCommMonoid M] (g : Fin 8192 → M) (T : ℕ → Fin 2048 → M)
    (hT : ∀ (b : ℕ) (j : Fin 2048) (k : Fin 8192), b < 4 → k.val = 2048 * b + j.val → g k = T b j) :
    ∑ k : Fin 8192, g k
      = (((0 + ∑ j : Fin 2048, T 0 j) + ∑ j : Fin 2048, T 1 j) + ∑ j : Fin 2048, T 2 j) + ∑ j : Fin 2048, T 3 j := by
  let f : ℕ → M := fun n => if h : n < 8192 then g ⟨n, h⟩ else 0
  have hf : ∀ k : Fin 8192, g k = f k.val := fun k => by
    show g k = if h : k.val < 8192 then g ⟨k.val, h⟩ else 0
    rw [dif_pos k.isLt]
  have hb : ∀ (b : ℕ) (j : Fin 2048), b < 4 → f (2048 * b + j.val) = T b j := fun b j hb4 => by
    have hlt : 2048 * b + j.val < 8192 := by have := j.isLt; omega
    show (if h : 2048 * b + j.val < 8192 then g ⟨2048 * b + j.val, h⟩ else 0) = T b j
    rw [dif_pos hlt]
    exact hT b j ⟨2048 * b + j.val, hlt⟩ hb4 rfl
  rw [Finset.sum_congr rfl (fun k _ => hf k), sum_fin_split4 f,
    Finset.sum_congr rfl (fun j _ => hb 0 j (by decide)), Finset.sum_congr rfl (fun j _ => hb 1 j (by decide)),
    Finset.sum_congr rfl (fun j _ => hb 2 j (by decide)), Finset.sum_congr rfl (fun j _ => hb 3 j (by decide))]

/-- The entry `i` of the matrix product, read as the reference reads it, is the four block products added in
    order onto zero: `T b j` is any term equal to `x (i₀, 2048 b + j) * w (2048 b + j, i₁)`. -/
theorem dot_split (x : Cert.ReferenceIdeal.S8192x8192.Idx → EReal) (w : Cert.ReferenceIdeal.S8192x64.Idx → EReal)
    (i : Cert.ReferenceIdeal.S8192x64.Idx) (T : ℕ → Fin 2048 → EReal)
    (hT : ∀ (b : ℕ) (j : Fin 2048) (k : Fin 8192), b < 4 → k.val = 2048 * b + j.val →
      x (Cert.ReferenceIdeal.Read.lidx_main_v0 i k) * w (Cert.ReferenceIdeal.Read.ridx_main_v0 i k) = T b j) :
    ∑ k : Fin 8192, x (Cert.ReferenceIdeal.Read.lidx_main_v0 i k) * w (Cert.ReferenceIdeal.Read.ridx_main_v0 i k)
      = (((0 + ∑ j : Fin 2048, T 0 j) + ∑ j : Fin 2048, T 1 j) + ∑ j : Fin 2048, T 2 j) + ∑ j : Fin 2048, T 3 j :=
  sum_split4_of (fun k => x (Cert.ReferenceIdeal.Read.lidx_main_v0 i k) * w (Cert.ReferenceIdeal.Read.ridx_main_v0 i k)) T hT

/-- The reference's left index at `(i, k)` has coordinates `(i₀, k)`. -/
theorem lidx_val (i : Cert.ReferenceIdeal.S8192x64.Idx) (k : Fin 8192) :
    (Cert.ReferenceIdeal.Read.lidx_main_v0 i k 0).val = (i 0).val
      ∧ (Cert.ReferenceIdeal.Read.lidx_main_v0 i k 1).val = k.val := ⟨rfl, rfl⟩

/-- The reference's right index at `(i, k)` has coordinates `(k, i₁)`. -/
theorem ridx_val (i : Cert.ReferenceIdeal.S8192x64.Idx) (k : Fin 8192) :
    (Cert.ReferenceIdeal.Read.ridx_main_v0 i k 0).val = k.val
      ∧ (Cert.ReferenceIdeal.Read.ridx_main_v0 i k 1).val = (i 1).val := ⟨rfl, rfl⟩

end Cert.Bridge

end
-- ==== Proof.R0Value.lean ====
/-
  Region 0 at the ideal instance: the product's array after the region. Entry (R, q) of the array, R = 1024·i + r,
  is written back once, at the last point of row block i, from an accumulator that went
  0 → 0 + P₀ → (0 + P₀) + P₁ → … with P_b = Σ_j x(R, 2048·b + j) · w(2048·b + j, q): the four contraction blocks of
  the textbook sum Σ_k x(R, k) · w(k, q), which is what a single whole product computes. Only the commutative-monoid
  laws of the extended reals are used (a sum may be cut into consecutive stretches), no finiteness.
-/
import proofs.«115220_j39462159515865_1_alg».proof.Proof.R0Acc
import proofs.«115220_j39462159515865_1_alg».proof.Proof.LibMatmulNN
import proofs.«115220_j39462159515865_1_alg».proof.Proof.MatmulSpec
import proofs.«115220_j39462159515865_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.R0

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-! ## The body's arithmetic at an entry -/

/-- The cleared accumulator is zero everywhere. -/
theorem pay1_apply (y : S1024x64.Idx) : k0_pay1 (F := Ideal) y = 0 := by
  unfold k0_pay1
  refine (congrFun (shapeCast_self _ _) y).trans ?_
  exact Ideal.ofBits_zero_f32

/-- One step: the old accumulator's entry plus the block product's entry. -/
theorem pay2_apply (x0 : Vec Ideal S1024x2048 .f32) (x1 : Vec Ideal S2048x64 .f32) (s : Vec Ideal S1024x64 .f32) (r : Fin 1024) (q : Fin 64) :
    k0_pay2 (F := Ideal) x0 x1 s (ix2 r q) = s (ix2 r q) + ∑ j : Fin 2048, x0 (ix2 r j) * x1 (ix2 j q) := by
  unfold k0_pay2
  refine (congrFun (shapeCast_self _ _) (ix2 r q)).trans ?_
  refine (addf_apply _ _ _).trans ?_
  refine congrArg (s (ix2 r q) + ·) ?_
  exact Cert.LibMatmulNN.matmul_zero_apply' dot_S1024x2048_S2048x64_S1024x64_1_0_0_1_n_n rfl rfl rfl rfl rfl rfl none _ _ r q

/-! ## The blocks in the arrays' own coordinates -/

/-- The index maps over the grid: point t = 4·i + k reads x's block (i, k) and the weight's block (k, 0), and writes
    the product's block (i, 0). -/
theorem idx_facts : ∀ t : Fin cfg0.N, win0_0.index t (0 : Fin 2) = t.val / 4 ∧ win0_0.index t (1 : Fin 2) = t.val % 4
    ∧ win0_1.index t (0 : Fin 2) = t.val % 4 ∧ win0_1.index t (1 : Fin 2) = 0
    ∧ win0_2.index t (0 : Fin 2) = t.val / 4 ∧ win0_2.index t (1 : Fin 2) = 0 :=
  (by decide +kernel : ∀ t : Fin grid0.N, _)

theorem blk0_apply (c : Dev nD) (t : Fin cfg0.N) (r : Fin 1024) (j : Fin 2048) (R J : Fin 8192)
    (hR : R.val = 1024 * (t.val / 4) + r.val) (hJ : J.val = 2048 * (t.val % 4) + j.val) :
    iblk V c 0 t (ix2 r j) = V c main_arg0 (ix2 R J) := by
  obtain ⟨e0, e1, -⟩ := idx_facts t
  show V c main_arg0 (((cfg0.win 0).blk t).view.emb (ix2 r j)) = V c main_arg0 (ix2 R J)
  refine congrArg _ ?_
  funext a; apply Fin.ext
  match a with
  | ⟨0, _⟩ => show win0_0.index t (0 : Fin 2) * 1024 + 1 * r.val = R.val; omega
  | ⟨1, _⟩ => show win0_0.index t (1 : Fin 2) * 2048 + 1 * j.val = J.val; omega

theorem blk1_apply (c : Dev nD) (t : Fin cfg0.N) (j : Fin 2048) (q : Fin 64) (J : Fin 8192)
    (hJ : J.val = 2048 * (t.val % 4) + j.val) :
    iblk V c 1 t (ix2 j q) = V c main_arg2 (ix2 J q) := by
  obtain ⟨-, -, e2, e3, -⟩ := idx_facts t
  show V c main_arg2 (((cfg0.win 1).blk t).view.emb (ix2 j q)) = V c main_arg2 (ix2 J q)
  refine congrArg _ ?_
  funext a; apply Fin.ext
  match a with
  | ⟨0, _⟩ => show win0_1.index t (0 : Fin 2) * 2048 + 1 * j.val = J.val; omega
  | ⟨1, _⟩ => show win0_1.index t (1 : Fin 2) * 64 + 1 * q.val = q.val; omega

/-! ## The accumulator over a row block -/

/-- The x block and the weight block at point `s`, at their literal shapes. -/
abbrev bx (c : Dev nD) (s : ℕ) (hs : s < cfg0.N) : Vec Ideal S1024x2048 .f32 := iblk V c 0 ⟨s, hs⟩
abbrev bw (c : Dev nD) (s : ℕ) (hs : s < cfg0.N) : Vec Ideal S2048x64 .f32 := iblk V c 1 ⟨s, hs⟩

/-- The block product's entry at point `s`. -/
def Pt (c : Dev nD) (s : ℕ) (hs : s < cfg0.N) (r : Fin 1024) (q : Fin 64) : EReal :=
  ∑ j : Fin 2048, bx V c s hs (ix2 r j) * bw V c s hs (ix2 j q)

theorem accAt_congr (c : Dev nD) (a b : ℕ) (ha : a < cfg0.N) (hb : b < cfg0.N) (h : a = b) :
    accAt V c a ha = accAt V c b hb := by subst h; rfl

/-- At the first point of a row block the accumulator is the cleared one plus that point's product. -/
theorem acc_first (c : Dev nD) (n : ℕ) (hn : n < cfg0.N) (h : n % 4 = 0) (r : Fin 1024) (q : Fin 64) :
    accAt V c n hn (ix2 r q) = 0 + Pt V c n hn r q := by
  have e : accAt V c n hn = k0_pay2 (F := Ideal) (bx V c n hn) (bw V c n hn) (k0_pay1 (F := Ideal)) := by
    cases n with
    | zero => rfl
    | succ n => rw [accAt_succ, if_pos h]
  rw [e]
  refine (pay2_apply (bx V c n hn) (bw V c n hn) (k0_pay1 (F := Ideal)) r q).trans ?_
  rw [pay1_apply]; rfl

/-- At a later point it is what the point before left plus this point's product. -/
theorem acc_next (c : Dev nD) (n : ℕ) (hn : n + 1 < cfg0.N) (h : (n + 1) % 4 ≠ 0) (r : Fin 1024) (q : Fin 64) :
    accAt V c (n + 1) hn (ix2 r q) = accAt V c n (Nat.lt_of_succ_lt hn) (ix2 r q) + Pt V c (n + 1) hn r q := by
  have e : accAt V c (n + 1) hn = k0_pay2 (F := Ideal) (bx V c (n + 1) hn) (bw V c (n + 1) hn) (accAt V c n (Nat.lt_of_succ_lt hn)) := by
    rw [accAt_succ, if_neg h]
  rw [e]
  exact pay2_apply (bx V c (n + 1) hn) (bw V c (n + 1) hn) (accAt V c n (Nat.lt_of_succ_lt hn)) r q

/-- At the last point of a row block: the four products added in order onto zero. -/
theorem acc_row (c : Dev nD) (n : ℕ) (hn : n + 3 < cfg0.N) (h : n % 4 = 0) (r : Fin 1024) (q : Fin 64) :
    accAt V c (n + 3) hn (ix2 r q)
      = (((0 + Pt V c n (by omega) r q) + Pt V c (n + 1) (by omega) r q) + Pt V c (n + 2) (by omega) r q) + Pt V c (n + 3) hn r q := by
  rw [acc_next V c (n + 2) hn (by omega) r q, acc_next V c (n + 1) (by omega) (by omega) r q,
    acc_next V c n (by omega) (by omega) r q, acc_first V c n (by omega) h r q]

/-! ## What is written back, and the array -/

/-- The product as one function of the two argument arrays: the whole product's own term. -/
abbrev G0 (x : (⟨Cert.ReferenceIdeal.S8192x8192, .f32⟩ : BufTy).Contents (Elt Ideal)) (w : (⟨Cert.ReferenceIdeal.S8192x64, .f32⟩ : BufTy).Contents (Elt Ideal)) :
    (⟨Cert.ReferenceIdeal.S8192x64, .f32⟩ : BufTy).Contents (Elt Ideal) :=
  Cert.ReferenceIdeal.Read.val_main_v0 (F := Ideal) x w

/-- The entry of the whole product at row 1024·i + r of row block i, cut into the four contraction blocks. -/
theorem G0_row (c : Dev nD) (n : ℕ) (hn : n + 3 < cfg0.N) (h : n % 4 = 0) (r : Fin 1024) (q : Fin 64) (R : Fin 8192)
    (hR : R.val = 1024 * (n / 4) + r.val) :
    G0 (V c main_arg0) (V c main_arg2) (ix2 R q)
      = (((0 + Pt V c n (by omega) r q) + Pt V c (n + 1) (by omega) r q) + Pt V c (n + 2) (by omega) r q) + Pt V c (n + 3) hn r q := by
  have hN : cfg0.N = 32 := N_0
  unfold G0
  rw [Cert.ReferenceIdeal.Read.val_main_v0_apply]
  refine (Cert.Bridge.dot_split (V c main_arg0) (V c main_arg2) (ix2 R q)
    (fun b j => if hb : n + b < cfg0.N then bx V c (n + b) hb (ix2 r j) * bw V c (n + b) hb (ix2 j q) else 0) ?_).trans ?_
  · intro b j k hb hk
    have hb' : n + b < cfg0.N := by omega
    rw [dif_pos hb']
    rw [show bx V c (n + b) hb' (ix2 r j) = V c main_arg0 (ix2 R k) from
        blk0_apply V c ⟨n + b, hb'⟩ r j R k (by show R.val = 1024 * ((n + b) / 4) + r.val; omega) (by show k.val = 2048 * ((n + b) % 4) + j.val; omega),
      show bw V c (n + b) hb' (ix2 j q) = V c main_arg2 (ix2 k q) from
        blk1_apply V c ⟨n + b, hb'⟩ j q k (by show k.val = 2048 * ((n + b) % 4) + j.val; omega)]
    refine congrArg₂ (· * ·) (congrArg _ ?_) (congrArg _ ?_)
    · funext a; apply Fin.ext
      match a with
      | ⟨0, _⟩ => rfl
      | ⟨1, _⟩ => rfl
    · funext a; apply Fin.ext
      match a with
      | ⟨0, _⟩ => rfl
      | ⟨1, _⟩ => rfl
  · unfold Pt
    simp only [Nat.add_zero, dif_pos (show n < cfg0.N by omega), dif_pos (show n + 1 < cfg0.N by omega), dif_pos (show n + 2 < cfg0.N by omega), dif_pos hn]

/-- WHAT A FLUSHING POINT WRITES BACK is its block of the whole product. -/
theorem flushed0_eq (c : Dev nD) (t : Fin cfg0.N) (hf : (cfg0.win 2).flush t = true) :
    (dat0 V c).flushed 2 t = ((cfg0.win 2).blk t).view.read (Elt Ideal) (G0 (V c main_arg0) (V c main_arg2)) := by
  have h3 : t.val % 4 = 3 := (flush0_2 t).mp hf
  have hN : t.val < 32 := lt_of_lt_of_eq t.isLt (show cfg0.N = 32 from N_0)
  obtain ⟨-, -, -, -, e4, e5⟩ := idx_facts t
  show (cfg0.win 2).cut (grid0.coords t) ((dat0 V c).after 2 t) = _
  rw [after0_2, outsAt0_fst V c t h3]
  funext y
  obtain ⟨r, q, rfl⟩ : ∃ (r : Fin 1024) (q : Fin 64), y = ix2 r q := ⟨y 0, y 1, eq_ix2 y⟩
  show accAt V c t.val t.isLt (ix2 r q) = G0 (V c main_arg0) (V c main_arg2) (((cfg0.win 2).blk t).view.emb (ix2 r q))
  obtain ⟨n, hn3⟩ : ∃ n, t.val = n + 3 := ⟨t.val - 3, by omega⟩
  have hn : n + 3 < cfg0.N := hn3 ▸ t.isLt
  have h0 : n % 4 = 0 := by omega
  have hR : 1024 * (n / 4) + r.val < 8192 := by have := r.isLt; omega
  have hemb : ((cfg0.win 2).blk t).view.emb (ix2 r q) = ix2 (⟨1024 * (n / 4) + r.val, hR⟩ : Fin 8192) q := by
    funext a; apply Fin.ext
    match a with
    | ⟨0, _⟩ => show win0_2.index t (0 : Fin 2) * 1024 + 1 * r.val = 1024 * (n / 4) + r.val; omega
    | ⟨1, _⟩ => show win0_2.index t (1 : Fin 2) * 64 + 1 * q.val = q.val; omega
  rw [hemb, G0_row V c n hn h0 r q ⟨1024 * (n / 4) + r.val, hR⟩ rfl, ← acc_row V c n hn h0 r q,
    accAt_congr V c t.val (n + 3) t.isLt hn hn3]

/-- An index of the product's array is in point `t`'s block iff its row is in the block's range. -/
theorem mem_blk0 (t : Fin cfg0.N) (i : S8192x64.Idx) :
    i ∈ ((cfg0.win 2).blk t).view.set ↔ ∀ a : Fin 2, win0_2.index t a * S1024x64.size a ≤ (i a).val ∧ (i a).val < win0_2.index t a * S1024x64.size a + S1024x64.size a := by
  show i ∈ ((View.whole main_v0).slice (win0_2.rect t)).set ↔ _
  rw [View.set_slice_whole, Rect.mem_set_unit]
  exact Iff.rfl

/-- Every index of the product's array is in the block of the last point of its row block. -/
theorem cover0 (i : S8192x64.Idx) : ∃ t : Fin cfg0.N, (cfg0.win 2).flush t = true ∧ i ∈ ((cfg0.win 2).blk t).view.set := by
  have hi0 : (i 0).val < 8192 := (i 0).isLt
  have hi1 : (i 1).val < 64 := (i 1).isLt
  have hN : cfg0.N = 32 := N_0
  refine ⟨⟨4 * ((i 0).val / 1024) + 3, by omega⟩, (flush0_2 _).mpr (by show (4 * ((i 0).val / 1024) + 3) % 4 = 3; omega), ?_⟩
  rw [mem_blk0]
  obtain ⟨-, -, -, -, e4, e5⟩ := idx_facts ⟨4 * ((i 0).val / 1024) + 3, by omega⟩
  intro a
  match a with
  | ⟨0, _⟩ =>
    show win0_2.index _ (0 : Fin 2) * 1024 ≤ (i 0).val ∧ (i 0).val < win0_2.index _ (0 : Fin 2) * 1024 + 1024
    rw [e4]; show (4 * ((i 0).val / 1024) + 3) / 4 * 1024 ≤ (i 0).val ∧ (i 0).val < (4 * ((i 0).val / 1024) + 3) / 4 * 1024 + 1024
    omega
  | ⟨1, _⟩ =>
    show win0_2.index _ (1 : Fin 2) * 64 ≤ (i 1).val ∧ (i 1).val < win0_2.index _ (1 : Fin 2) * 64 + 64
    rw [e5]; omega

/-- THE ARRAY after the region: the whole product of the two argument arrays as the region found them. -/
theorem final0 (c : Dev nD) : (dat0 V c).arrAt 2 cfg0.N = G0 (V c main_arg0) (V c main_arg2) :=
  (dat0 V c).arrAt_eq_of_cover 2 (G0 (V c main_arg0) (V c main_arg2)) (fun t ht => flushed0_eq V c t ht) cover0

end Cert.KernelIdeal.R0

end
-- ==== Proof.NormBridge.lean ====
import proofs.«115220_j39462159515865_1_alg».proof.Proof.TailKernel

/-!
The scalar result through the reshape: the square root of the single entry of a 1×1 array is the square
root of any scalar array holding that entry.
-/

noncomputable section

namespace Cert.Bridge

open Idealize.ShloMosaic Idealize.ShloMosaic.TcCoe Idealize.SL.Sem
open Cert.KernelIdeal Cert.KernelIdeal.Gen

variable {F : FTy → Type} [FloatOps F]

/-- The reshape of a 1×1 array to a scalar reads the array at some index. -/
theorem shapeCast_S1x1_S_apply (sq : (⟨S1x1, .f32⟩ : BufTy).Contents (Elt F)) (i : S_.Idx) :
    shapeCast S_ sq shapeCasts_S1x1_S_ i = sq (Shape.reshapeEquiv shapeCasts_S1x1_S_ i) := rfl

/-- If every entry of the 1×1 array `sq` is the entry of the scalar array `v`, then `tailNorm sq` is the
    square root of `v`. -/
theorem tailNorm_eq (sq : (⟨S1x1, .f32⟩ : BufTy).Contents (Elt F)) (v : (⟨S_, .f32⟩ : BufTy).Contents (Elt F))
    (h : ∀ (j : S1x1.Idx) (i : S_.Idx), sq j = v i) :
    tailNorm (F := F) sq = Host.sqrt (F := F) v :=
  congrArg (Host.sqrt (F := F)) (funext fun i => h (Shape.reshapeEquiv shapeCasts_S1x1_S_ i) i)

/-- `tailOut` of equal products is equal. -/
theorem tailOut_congr {y y' : (⟨S8192x64, .f32⟩ : BufTy).Contents (Elt F)} (hy : y = y')
    (a : (⟨S8192x8192, .f32⟩ : BufTy).Contents (Elt F)) (vals : (⟨S262144, .f32⟩ : BufTy).Contents (Elt F))
    (row col : (⟨S262144, .i32⟩ : BufTy).Contents (Elt F)) :
    tailOut (F := F) y a vals row col = tailOut (F := F) y' a vals row col := by
  rw [hy]

end Cert.Bridge

end
-- ==== Proof.KernelValue.lean ====
import proofs.«115220_j39462159515865_1_alg».proof.Proof.WholeArgs
import proofs.«115220_j39462159515865_1_alg».proof.Proof.R0Value
import proofs.«115220_j39462159515865_1_alg».proof.Proof.NormBridge
import proofs.«115220_j39462159515865_1_alg».proof.Proof.Gen.ReferenceIdeal.Read

/-!
The kernel program's run with its two results as functions of its arguments: the array result is
`tailOut` of the whole matrix product of arguments 0 and 2 and of arguments 1, 3, 4, 5; the scalar result is the
square root of the sum of squares of argument 1; the six arguments end unchanged.

The first region's array is the whole product (`R0.final0`); that every entry of the second region's 1 × 1
array is the sum of squares is taken as the hypothesis `Hnorm`.
-/

set_option maxRecDepth 16384

noncomputable section

namespace Cert.Bridge

open Idealize.ShloMosaic Idealize.ShloMosaic.TcCoe Idealize.SL.Sem
open Cert.KernelIdeal Cert.KernelIdeal.Gen

/-- Every entry of the 1 × 1 array the second region leaves is the sum of squares of argument 1, as the
    reference computes it. -/
def Hnorm : Prop :=
  ∀ (m : (ℓ : Loc nD τ sig) → Buf (Elt Ideal) ℓ) (c : Dev nD) (j : S1x1.Idx) (i : S_.Idx),
    ((Cert.KernelIdeal.R1.dat1 (F := Ideal) (Cert.KernelIdeal.Whole.V1 m) c).arrAt 1 cfg1.N : S1x1.Idx → Ideal .f32) j
      = Cert.ReferenceIdeal.Read.val_main_call0_v1 (F := Ideal) (m ((c : Thread nD τ).loc main_arg1)) i

/-- `tailOut` of equal arrays is equal. -/
theorem tailOut_congr5 {F : FTy → Type} [FloatOps F]
    {y y' : (⟨S8192x64, .f32⟩ : BufTy).Contents (Elt F)} {a a' : (⟨S8192x8192, .f32⟩ : BufTy).Contents (Elt F)}
    {vals vals' : (⟨S262144, .f32⟩ : BufTy).Contents (Elt F)} {row row' col col' : (⟨S262144, .i32⟩ : BufTy).Contents (Elt F)}
    (hy : y = y') (ha : a = a') (hv : vals = vals') (hr : row = row') (hc : col = col') :
    tailOut (F := F) y a vals row col = tailOut (F := F) y' a' vals' row' col' := by
  subst hy ha hv hr hc
  rfl

/-- The array result, read off the last valuation. -/
theorem W3_v31 (m : (ℓ : Loc nD τ sig) → Buf (Elt Ideal) ℓ) (c : Dev nD) :
    Cert.KernelIdeal.Whole.W3 m c (Proc.devRef .tc main_v31)
      = tailOut (F := Ideal)
          (Cert.ReferenceIdeal.Read.val_main_v0 (F := Ideal) (m ((c : Thread nD τ).loc main_arg0)) (m ((c : Thread nD τ).loc main_arg2)))
          (m ((c : Thread nD τ).loc main_arg1)) (m ((c : Thread nD τ).loc main_arg3))
          (m ((c : Thread nD τ).loc main_arg4)) (m ((c : Thread nD τ).loc main_arg5)) :=
  (after_v31 (F := Ideal) (Cert.KernelIdeal.Whole.W2 m c)).trans
    (tailOut_congr5
      ((Cert.KernelIdeal.Whole.W2_v0 m c).trans (Cert.KernelIdeal.R0.final0 (Cert.KernelIdeal.Whole.V0 m) c))
      (Cert.KernelIdeal.Whole.W2_arg1 m c) (Cert.KernelIdeal.Whole.W2_arg3 m c)
      (Cert.KernelIdeal.Whole.W2_arg4 m c) (Cert.KernelIdeal.Whole.W2_arg5 m c))

/-- The scalar result, read off the last valuation. -/
theorem W3_v3 (hnorm : Hnorm) (m : (ℓ : Loc nD τ sig) → Buf (Elt Ideal) ℓ) (c : Dev nD) :
    Cert.KernelIdeal.Whole.W3 m c (Proc.devRef .tc main_v3)
      = Host.sqrt (F := Ideal) (s := S_) (φ := .f32)
          (Cert.ReferenceIdeal.Read.val_main_call0_v1 (F := Ideal) (m ((c : Thread nD τ).loc main_arg1))) :=
  (after_v3 (F := Ideal) (Cert.KernelIdeal.Whole.W2 m c)).trans
    (tailNorm_eq (F := Ideal) _ _ fun j i =>
      (congrFun (Cert.KernelIdeal.Whole.W2_v1 m c) j).trans (hnorm m c j i))

/-- THE KERNEL'S RUN WITH ITS VALUES: every weakly fair execution terminates, nothing faulting; the two results
    are the two functions of the arguments; the arguments end unchanged. -/
theorem kernel_run (hnorm : Hnorm) (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v31)
        = tailOut (F := Ideal)
            (Cert.ReferenceIdeal.Read.val_main_v0 (F := Ideal) (m ((c.tc : Thread nD τ).loc main_arg0)) (m ((c.tc : Thread nD τ).loc main_arg2)))
            (m ((c.tc : Thread nD τ).loc main_arg1)) (m ((c.tc : Thread nD τ).loc main_arg3))
            (m ((c.tc : Thread nD τ).loc main_arg4)) (m ((c.tc : Thread nD τ).loc main_arg5))
      ∧ r.2.mem ((c.tc : Thread nD τ).loc main_v3)
        = Host.sqrt (F := Ideal) (s := S_) (φ := .f32)
            (Cert.ReferenceIdeal.Read.val_main_call0_v1 (F := Ideal) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (Cert.KernelIdeal.Whole.mem_uc main_v31 (by decide))).trans (W3_v31 m c),
     (h c _ (Cert.KernelIdeal.Whole.mem_uc main_v3 (by decide))).trans (W3_v3 hnorm m c),
     (h c _ (Cert.KernelIdeal.Whole.mem_uc main_arg0 (by decide))).trans (Cert.KernelIdeal.Whole.W3_arg0 m c),
     (h c _ (Cert.KernelIdeal.Whole.mem_uc main_arg1 (by decide))).trans (Cert.KernelIdeal.Whole.W3_arg1 m c),
     (h c _ (Cert.KernelIdeal.Whole.mem_uc main_arg2 (by decide))).trans (Cert.KernelIdeal.Whole.W3_arg2 m c),
     (h c _ (Cert.KernelIdeal.Whole.mem_uc main_arg3 (by decide))).trans (Cert.KernelIdeal.Whole.W3_arg3 m c),
     (h c _ (Cert.KernelIdeal.Whole.mem_uc main_arg4 (by decide))).trans (Cert.KernelIdeal.Whole.W3_arg4 m c),
     (h c _ (Cert.KernelIdeal.Whole.mem_uc main_arg5 (by decide))).trans (Cert.KernelIdeal.Whole.W3_arg5 m c)⟩)
    (Cert.KernelIdeal.Whole.run_all m g)

end Cert.Bridge

end
-- ==== Proof.AlgClaim.lean ====
import proofs.«115220_j39462159515865_1_alg».proof.Defs
import proofs.«115220_j39462159515865_1_alg».proof.Proof.KernelValue
import proofs.«115220_j39462159515865_1_alg».proof.Proof.RefClaims

/-!
The two programs at the ideal instance: from memories that agree on the six arguments both run, both end
with the arguments unchanged, and their results are equal — the array result `tailOut` of the matrix product and
the other arguments, the scalar result the square root of the sum of squares — each program's run having been
brought to these same two functions of its own arguments.
-/

set_option maxRecDepth 16384

noncomputable section

namespace Cert.Bridge

open Idealize.ShloMosaic Idealize.ShloMosaic.TcCoe Idealize.SL.Sem

/-- The comparison of the two programs, given the value of the second region's 1 × 1 array. -/
theorem algebraic_of (hnorm : Hnorm) : Cert.algebraic_KernelIdeal_ReferenceIdeal := by
  intro m g m' g' _ hagree
  refine ⟨_, _, kernel_run hnorm m g, ?_⟩
  refine (θ_run Cert.ReferenceIdeal.defs _ _).mono (fun _ h c => ?_) (ref_run m' g')
  obtain ⟨h0, h1, h2, h3, h4, h5⟩ := hagree c
  refine ⟨(h c).1.trans ?_, (h c).2.1.trans ?_, (h c).2.2⟩
  · rw [h0, h1, h2, h3, h4, h5]
  · rw [h1]

end Cert.Bridge

end
-- ==== Proof.NormSpec.lean ====
import Idealize.ShloMosaic.Lib.ValueIdx
import Mathlib.Algebra.BigOperators.Fin

/-!
The sum of a family over the 8192 × 8192 index set, block by block.

The index set is cut into 8 × 4 blocks of 1024 rows and 2048 columns; block `t` (`t < 32`, counted row-major:
block row `t / 4`, block column `t % 4`) holds the indices `(1024 * (t / 4) + r, 2048 * (t % 4) + c)`. Then

  Σ_j g j = Σ_{t < 32} Σ_{r < 1024} Σ_{c < 2048} g (1024 * (t / 4) + r, 2048 * (t % 4) + c),

and a sequence that starts at zero and adds the block sums one at a time ends at that sum. Only the laws of a
commutative additive monoid are used.
-/

noncomputable section

namespace Cert.Bridge

open Idealize.ShloMosaic Idealize.ShloMosaic.ValueIdx
open scoped BigOperators

/-- A sum over `range (n * m)` is the sum over `n` consecutive blocks of `m` terms. -/
theorem sum_range_mul {M : Type*} [AddCommMonoid M] (f : ℕ → M) (n m : ℕ) :
    ∑ k ∈ Finset.range (n * m), f k = ∑ b ∈ Finset.range n, ∑ j ∈ Finset.range m, f (m * b + j) := by
  induction n with
  | zero => simp
  | succ n ih =>
    rw [Nat.add_mul, Nat.one_mul, Finset.sum_range_add, ih, Finset.sum_range_succ, Nat.mul_comm n m]

/-- The double sum over 8192 × 8192 natural coordinates, by 8 × 4 blocks of 1024 × 2048. -/
theorem sum_blocks {M : Type*} [AddCommMonoid M] (G : ℕ → ℕ → M) :
    ∑ r ∈ Finset.range (8 * 1024), ∑ c ∈ Finset.range (4 * 2048), G r c
      = ∑ t ∈ Finset.range (8 * 4), ∑ r' ∈ Finset.range 1024, ∑ c' ∈ Finset.range 2048,
          G (1024 * (t / 4) + r') (2048 * (t % 4) + c') := by
  rw [sum_range_mul (fun r => ∑ c ∈ Finset.range (4 * 2048), G r c) 8 1024,
    sum_range_mul (fun t => ∑ r' ∈ Finset.range 1024, ∑ c' ∈ Finset.range 2048,
      G (1024 * (t / 4) + r') (2048 * (t % 4) + c')) 8 4]
  refine Finset.sum_congr rfl fun i0 _ => ?_
  have hL : ∀ r' : ℕ, ∑ c ∈ Finset.range (4 * 2048), G (1024 * i0 + r') c
      = ∑ i1 ∈ Finset.range 4, ∑ c' ∈ Finset.range 2048, G (1024 * i0 + r') (2048 * i1 + c') :=
    fun r' => sum_range_mul (fun c => G (1024 * i0 + r') c) 4 2048
  rw [Finset.sum_congr rfl (fun r' _ => hL r'), Finset.sum_comm]
  refine Finset.sum_congr rfl fun i1 hi1 => ?_
  have h1 : i1 < 4 := Finset.mem_range.mp hi1
  have e1 : (4 * i0 + i1) / 4 = i0 := by omega
  have e2 : (4 * i0 + i1) % 4 = i1 := by omega
  rw [e1, e2]

/-- The sum of `g` over the 8192 × 8192 index set is the sum over the 32 blocks of the block sums, the blocks'
    terms given as any `B t r c` that agrees with `g` at the index `(1024 * (t / 4) + r, 2048 * (t % 4) + c)`. -/
theorem sum_idx_blocks {M : Type*} [AddCommMonoid M] (g : (⟨2, ![8192, 8192]⟩ : Shape).Idx → M)
    (B : ℕ → Fin 1024 → Fin 2048 → M)
    (hB : ∀ (t : ℕ) (r : Fin 1024) (c : Fin 2048) (j : (⟨2, ![8192, 8192]⟩ : Shape).Idx), t < 32 →
      (j 0).val = 1024 * (t / 4) + r.val → (j 1).val = 2048 * (t % 4) + c.val → g j = B t r c) :
    ∑ j, g j = ∑ t ∈ Finset.range 32, ∑ r : Fin 1024, ∑ c : Fin 2048, B t r c := by
  let G : ℕ → ℕ → M := fun r c => if h : r < 8192 ∧ c < 8192 then g (ix2 ⟨r, h.1⟩ ⟨c, h.2⟩) else 0
  have hG : ∀ (a b : Fin 8192), g (ix2 a b) = G a.val b.val := fun a b => by
    show g (ix2 a b) = if h : a.val < 8192 ∧ b.val < 8192 then g (ix2 ⟨a.val, h.1⟩ ⟨b.val, h.2⟩) else 0
    rw [dif_pos ⟨a.isLt, b.isLt⟩]
  have hGB : ∀ (t : ℕ) (r : Fin 1024) (c : Fin 2048), t < 32 →
      G (1024 * (t / 4) + r.val) (2048 * (t % 4) + c.val) = B t r c := fun t r c ht => by
    have hr : 1024 * (t / 4) + r.val < 8192 := by have := r.isLt; omega
    have hc : 2048 * (t % 4) + c.val < 8192 := by have := c.isLt; omega
    show (if h : 1024 * (t / 4) + r.val < 8192 ∧ 2048 * (t % 4) + c.val < 8192
      then g (ix2 ⟨1024 * (t / 4) + r.val, h.1⟩ ⟨2048 * (t % 4) + c.val, h.2⟩) else 0) = B t r c
    rw [dif_pos ⟨hr, hc⟩]
    exact hB t r c _ ht rfl rfl
  have hrow : ∀ a : Fin 8192, ∑ b : Fin 8192, g (ix2 a b) = ∑ c ∈ Finset.range (4 * 2048), G a.val c := fun a => by
    rw [Finset.sum_congr rfl (fun b _ => hG a b)]
    exact Fin.sum_univ_eq_sum_range (fun c => G a.val c) 8192
  have hblk : ∀ t ∈ Finset.range 32, ∑ r' ∈ Finset.range 1024, ∑ c' ∈ Finset.range 2048,
      G (1024 * (t / 4) + r') (2048 * (t % 4) + c') = ∑ r : Fin 1024, ∑ c : Fin 2048, B t r c := fun t ht => by
    have ht' : t < 32 := Finset.mem_range.mp ht
    rw [← Fin.sum_univ_eq_sum_range (fun r' => ∑ c' ∈ Finset.range 2048,
      G (1024 * (t / 4) + r') (2048 * (t % 4) + c')) 1024]
    refine Finset.sum_congr rfl fun r _ => ?_
    rw [← Fin.sum_univ_eq_sum_range (fun c' => G (1024 * (t / 4) + r.val) (2048 * (t % 4) + c')) 2048]
    exact Finset.sum_congr rfl fun c _ => hGB t r c ht'
  rw [sum_idx2 g, Finset.sum_congr rfl (fun a _ => hrow a)]
  have hall := Fin.sum_univ_eq_sum_range (fun r => ∑ c ∈ Finset.range (4 * 2048), G r c) 8192
  rw [hall]
  exact (sum_blocks G).trans (Finset.sum_congr rfl hblk)

/-- A sequence that starts at zero and adds `P t` at step `t` holds, after `N` steps, the sum of the `P t`. -/
theorem acc_eq_sum {M : Type*} [AddCommMonoid M] (acc P : ℕ → M) (N : ℕ) (h0 : acc 0 = 0)
    (hs : ∀ t, t < N → acc (t + 1) = acc t + P t) : acc N = ∑ t ∈ Finset.range N, P t := by
  have key : ∀ n, n ≤ N → acc n = ∑ t ∈ Finset.range n, P t := by
    intro n
    induction n with
    | zero => intro _; rw [h0, Finset.sum_range_zero]
    | succ n ih =>
      intro hn
      rw [hs n (Nat.lt_of_succ_le hn), ih (Nat.le_of_succ_le hn), Finset.sum_range_succ]
  exact key N (Nat.le_refl N)

/-- (N1) The sum over the 8192 × 8192 index set of a function of the two coordinates is the sum over the 32 blocks
    `t` (block row `t / 4`, block column `t % 4`) of the sums over the block's 1024 rows and 2048 columns. -/
theorem sum_idx_grid {M : Type*} [AddCommMonoid M] (g : ℕ → ℕ → M) :
    ∑ j : (⟨2, ![8192, 8192]⟩ : Shape).Idx, g (j 0).val (j 1).val
      = ∑ t : Fin 32, ∑ r : Fin 1024, ∑ q : Fin 2048,
          g (1024 * (t.val / 4) + r.val) (2048 * (t.val % 4) + q.val) := by
  have hL : ∑ j : (⟨2, ![8192, 8192]⟩ : Shape).Idx, g (j 0).val (j 1).val
      = ∑ r ∈ Finset.range (8 * 1024), ∑ c ∈ Finset.range (4 * 2048), g r c := by
    rw [sum_idx2 (fun j : (⟨2, ![8192, 8192]⟩ : Shape).Idx => g (j 0).val (j 1).val)]
    show ∑ a : Fin 8192, ∑ b : Fin 8192, g a.val b.val = _
    rw [Finset.sum_congr rfl (fun (a : Fin 8192) _ => Fin.sum_univ_eq_sum_range (fun c => g a.val c) 8192)]
    exact Fin.sum_univ_eq_sum_range (fun r => ∑ c ∈ Finset.range 8192, g r c) 8192
  have hR : ∑ t : Fin 32, ∑ r : Fin 1024, ∑ q : Fin 2048,
        g (1024 * (t.val / 4) + r.val) (2048 * (t.val % 4) + q.val)
      = ∑ t ∈ Finset.range (8 * 4), ∑ r' ∈ Finset.range 1024, ∑ c' ∈ Finset.range 2048,
          g (1024 * (t / 4) + r') (2048 * (t % 4) + c') := by
    rw [← Fin.sum_univ_eq_sum_range (fun t => ∑ r' ∈ Finset.range 1024, ∑ c' ∈ Finset.range 2048,
      g (1024 * (t / 4) + r') (2048 * (t % 4) + c')) 32]
    refine Finset.sum_congr rfl fun t _ => ?_
    rw [← Fin.sum_univ_eq_sum_range (fun r' => ∑ c' ∈ Finset.range 2048,
      g (1024 * (t.val / 4) + r') (2048 * (t.val % 4) + c')) 1024]
    refine Finset.sum_congr rfl fun r _ => ?_
    exact (Fin.sum_univ_eq_sum_range (fun c' => g (1024 * (t.val / 4) + r.val) (2048 * (t.val % 4) + c')) 2048)
  rw [hL, hR]
  exact sum_blocks g

/-- (N1') The same for any summand `G` that is a function `g` of the index's two coordinates. -/
theorem sum_idx_grid_of {M : Type*} [AddCommMonoid M] (G : (⟨2, ![8192, 8192]⟩ : Shape).Idx → M) (g : ℕ → ℕ → M)
    (hG : ∀ j, G j = g (j 0).val (j 1).val) :
    ∑ j, G j = ∑ t : Fin 32, ∑ r : Fin 1024, ∑ q : Fin 2048,
      g (1024 * (t.val / 4) + r.val) (2048 * (t.val % 4) + q.val) := by
  rw [Finset.sum_congr rfl (fun j _ => hG j)]
  exact sum_idx_grid g

/-- (N2) A running sum that starts at `0 + s 0` and adds `s (n + 1)` at step `n + 1` holds, after step `n`,
    zero plus the first `n + 1` terms. The step equation is asked only below `N`. -/
theorem running_sum {M : Type*} [AddCommMonoid M] (acc s : ℕ → M) (N : ℕ) (h0 : acc 0 = 0 + s 0)
    (hs : ∀ n, n < N → acc (n + 1) = acc n + s (n + 1)) :
    ∀ n, n ≤ N → acc n = 0 + ∑ t ∈ Finset.range (n + 1), s t := by
  intro n
  induction n with
  | zero => intro _; rw [h0, Finset.sum_range_one]
  | succ n ih =>
    intro hn
    rw [hs n (Nat.lt_of_succ_le hn), ih (Nat.le_of_succ_le hn), add_assoc, ← Finset.sum_range_succ]

/-- (N2) After the 32 steps `0, …, 31` the running sum holds zero plus all 32 terms. -/
theorem running_sum_32 {M : Type*} [AddCommMonoid M] (acc s : ℕ → M) (h0 : acc 0 = 0 + s 0)
    (hs : ∀ n, n < 31 → acc (n + 1) = acc n + s (n + 1)) :
    acc 31 = 0 + ∑ t : Fin 32, s t.val := by
  rw [running_sum acc s 31 h0 hs 31 (Nat.le_refl 31), Fin.sum_univ_eq_sum_range s 32]

/-- (N3) Two nested sums, each started from zero, are the plain double sum. -/
theorem zero_add_sum_zero_add_sum {M : Type*} [AddCommMonoid M] {m n : ℕ} (a : Fin m → Fin n → M) :
    0 + ∑ r : Fin m, (0 + ∑ q : Fin n, a r q) = ∑ r : Fin m, ∑ q : Fin n, a r q := by
  simp only [zero_add]

end Cert.Bridge

end
-- ==== Proof.R1Value.lean ====
/- The sum-of-squares kernel (second region), its value: the accumulator cell after point n holds
   zero plus the sum over the blocks 0..n of each block's sum of squares; the output block receives
   the cell at the last point; so, at the ideal values, the 1×1 result array ends holding zero plus
   the sum over every index of the operand's square. -/
import proofs.«115220_j39462159515865_1_alg».proof.Proof.R1Frame
import proofs.«115220_j39462159515865_1_alg».proof.Proof.NormSpec
import proofs.«115220_j39462159515865_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## What each case's found pieces are -/

theorem hz : (![0, 0] : Fin 2 → Nat) = fun _ => 0 := funext fun a => by fin_cases a <;> rfl

/-- A middle point leaves in the accumulator cell the old contents increased by the block's term. -/
theorem sout1_B_0_eq (c : Dev nD) (i : grid1.Coords) (arg2 : Memref sig .tc .vmem S1024x2048 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : ¬cond1_1 i)
    (x0 : Vec F S1024x2048 .f32) (xs0 : Vec F S1x1 .f32) :
    sout1_B_0 c i arg2 harg2 arg3 harg3 arg4 harg4 hc0 hc1 x0 xs0 = k1_pay2 x0 xs0 := by
  unfold sout1_B_0
  rw [View.read_writes_eq_canon _ _ _ (scover1_B_0 c i arg2 harg2 arg3 harg3 arg4 harg4 hc0 hc1 x0 xs0)]
  unfold kernelRun1_B
  dsimp only
  rw [View.canon_unit_zero hz]
  simp only [View.readAt_eq_ld, harg2.read_unread, harg4.read_unread, View.ld_unit_zero (S := S1024x2048) hz, View.ld_unit_zero (S := S1x1) hz]

/-- The first point leaves in the accumulator cell the zero cell increased by the block's term. -/
theorem sout1_A_0_eq (c : Dev nD) (i : grid1.Coords) (arg2 : Memref sig .tc .vmem S1024x2048 .f32) (harg2 : arg2.IsWhole) (arg3 : Memref sig .tc .vmem S1x1 .f32) (harg3 : arg3.IsWhole) (arg4 : Memref sig .tc .vmem S1x1 .f32) (harg4 : arg4.IsWhole) (hc0 : cond1_0 i) (hc1 : ¬cond1_1 i)
    (x0 : Vec F S1024x2048 .f32) :
    sout1_A_0 c i arg2 harg2 arg3 harg3 arg4 harg4 hc0 hc1 x0 = k1_pay2 x0 (k1_pay1 (F := F)) := by
  unfold sout1_A_0
  rw [View.read_writes_eq_canon _ _ _ (scover1_A_0 c i arg2 harg2 arg3 harg3 arg4 harg4 hc0 hc1 x0)]
  unfold kernelRun1_A
  dsimp only
  sl_unfold_words
  rw [View.canon_cons_unit_zero (S := S1x1) hz, View.readCov_unit_zero (S := S1x1) _ hz]
  simp only [View.readAt_eq_ld, harg2.read_unread, View.ld_unit_zero (S := S1024x2048) hz]

/-- The last point leaves in the accumulator cell the old contents increased by the block's term, -/
theorem sout1_C_0_eq (c : Dev nD) (i : grid1.Coords) (arg2 : Memref sig .tc .vmem S1024x2048 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i)
    (x0 : Vec F S1024x2048 .f32) (xs0 : Vec F S1x1 .f32) :
    sout1_C_0 c i arg2 harg2 arg3 harg3 arg4 harg4 hc0 hc1 x0 xs0 = k1_pay2 x0 xs0 := by
  unfold sout1_C_0
  rw [View.read_writes_eq_canon _ _ _ (scover1_C_0 c i arg2 harg2 arg3 harg3 arg4 harg4 hc0 hc1 x0 xs0)]
  unfold kernelRun1_C
  dsimp only
  sl_unfold_words
  rw [View.canon_unit_zero hz]
  simp only [View.readAt_eq_ld, harg2.read_unread, harg4.read_unread, View.ld_unit_zero (S := S1024x2048) hz, View.ld_unit_zero (S := S1x1) hz]

/-- and the same in the output buffer. -/
theorem out1_C_1_eq (c : Dev nD) (i : grid1.Coords) (arg2 : Memref sig .tc .vmem S1024x2048 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i)
    (x0 : Vec F S1024x2048 .f32) (xs0 : Vec F S1x1 .f32) :
    out1_C_1 c i arg2 harg2 arg3 harg3 arg4 harg4 hc0 hc1 x0 xs0 = k1_pay2 x0 xs0 := by
  unfold out1_C_1
  rw [View.read_writes_eq_canon _ _ _ (cover1_C_1 c i arg2 harg2 arg3 harg3 arg4 harg4 hc0 hc1 x0 xs0)]
  unfold kernelRun1_C
  dsimp only
  sl_unfold_words
  rw [View.canon_unit_zero hz, View.readCov_unit_zero (S := S1x1) _ hz]
  simp only [View.readAt_eq_ld, harg2.read_unread, harg4.read_unread, View.ld_unit_zero (S := S1024x2048) hz, View.ld_unit_zero (S := S1x1) hz]

/-! ## The accumulator cell as a recursion over the body's arithmetic -/

/-- The accumulator cell after point `n`. -/
def accAt1 (c : Dev nD) : (n : ℕ) → n < cfg1.N → Vec F S1x1 .f32
  | 0, hn => k1_pay2 (iblk1 V c 0 ⟨0, hn⟩) (k1_pay1 (F := F))
  | n + 1, hn => k1_pay2 (iblk1 V c 0 ⟨n + 1, hn⟩) (accAt1 c n (Nat.lt_of_succ_lt hn))

theorem accAt1_zero (c : Dev nD) (hn : 0 < cfg1.N) :
    accAt1 V c 0 hn = k1_pay2 (iblk1 V c 0 ⟨0, hn⟩) (k1_pay1 (F := F)) := rfl

theorem accAt1_succ (c : Dev nD) (n : ℕ) (hn : n + 1 < cfg1.N) :
    accAt1 V c (n + 1) hn = k1_pay2 (iblk1 V c 0 ⟨n + 1, hn⟩) (accAt1 V c n (Nat.lt_of_succ_lt hn)) := rfl

/-- What the run leaves in the accumulator cell after point `n` is that recursion. -/
theorem outsAt1_snd (c : Dev nD) : ∀ (n : ℕ) (hn : n < cfg1.N), (outsAt1 V c n hn).2 = accAt1 V c n hn
  | 0, hn => by
    refine (congrArg Prod.snd (outsAt1_A V c ⟨0, hn⟩ (Nat.zero_mod _) (by show ¬(0 % 32 = 31); decide))).trans ?_
    dsimp only
    rw [sout1_A_0_eq, accAt1_zero]
  | n + 1, hn => by
    have ih := outsAt1_snd c n (Nat.lt_of_succ_lt hn)
    have hN : n + 1 < 32 := lt_of_lt_of_eq hn (show cfg1.N = 32 from N_1)
    have h0 : ¬(n + 1) % 32 = 0 := by omega
    by_cases h1 : (n + 1) % 32 = 31
    · refine (congrArg Prod.snd (outsAt1_C V c ⟨n + 1, hn⟩ h0 h1)).trans ?_
      dsimp only
      rw [sout1_C_0_eq, accAt1_succ]
      simp only [Nat.add_sub_cancel]
      rw [ih]
    · refine (congrArg Prod.snd (outsAt1_B V c ⟨n + 1, hn⟩ h0 h1)).trans ?_
      dsimp only
      rw [sout1_B_0_eq, accAt1_succ]
      simp only [Nat.add_sub_cancel]
      rw [ih]

/-- At the last point the output buffer holds the accumulator cell. -/
theorem outsAt1_fst (c : Dev nD) (t : Fin cfg1.N) (h1 : t.val % 32 = 31) :
    (outsAt1 V c t.val t.isLt).1 = accAt1 V c t.val t.isLt := by
  have h0 : ¬t.val % 32 = 0 := by omega
  rw [← outsAt1_snd V c t.val t.isLt, outsAt1_C V c t h0 h1]
  dsimp only
  rw [out1_C_1_eq, sout1_C_0_eq]

end Cert.KernelIdeal.R1

/-! ## At the ideal values -/

namespace Cert.KernelIdeal.R1

open Cert.KernelIdeal Cert.KernelIdeal.Gen
open Idealize.ShloMosaic Idealize.ShloMosaic.TcCoe Idealize.ShloMosaic.Tactic
open Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

theorem idx_S1 (k : S1.Idx) : k = ix1 (0 : Fin 1) := by
  funext d; match d with | ⟨0, _⟩ => exact Fin.ext (by have h : (k 0).val < 1 := (k 0).isLt; show (k 0).val = 0; omega)

theorem idx_S1x1 (k : S1x1.Idx) : k = ix2 (0 : Fin 1) (0 : Fin 1) := by
  funext d
  match d with
  | ⟨0, _⟩ => exact Fin.ext (by have h : (k 0).val < 1 := (k 0).isLt; show (k 0).val = 0; omega)
  | ⟨1, _⟩ => exact Fin.ext (by have h : (k 1).val < 1 := (k 1).isLt; show (k 1).val = 0; omega)

/-- A block's sum of squares: over the rows, the sums over the lanes. -/
def sqEntry (x : Vec Ideal S1024x2048 .f32) (r : Fin 1024) (l : Fin 2048) : Ideal .f32 := x (ix2 r l) * x (ix2 r l)
def blockSq (x : Vec Ideal S1024x2048 .f32) : Ideal .f32 := ∑ r : Fin 1024, ∑ l : Fin 2048, sqEntry x r l

/-- The block's term at the ideal values: the old cell plus the block's sum of squares. -/
theorem k1_pay2_apply (x : Vec Ideal S1024x2048 .f32) (s : Vec Ideal S1x1 .f32) (i : S1x1.Idx) :
    k1_pay2 (F := Ideal) x s i = s i + blockSq x := by
  unfold k1_pay2 blockSq sqEntry
  refine (congrFun (shapeCast_self _ _) i).trans ?_
  refine congrArg (s i + ·) ?_
  refine (shapeCast_apply _ shapeCasts_S1_S1x1 i (ix1 (0 : Fin 1)) ?_).trans ?_
  · rw [Shape.rowMajor_val_one, Shape.rowMajor_val_two, idx_S1x1 i]; rfl
  refine (Ideal.multiReduction_add_single _ _ reduces_S1024x1_S1 (.inl rfl) rfl (ix1 (0 : Fin 1))).trans ?_
  refine Finset.sum_congr rfl fun r _ => ?_
  refine (shapeCast_apply _ shapeCasts_S1024_S1024x1 _ (ix1 r) ?_).trans ?_
  · rw [Shape.rowMajor_val_one, Shape.rowMajor_val_two]
    show r.val = r.val * 1 + 0
    omega
  refine (Ideal.multiReduction_add_single _ _ reduces_S1024x2048_S1024 (.inl rfl) rfl (ix1 r)).trans ?_
  refine Finset.sum_congr rfl fun l _ => ?_
  have e : reduces_S1024x2048_S1024.lift (ix1 r) l = ix2 r l := by
    funext a; match a with | ⟨0, _⟩ => exact Fin.ext rfl | ⟨1, _⟩ => exact Fin.ext rfl
  rw [e]
  rfl

/-- The zero cell at the ideal values. -/
theorem k1_pay1_apply (i : S1x1.Idx) : k1_pay1 (F := Ideal) i = 0 := by
  unfold k1_pay1
  refine (congrFun (shapeCast_self _ _) i).trans ?_
  exact Ideal.ofBits_zero_f32

/-- Block `k`'s sum of squares (zero past the grid). -/
def sqAt (c : Dev nD) (k : ℕ) : Ideal .f32 :=
  if h : k < cfg1.N then blockSq (iblk1 V c 0 ⟨k, h⟩) else 0

/-- The accumulator cell after point `n` is zero plus the blocks' sums of squares up to `n`. -/
theorem accAt1_apply (c : Dev nD) : ∀ (n : ℕ) (hn : n < cfg1.N) (i : S1x1.Idx),
    accAt1 V c n hn i = 0 + ∑ k ∈ Finset.range (n + 1), sqAt V c k
  | 0, hn, i => by
    rw [accAt1_zero]
    refine (k1_pay2_apply (iblk1 V c 0 ⟨0, hn⟩) (k1_pay1 (F := Ideal)) i).trans ?_
    rw [k1_pay1_apply, Finset.sum_range_one]
    unfold sqAt
    rw [dif_pos hn]
  | n + 1, hn, i => by
    rw [accAt1_succ]
    refine (k1_pay2_apply (iblk1 V c 0 ⟨n + 1, hn⟩) (accAt1 V c n (Nat.lt_of_succ_lt hn)) i).trans ?_
    rw [accAt1_apply c n (Nat.lt_of_succ_lt hn) i, Finset.sum_range_succ _ (n + 1), add_assoc]
    congr 2
    unfold sqAt
    rw [dif_pos hn]

/-- The operand (the region's input array at the entry contents) as a function on its indices. -/
def opd1 (c : Dev nD) : Vec Ideal S8192x8192 .f32 := V c main_arg1

/-- The block index of the input window at point `t`: block row `t / 4`, block column `t % 4`. -/
theorem index1_0 : ∀ t : Fin cfg1.N, win1_0.index t 0 = t.val / 4 ∧ win1_0.index t 1 = t.val % 4 :=
  (by decide +kernel : ∀ t : Fin grid1.N, win1_0.index t 0 = t.val / 4 ∧ win1_0.index t 1 = t.val % 4)

/-- Entry `(r, l)` of the block read at point `t` is the operand at row `1024 (t / 4) + r`, column
    `2048 (t % 4) + l`. -/
theorem iblk1_apply (c : Dev nD) (t : Fin cfg1.N) (r : Fin 1024) (l : Fin 2048) (j : S8192x8192.Idx)
    (hj0 : (j 0).val = 1024 * (t.val / 4) + r.val) (hj1 : (j 1).val = 2048 * (t.val % 4) + l.val) :
    (iblk1 V c 0 t : Vec Ideal S1024x2048 .f32) (ix2 r l) = opd1 V c j := by
  have hi := index1_0 t
  unfold iblk1 opd1
  rw [View.read_apply]
  show V c main_arg1 _ = V c main_arg1 j
  congr 1
  funext a
  apply Fin.ext
  match a with
  | ⟨0, _⟩ => show win1_0.index t 0 * 1024 + 1 * r.val = (j 0).val; rw [hi.1, hj0]; omega
  | ⟨1, _⟩ => show win1_0.index t 1 * 2048 + 1 * l.val = (j 1).val; rw [hi.2, hj1]; omega

/-- The last point. -/
def tLast : Fin cfg1.N := ⟨31, by rw [show cfg1.N = 32 from N_1]; decide⟩

/-- The result array's contents: its one entry is zero plus the sum over every index of the
    operand's square. -/
def result1 (c : Dev nD) : Buf (Elt Ideal) ((c : Thread nD τ).loc main_v1) :=
  fun _ => 0 + ∑ j : S8192x8192.Idx, opd1 V c j * opd1 V c j

/-- The accumulator cell after the last point is that entry. -/
theorem accAt1_last (c : Dev nD) (i : S1x1.Idx) :
    accAt1 V c tLast.val tLast.isLt i = 0 + ∑ j : S8192x8192.Idx, opd1 V c j * opd1 V c j := by
  rw [accAt1_apply V c tLast.val tLast.isLt i]
  refine congrArg (0 + ·) ?_
  refine Eq.trans ?_ (Cert.Bridge.sum_idx_blocks (fun j : S8192x8192.Idx => opd1 V c j * opd1 V c j)
    (fun t r l => if h : t < cfg1.N then sqEntry (iblk1 V c 0 ⟨t, h⟩) r l else 0) ?_).symm
  · show ∑ k ∈ Finset.range (31 + 1), sqAt V c k = ∑ t ∈ Finset.range 32, _
    refine Finset.sum_congr rfl fun t ht => ?_
    have h : t < cfg1.N := lt_of_lt_of_eq (Finset.mem_range.1 ht) (show cfg1.N = 32 from N_1).symm
    unfold sqAt blockSq
    rw [dif_pos h]
    refine Finset.sum_congr rfl fun r _ => Finset.sum_congr rfl fun l _ => ?_
    rw [dif_pos h]
  · intro t r l j ht hj0 hj1
    have h : t < cfg1.N := lt_of_lt_of_eq ht (show cfg1.N = 32 from N_1).symm
    show opd1 V c j * opd1 V c j = _
    rw [dif_pos h]
    unfold sqEntry
    rw [iblk1_apply V c ⟨t, h⟩ r l j hj0 hj1]

/-- The one write-back, at the last point, writes the result: the 1×1 block is the whole array. -/
theorem flushed1_eq (c : Dev nD) (t : Fin cfg1.N) (hf : (cfg1.win 1).flush t = true) :
    (dat1 V c).flushed 1 t = ((cfg1.win 1).blk t).view.read (Elt Ideal) (result1 V c) := by
  have hN : cfg1.N = 32 := N_1
  have h31 : t.val = 31 := by have := (flush1_1 t).mp hf; have := t.isLt; omega
  obtain rfl : t = tLast := Fin.ext h31
  show (cfg1.win 1).cut (grid1.coords tLast) ((dat1 V c).after 1 tLast) = _
  rw [after1_1, outsAt1_fst V c tLast (by show 31 % 32 = 31; decide)]
  have hz' : (fun a => win1_1.index tLast a * main_v1.ty.shape.size a) = fun _ => 0 := funext fun a => by fin_cases a <;> decide +kernel
  refine Eq.trans ?_ (Memref.read_access_unit_zero (Elt Ideal) main_v1 hz' (fun a => by rw [congrFun hz' a]; simp) (result1 V c)).symm
  funext i
  exact accAt1_last V c i

/-- So the result array ends holding it. -/
theorem final1 (c : Dev nD) : (dat1 V c).arrAt 1 cfg1.N = result1 V c :=
  (dat1 V c).arrAt_eq_of_cover 1 (result1 V c) (flushed1_eq V c) fun i =>
    ⟨tLast, (flush1_1 tLast).mpr (by show 31 % 32 = 31; decide), by
      show i ∈ ((View.whole main_v1).slice (win1_1.rect tLast)).set
      rw [View.set_slice_whole, Rect.mem_set_unit]
      intro a
      have h0 : (i 0 : Nat) < 1 := (i 0).isLt
      have h1 : (i 1 : Nat) < 1 := (i 1).isLt
      match a with
      | ⟨0, _⟩ => show win1_1.index tLast 0 * win1_1.size 0 ≤ (i 0 : Nat) ∧ (i 0 : Nat) < win1_1.index tLast 0 * win1_1.size 0 + win1_1.xsize (grid1.coords tLast) 0
                  rw [show win1_1.index tLast 0 * win1_1.size 0 = 0 from by decide +kernel, show win1_1.xsize (grid1.coords tLast) 0 = 1 from by decide +kernel]; omega
      | ⟨1, _⟩ => show win1_1.index tLast 1 * win1_1.size 1 ≤ (i 1 : Nat) ∧ (i 1 : Nat) < win1_1.index tLast 1 * win1_1.size 1 + win1_1.xsize (grid1.coords tLast) 1
                  rw [show win1_1.index tLast 1 * win1_1.size 1 = 0 from by decide +kernel, show win1_1.xsize (grid1.coords tLast) 1 = 1 from by decide +kernel]; omega⟩

/-- Read as a scalar, the result array is the reference's sum of squares of the operand. -/
theorem final1_ref (c : Dev nD) :
    shapeCast S_ (result1 V c : S1x1.Idx → Ideal .f32) shapeCasts_S1x1_S_
      = Cert.ReferenceIdeal.Read.val_main_call0_v1 (F := Ideal) (opd1 V c) := by
  funext i
  rw [Cert.ReferenceIdeal.Read.val_main_call0_v1_apply]
  show (0 : EReal) + _ = Ideal.ofBits .f32 0x00000000#32 + _
  rw [Ideal.ofBits_zero_f32]
  rfl

end Cert.KernelIdeal.R1

end
-- ==== Proof.HnormProof.lean ====
import proofs.«115220_j39462159515865_1_alg».proof.Proof.AlgClaim
import proofs.«115220_j39462159515865_1_alg».proof.Proof.R1Value

/-!
The hypothesis on the second region, discharged: every entry of the 1 × 1 array it leaves is zero plus the sum of
the squares of argument 1 over the whole index set, which is the reference's scalar sum.
-/

set_option maxRecDepth 16384

noncomputable section

namespace Cert.Bridge

open Idealize.ShloMosaic Idealize.ShloMosaic.TcCoe Idealize.SL.Sem
open Cert.KernelIdeal Cert.KernelIdeal.Gen

/-- The second region's array, entry by entry, is the reference's sum of squares. -/
theorem hnorm : Hnorm := fun m c j i =>
  (congrFun (Cert.KernelIdeal.R1.final1 (Cert.KernelIdeal.Whole.V1 m) c) j).trans
    ((congrFun (Cert.KernelIdeal.R1.final1_ref (Cert.KernelIdeal.Whole.V1 m) c) i).trans
      (congrArg (fun x => Cert.ReferenceIdeal.Read.val_main_call0_v1 (F := Ideal) x i)
        (Cert.KernelIdeal.Whole.W1_arg1 m c)))

/-- The comparison of the two programs. -/
theorem algebraic : Cert.algebraic_KernelIdeal_ReferenceIdeal := algebraic_of hnorm

end Cert.Bridge

end
-- ==== Proof.lean ====
/-
  The kernel computes y = x · W by a blocked matrix product (grid 8 × 4: a 1024 × 2048 block of x times a 2048 × 64
  block of W, accumulated over the four contraction blocks of a row block in a scratch accumulator and written back at
  the fourth), s = Σ attn² by a second kernel (grid 8 × 4 over 1024 × 2048 blocks, each block's squares summed along
  lanes then rows and added to a 1 × 1 accumulator, written back at the last point), and then, by host operations,
  norm = √s and out = segment-sum over the edges of (values · attn[row, col]) · y[col]. The reference computes the same
  with one whole product, one whole sum of squares, and the identical host operations.

  At the ideal instance (extended reals, exact operations, format changes the identity) the two agree entry by entry:
  Σ_k x(R, k) · W(k, q) cut into four consecutive stretches of 2048 is the accumulator's 0 + P₀ + P₁ + P₂ + P₃, and the
  sum of squares over all 8192 × 8192 entries regrouped into the 32 blocks, rows and lanes is the second accumulator's
  running sum — both by the commutative-monoid laws of addition alone, so the finiteness of the inputs is never used.
  The gather / multiply / scatter-add operations after the regions are the same function on both sides, applied to
  equal arguments.

  The frames (every execution terminates, nothing faults, the six argument arrays end unchanged) are read off one run
  of the whole program: the two kernel regions, each with its accumulator's contents tracked from point to point, then
  the host operations, over the thread state "every unscoped buffer at a known valuation"; no region and no host
  operation writes an argument. The same run, at the ideal instance, gives the two results' values. The word-level
  program's frame is that run at the bit-exact instance. The idealization rewrote no operation, so `preserves` is `True`.
-/
import proofs.«115220_j39462159515865_1_alg».proof.Defs
import proofs.«115220_j39462159515865_1_alg».proof.Proof.Gen.Kernel
import proofs.«115220_j39462159515865_1_alg».proof.Proof.Gen.KernelIdeal
import proofs.«115220_j39462159515865_1_alg».proof.Proof.Gen.ReferenceIdeal
import proofs.«115220_j39462159515865_1_alg».proof.Proof.Gen.ReferenceIdeal.Run
import proofs.«115220_j39462159515865_1_alg».proof.Proof.Gen.ReferenceIdeal.Read
import proofs.«115220_j39462159515865_1_alg».proof.Proof.Gen.Pre_finite_inputs
import proofs.«115220_j39462159515865_1_alg».proof.Proof.BWholeArgs
import proofs.«115220_j39462159515865_1_alg».proof.Proof.WholeArgs
import proofs.«115220_j39462159515865_1_alg».proof.Proof.RefClaims
import proofs.«115220_j39462159515865_1_alg».proof.Proof.AlgClaim
import proofs.«115220_j39462159515865_1_alg».proof.Proof.HnormProof

noncomputable section

namespace Cert.Proof

open Idealize.ShloMosaic Idealize.SL.Sem

/-- The word-level program's frame: the whole run at the bit-exact instance. -/
theorem frame_p : Cert.frame_Kernel := fun m ρ _ => Cert.Kernel.Whole.frame (F := Bits) m ρ

/-- The idealized program's frame: the whole run at the ideal instance. -/
theorem frame_pi : Cert.frame_KernelIdeal := fun m ρ _ => Cert.KernelIdeal.Whole.frame (F := Ideal) m ρ

theorem claim : Cert.Claim :=
  ⟨Cert.Kernel.Gen.facts, Cert.KernelIdeal.Gen.facts, Cert.ReferenceIdeal.Gen.facts, Cert.Pre_finite_inputs.Gen.facts,
    frame_p, frame_pi, Cert.Bridge.frame_ri, trivial, Cert.Bridge.algebraic_of Cert.Bridge.hnorm⟩

end Cert.Proof

end
